-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x125 : Shape := ⟨2, ![50000, 125]⟩
abbrev S50000x1 : Shape := ⟨2, ![50000, 1]⟩
abbrev S50000 : Shape := ⟨1, ![50000]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S50000x125 : S_.BroadcastsInDim S50000x125 (![] : Fin 0 → Fin S50000x125.rank)
  reducesTo_S50000x125_S_d0_1 : S50000x125.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x125 .f32) (main_arg1 : FVec F S50000x1 .f32) (main_arg2 : FVec F S50000x1 .f32) (main_arg3 : FVec F S50000 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : IVec S2x800000 32) : IVec S_ 1 :=
  let main_v0 : FVec F S50000x125 .f32 := Host.absf main_arg0
  let main_cst : FVec F S_ .f32 := constant S_ .f32 0x7F800000#32
  let main_v1 : FVec F S50000x125 .f32 := broadcastInDim S50000x125 ![] bcast_S_S50000x125 main_cst
  let main_v2 : IVec S50000x125 1 := cmpf .olt main_v0 main_v1
  let main_c : IVec S_ 1 := constantI S_ 1 1#1
  let main_v3 : IVec S_ 1 := (fun x v => Host.reduce IntOp.andi x v reducesTo_S50000x125_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S50000 .f32 := Host.absf main_arg3
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x125 : Shape := ⟨2, ![50000, 125]⟩
abbrev S50000x1 : Shape := ⟨2, ![50000, 1]⟩
abbrev S50000 : Shape := ⟨1, ![50000]⟩
abbrev S128x128 : Shape := ⟨2, ![128, 128]⟩
abbrev S128 : Shape := ⟨1, ![128]⟩
abbrev S2x800000 : Shape := ⟨2, ![2, 800000]⟩
abbrev S50000x128 : Shape := ⟨2, ![50000, 128]⟩
abbrev S1x128 : Shape := ⟨2, ![1, 128]⟩
abbrev S5000x128 : Shape := ⟨2, ![5000, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x2 : Shape := ⟨2, ![50000, 2]⟩
abbrev S800000x128 : Shape := ⟨2, ![800000, 128]⟩
abbrev S5000x2 : Shape := ⟨2, ![5000, 2]⟩
abbrev S5000x1 : Shape := ⟨2, ![5000, 1]⟩

abbrev nBuf : Space → Nat
  | .hbm => 71
  | .vmem => 30
  | .smem => 0
  | _ => 0

abbrev bufTy : (tb : Table) → Fin (tcTables nBuf tb) → BufTy
  | .hbm, ⟨0, _⟩ => ⟨S50000x125, .f32⟩
  | .hbm, ⟨1, _⟩ => ⟨S50000x1, .f32⟩
  | .hbm, ⟨2, _⟩ => ⟨S50000x1, .f32⟩
  | .hbm, ⟨3, _⟩ => ⟨S50000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S2x800000, .i32⟩
  | .hbm, ⟨15, _⟩ => ⟨S50000x1, .f32⟩
  | .hbm, ⟨16, _⟩ => ⟨S50000x128, .f32⟩
  | .hbm, ⟨17, _⟩ => ⟨S1x128, .f32⟩
  | .hbm, ⟨18, _⟩ => ⟨S50000x128, .bf16⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x2, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .bf16⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S1x128, .f32⟩
  | .hbm, ⟨52, _⟩ => ⟨S1x128, .f32⟩
  | .hbm, ⟨53, _⟩ => ⟨S50000x128, .bf16⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .bf16⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S1x128, .f32⟩
  | .hbm, ⟨69, _⟩ => ⟨S1x128, .f32⟩
  | .hbm, ⟨70, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S5000x128, .bf16⟩
  | .local _ .vmem, ⟨7, _⟩ => ⟨S5000x128, .bf16⟩
  | .local _ .vmem, ⟨8, _⟩ => ⟨S5000x128, .f32⟩
  | .local _ .vmem, ⟨9, _⟩ => ⟨S5000x128, .f32⟩
  | .local _ .vmem, ⟨10, _⟩ => ⟨S5000x2, .f32⟩
  | .local _ .vmem, ⟨11, _⟩ => ⟨S5000x2, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .bf16⟩
  | .local _ .vmem, ⟨19, _⟩ => ⟨S5000x128, .bf16⟩
  | .local _ .vmem, ⟨20, _⟩ => ⟨S5000x128, .f32⟩
  | .local _ .vmem, ⟨21, _⟩ => ⟨S5000x128, .f32⟩
  | .local _ .vmem, ⟨22, _⟩ => ⟨S5000x2, .f32⟩
  | .local _ .vmem, ⟨23, _⟩ => ⟨S5000x2, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x125, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S50000_S50000x1_0 : S50000.BroadcastsInDim S50000x1 (![0] : Fin 1 → Fin S50000x1.rank)
  concatenates_S50000x125_S50000x1_S50000x1_S50000x1_S50000x128_d1 : Shape.Concatenates [S50000x125, S50000x1, S50000x1, S50000x1] S50000x128 1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  transposes_S128x128_p1_0_S128x128 : S128x128.Transposes [1, 0] S128x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S50000x1_S50000x1_S50000x2_d1 : Shape.Concatenates [S50000x1, S50000x1] S50000x2 1
  bcast_S_S50000x128 : S_.BroadcastsInDim S50000x128 (![] : Fin 0 → Fin S50000x128.rank)
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  broadcasts_S5000x1_S5000x128 : S5000x1.Broadcasts S5000x128
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S50000x2.size a
  hwx1_2 : ∀ i : grid1.Coords, EltTy.bits .f32 = 32 ∨ (Rect.block (s := S50000x2) S5000x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .bf16 = 32 ∨ (Rect.block (s := S50000x128) S5000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S50000x2.size a
  hwx2_2 : ∀ i : grid2.Coords, EltTy.bits .f32 = 32 ∨ (Rect.block (s := S50000x2) S5000x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x2.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x125 : Shape := ⟨2, ![50000, 125]⟩
abbrev S50000x1 : Shape := ⟨2, ![50000, 1]⟩
abbrev S50000 : Shape := ⟨1, ![50000]⟩
abbrev S128x128 : Shape := ⟨2, ![128, 128]⟩
abbrev S128 : Shape := ⟨1, ![128]⟩
abbrev S2x800000 : Shape := ⟨2, ![2, 800000]⟩
abbrev S50000x128 : Shape := ⟨2, ![50000, 128]⟩
abbrev S1x128 : Shape := ⟨2, ![1, 128]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩

abbrev nBuf : Space → Nat
  | .hbm => 112
  | .vmem => 0
  | .smem => 0
  | _ => 0

abbrev bufTy : (tb : Table) → Fin (tcTables nBuf tb) → BufTy
  | .hbm, ⟨0, _⟩ => ⟨S50000x125, .f32⟩
  | .hbm, ⟨1, _⟩ => ⟨S50000x1, .f32⟩
  | .hbm, ⟨2, _⟩ => ⟨S50000x1, .f32⟩
  | .hbm, ⟨3, _⟩ => ⟨S50000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S2x800000, .i32⟩
  | .hbm, ⟨15, _⟩ => ⟨S50000x1, .f32⟩
  | .hbm, ⟨16, _⟩ => ⟨S50000x128, .f32⟩
  | .hbm, ⟨17, _⟩ => ⟨S128x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | .hbm, ⟨25, _⟩ => ⟨S1x800000, .i32⟩
  | .hbm, ⟨26, _⟩ => ⟨S800000, .i32⟩
  | .hbm, ⟨27, _⟩ => ⟨S1x800000, .i32⟩
  | .hbm, ⟨28, _⟩ => ⟨S800000, .i32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S_, .f32⟩
  | .hbm, ⟨43, _⟩ => ⟨S800000, .f32⟩
  | .hbm, ⟨44, _⟩ => ⟨S_, .f32⟩
  | .hbm, ⟨45, _⟩ => ⟨S50000, .f32⟩
  | .hbm, ⟨46, _⟩ => ⟨S800000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S128x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S128x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x800000, .i32⟩
  | .hbm, ⟨71, _⟩ => ⟨S800000, .i32⟩
  | .hbm, ⟨72, _⟩ => ⟨S1x800000, .i32⟩
  | .hbm, ⟨73, _⟩ => ⟨S800000, .i32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S_, .f32⟩
  | .hbm, ⟨88, _⟩ => ⟨S800000, .f32⟩
  | .hbm, ⟨89, _⟩ => ⟨S_, .f32⟩
  | .hbm, ⟨90, _⟩ => ⟨S50000, .f32⟩
  | .hbm, ⟨91, _⟩ => ⟨S800000x1, .i32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x128, .f32⟩
  | .hbm, ⟨98, _⟩ => ⟨S50000x128, .f32⟩
  | .hbm, ⟨99, _⟩ => ⟨S128x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S128x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S50000x128, .f32⟩
  | _, _ => ⟨S50000x125, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call0_cst : Ref sig .tc := ⟨.hbm, 22, rfl⟩
abbrev main_call0_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call1_cst : Ref sig .tc := ⟨.hbm, 65, rfl⟩
abbrev main_call1_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_4 : Ref sig .tc := ⟨.hbm, 74, rfl⟩
abbrev main_v49 : Ref sig .tc := ⟨.hbm, 75, rfl⟩
abbrev main_v50 : Ref sig .tc := ⟨.hbm, 76, rfl⟩
abbrev main_c_5 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_6 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_7 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  bcast_S50000_S50000x1_0 : S50000.BroadcastsInDim S50000x1 (![0] : Fin 1 → Fin S50000x1.rank)
  concatenates_S50000x125_S50000x1_S50000x1_S50000x1_S50000x128_d1 : Shape.Concatenates [S50000x125, S50000x1, S50000x1, S50000x1] S50000x128 1
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.FrameDefsBits.lean ====
import proofs.«150007_j7043746365769_2_alg».proof.Proof.Gen.Kernel.Launch
import proofs.«150007_j7043746365769_2_alg».proof.Proof.Gen.Kernel.Skeleton
import proofs.«150007_j7043746365769_2_alg».proof.Proof.Gen.Kernel.Points
import proofs.«150007_j7043746365769_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The three row-blocked regions: blocks, what each body leaves, proof data, and the buffers between items

The program is three kernel regions, each over ten blocks of 5000 rows, among stretches of host operations. Region 0 is
the input projection (one matrix product, a bias row, a maximum with zero); regions 1 and 2 are the two combines (a
self product and a neighbour product of the degree-scaled aggregate, two bias rows, a sum, for region 1 a maximum with
zero, and the row mask). For each region, at the buffer contents `V` it is entered from: a window's block at a grid
point; the output block the body leaves, as the body's arithmetic on the input blocks; the proof data (every input
block stays, the output block becomes that). Then the buffer contents at each boundary between items, from the launch
memory: a host stretch's operations applied, a region's arrays at what its write-backs leave.
-/

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## The whole-block rectangles the bodies load and store through -/

abbrev rRows : Rect S5000x128 := Rect.unit (s := S5000x128) ![0, 0] S5000x128.size inb_S5000x128_S5000x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0
abbrev rCols : Rect S5000x2 := Rect.unit (s := S5000x2) ![0, 0] S5000x2.size inb_S5000x2_S5000x2_0_0

section Regions

variable (V : (c : Dev nD) → (b : Ref sig .tc) → Buf (Elt F) ((c : Thread nD τ).loc b))

/-! ## Region 0: the input projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after the body: its one whole-block store, of the body's arithmetic on the three input blocks. -/
def out0_3 (x0 : Vec F S5000x128 .f32) (x1 : Vec F S128x128 .f32) (x2 : Vec F S1x128 .f32) : Vec F S5000x128 .bf16 :=
  View.canon [⟨rRows, k0_pay1 (View.ld x0 rRows) (View.ld x1 rWeight) (View.ld x2 rBias)⟩]

/-- The proof data of region 0: the arrays as found; every input block stays, the output block becomes `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-! ## Region 1: the first combine -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block after the body: its one whole-block store, of the body's arithmetic on the seven input blocks. -/
def out1_7 (x0 : Vec F S5000x128 .bf16) (x1 : Vec F S5000x128 .f32) (x2 : Vec F S5000x2 .f32) (x3 : Vec F S128x128 .f32) (x4 : Vec F S1x128 .f32)
    (x5 : Vec F S128x128 .f32) (x6 : Vec F S1x128 .f32) : Vec F S5000x128 .bf16 :=
  View.canon [⟨rRows, k1_pay1 (View.ld x0 rRows) (View.ld x1 rRows) (View.ld x2 rCols) (View.ld x3 rWeight) (View.ld x4 rBias) (View.ld x5 rWeight) (View.ld x6 rBias)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-! ## Region 2: the second combine -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_7 (x0 : Vec F S5000x128 .bf16) (x1 : Vec F S5000x128 .f32) (x2 : Vec F S5000x2 .f32) (x3 : Vec F S128x128 .f32) (x4 : Vec F S1x128 .f32)
    (x5 : Vec F S128x128 .f32) (x6 : Vec F S1x128 .f32) : Vec F S5000x128 .f32 :=
  View.canon [⟨rRows, k2_pay1 (View.ld x0 rRows) (View.ld x1 rRows) (View.ld x2 rCols) (View.ld x3 rWeight) (View.ld x4 rBias) (View.ld x5 rWeight) (View.ld x6 rBias)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

end Regions

/-! ## The buffer contents at each boundary between items -/

variable (m : (ℓ : Loc nD τ sig) → Buf (Elt F) ℓ) (ρ : Dev nD → PrngReg)

/-- Core `c`'s buffers at launch. -/
abbrev Wb0 : Dev nD → Valuation τ sig (Elt F) := fun c b => (s₀ m ρ).mem ((c : Dev nD), b)
/-- After the first host stretch (region 0's entry). -/
abbrev Wb1 : Dev nD → Valuation τ sig (Elt F) := fun c => StableHlo.after hostOps0 (Wb0 m ρ c)
abbrev Vt1 : (c : Dev nD) → (b : Ref sig .tc) → Buf (Elt F) ((c : Thread nD τ).loc b) := fun c b => Wb1 m ρ c b
/-- At region 0's exit: its arrays at what the write-backs leave, every other buffer as entered. -/
def Wb2 (c : Dev nD) : Valuation τ sig (Elt F) :=
  Pipeline.withArrays spec0 c (Wb1 m ρ c) fun w => (dat0 (Vt1 m ρ) c).arrAt w cfg0.N
abbrev Vt2 : (c : Dev nD) → (b : Ref sig .tc) → Buf (Elt F) ((c : Thread nD τ).loc b) := fun c b => Wb2 m ρ c b
/-- After the second host stretch (region 1's entry). -/
abbrev Wb3 : Dev nD → Valuation τ sig (Elt F) := fun c => StableHlo.after hostOps1 (Wb2 m ρ c)
abbrev Vt3 : (c : Dev nD) → (b : Ref sig .tc) → Buf (Elt F) ((c : Thread nD τ).loc b) := fun c b => Wb3 m ρ c b
/-- At region 1's exit. -/
def Wb4 (c : Dev nD) : Valuation τ sig (Elt F) :=
  Pipeline.withArrays spec1 c (Wb3 m ρ c) fun w => (dat1 (Vt3 m ρ) c).arrAt w cfg1.N
abbrev Vt4 : (c : Dev nD) → (b : Ref sig .tc) → Buf (Elt F) ((c : Thread nD τ).loc b) := fun c b => Wb4 m ρ c b
/-- After the third host stretch (region 2's entry). -/
abbrev Wb5 : Dev nD → Valuation τ sig (Elt F) := fun c => StableHlo.after hostOps2 (Wb4 m ρ c)
abbrev Vt5 : (c : Dev nD) → (b : Ref sig .tc) → Buf (Elt F) ((c : Thread nD τ).loc b) := fun c b => Wb5 m ρ c b
/-- At region 2's exit: the end of the program. -/
def Wb6 (c : Dev nD) : Valuation τ sig (Elt F) :=
  Pipeline.withArrays spec2 c (Wb5 m ρ c) fun w => (dat2 (Vt5 m ρ) c).arrAt w cfg2.N
abbrev Vt6 : (c : Dev nD) → (b : Ref sig .tc) → Buf (Elt F) ((c : Thread nD τ).loc b) := fun c b => Wb6 m ρ c b

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vt1 m ρ) c
  | ⟨1, _⟩ => fun c => dat1 (Vt3 m ρ) c
  | ⟨2, _⟩ => fun c => dat2 (Vt5 m ρ) c

end Cert.Kernel.Fr

end
-- ==== Proof.FrameRunBits.lean ====
import proofs.«150007_j7043746365769_2_alg».proof.Proof.FrameDefsBits

/-!
# The run of the three row-blocked regions among the host stretches

For each region, at the buffer contents `V` it is entered from: each input window's staging buffer holds the window's
block at every grid point; the body, which loads whole blocks and stores one whole block, leaves the inputs' buffers as
they were and the output's buffer at the body's arithmetic on the input blocks; so the region's proof data meet the
body obligation. Then the run: a region leaves its arrays at what its write-backs leave and every other buffer as it was
entered; a host stretch writes only its own results; so from the launch memory the program terminates with every
unscoped buffer at the last boundary's contents, and no item writes an argument array: each argument ends as launched.
-/

-- membership in a rectangle of 5000 rows is checked coordinate by coordinate
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! # Region 0, at the contents `V` it is entered from -/

/-! ## Every input window's staging buffer holds its block at every point -/

/-- Input window 0: for any proof data whose array is `V`'s and whose body leaves the block in place, the buffer the
    body is handed holds the window's block at that point, whether or not a fetch happened there (an unfetched point has
    the block index of the point before it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: for any proof data whose array is `V`'s and whose body leaves the block in place, the buffer the
    body is handed holds the window's block at that point, whether or not a fetch happened there (an unfetched point has
    the block index of the point before it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: for any proof data whose array is `V`'s and whose body leaves the block in place, the buffer the
    body is handed holds the window's block at that point, whether or not a fetch happened there (an unfetched point has
    the block index of the point before it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output block -/

/-- The body's one store is of the whole block, so every index of the block lies in it. -/
theorem cover0 (p0 : Vec F S5000x128 .bf16) (y : S5000x128.Idx) :
    ∃ pc ∈ ([⟨rRows, p0⟩] : List (View.Piece (Elt F) S5000x128 .bf16)), y ∈ pc.1.set :=
  View.cover_of_tiled [⟨rRows, p0⟩] S5000x128.size (by rfl) y

/-! ## The body's triple -/

set_option maxHeartbeats 1000000 in
/-- The body on whole staging buffers, the inputs' at contents `x_w` and the output's at anything, runs to a state with
    the inputs' buffers as they were and the output's at `out0_3` of the inputs: every load is of a whole block, the
    loaded output block is not used, and the one store overwrites the whole output block. -/
theorem sound_kernel0 (c : Dev nD) (E : Set ℕ) (i : grid0.Coords) (arg0 : Memref sig .tc .vmem S5000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S5000x128 .bf16) (harg3 : arg3.IsWhole)
    (x0 : Vec F S5000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_in_kernel i arg0 harg0 arg1 harg1 arg2 harg2 arg3 harg3) K := by
  simp only [cc0__linear_in_kernel_eq_skeleton]; unfold cc0__linear_in_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The proof data, projected -/

/-- The proof data's arrays are the contents the region is entered from. -/
theorem A_eq0 (c : Dev nD) (w : Fin cfg0.W) : (dat0 V c).A w = V c (Pipeline.arrRef spec0 w) := by
  dsimp only [dat0]

/-- What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the region invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0's proof data, at every point. -/
theorem body_obligation0 (c : Dev nD) : BodyObligation (dat0 (F := F) V c) (defs₀ (F := F)) Variants.none () Set.univ := fun t => by
  rw [bigSep_W0, bigSep_W0]
  exact sound_body0 V c t

/-! # Region 1, at the contents `V` it is entered from -/

/-! ## Every input window's staging buffer holds its block at every point -/

/-- Input window 0: for any proof data whose array is `V`'s and whose body leaves the block in place, the buffer the
    body is handed holds the window's block at that point, whether or not a fetch happened there (an unfetched point has
    the block index of the point before it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: for any proof data whose array is `V`'s and whose body leaves the block in place, the buffer the
    body is handed holds the window's block at that point, whether or not a fetch happened there (an unfetched point has
    the block index of the point before it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: for any proof data whose array is `V`'s and whose body leaves the block in place, the buffer the
    body is handed holds the window's block at that point, whether or not a fetch happened there (an unfetched point has
    the block index of the point before it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: for any proof data whose array is `V`'s and whose body leaves the block in place, the buffer the
    body is handed holds the window's block at that point, whether or not a fetch happened there (an unfetched point has
    the block index of the point before it). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4: for any proof data whose array is `V`'s and whose body leaves the block in place, the buffer the
    body is handed holds the window's block at that point, whether or not a fetch happened there (an unfetched point has
    the block index of the point before it). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5: for any proof data whose array is `V`'s and whose body leaves the block in place, the buffer the
    body is handed holds the window's block at that point, whether or not a fetch happened there (an unfetched point has
    the block index of the point before it). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6: for any proof data whose array is `V`'s and whose body leaves the block in place, the buffer the
    body is handed holds the window's block at that point, whether or not a fetch happened there (an unfetched point has
    the block index of the point before it). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output block -/

/-- The body's one store is of the whole block, so every index of the block lies in it. -/
theorem cover1 (p0 : Vec F S5000x128 .bf16) (y : S5000x128.Idx) :
    ∃ pc ∈ ([⟨rRows, p0⟩] : List (View.Piece (Elt F) S5000x128 .bf16)), y ∈ pc.1.set :=
  View.cover_of_tiled [⟨rRows, p0⟩] S5000x128.size (by rfl) y

/-! ## The body's triple -/

set_option maxHeartbeats 1000000 in
/-- The body on whole staging buffers, the inputs' at contents `x_w` and the output's at anything, runs to a state with
    the inputs' buffers as they were and the output's at `out1_7` of the inputs: every load is of a whole block, the
    loaded output block is not used, and the one store overwrites the whole output block. -/
theorem sound_kernel1 (c : Dev nD) (E : Set ℕ) (i : grid1.Coords) (arg0 : Memref sig .tc .vmem S5000x128 .bf16) (harg0 : arg0.IsWhole) (arg1 : Memref sig .tc .vmem S5000x128 .f32) (harg1 : arg1.IsWhole) (arg2 : Memref sig .tc .vmem S5000x2 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .bf16) (harg7 : arg7.IsWhole)
    (x0 : Vec F S5000x128 .bf16) (x1 : Vec F S5000x128 .f32) (x2 : Vec F S5000x2 .f32) (x3 : Vec F S128x128 .f32) (x4 : Vec F S1x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__sage_combine_kernel i arg0 harg0 arg1 harg1 arg2 harg2 arg3 harg3 arg4 harg4 arg5 harg5 arg6 harg6 arg7 harg7) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1 _)

/-! ## The proof data, projected -/

/-- The proof data's arrays are the contents the region is entered from. -/
theorem A_eq1 (c : Dev nD) (w : Fin cfg1.W) : (dat1 V c).A w = V c (Pipeline.arrRef spec1 w) := by
  dsimp only [dat1]

/-- What the body leaves in each window's buffer. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's buffer holds its block when the body is called. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the region invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of region 1's proof data, at every point. -/
theorem body_obligation1 (c : Dev nD) : BodyObligation (dat1 (F := F) V c) (defs₀ (F := F)) Variants.none () Set.univ := fun t => by
  rw [bigSep_W1, bigSep_W1]
  exact sound_body1 V c t

/-! # Region 2, at the contents `V` it is entered from -/

/-! ## Every input window's staging buffer holds its block at every point -/

/-- Input window 0: for any proof data whose array is `V`'s and whose body leaves the block in place, the buffer the
    body is handed holds the window's block at that point, whether or not a fetch happened there (an unfetched point has
    the block index of the point before it). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1: for any proof data whose array is `V`'s and whose body leaves the block in place, the buffer the
    body is handed holds the window's block at that point, whether or not a fetch happened there (an unfetched point has
    the block index of the point before it). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2: for any proof data whose array is `V`'s and whose body leaves the block in place, the buffer the
    body is handed holds the window's block at that point, whether or not a fetch happened there (an unfetched point has
    the block index of the point before it). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3: for any proof data whose array is `V`'s and whose body leaves the block in place, the buffer the
    body is handed holds the window's block at that point, whether or not a fetch happened there (an unfetched point has
    the block index of the point before it). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4: for any proof data whose array is `V`'s and whose body leaves the block in place, the buffer the
    body is handed holds the window's block at that point, whether or not a fetch happened there (an unfetched point has
    the block index of the point before it). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5: for any proof data whose array is `V`'s and whose body leaves the block in place, the buffer the
    body is handed holds the window's block at that point, whether or not a fetch happened there (an unfetched point has
    the block index of the point before it). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6: for any proof data whose array is `V`'s and whose body leaves the block in place, the buffer the
    body is handed holds the window's block at that point, whether or not a fetch happened there (an unfetched point has
    the block index of the point before it). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output block -/

/-- The body's one store is of the whole block, so every index of the block lies in it. -/
theorem cover2 (p0 : Vec F S5000x128 .f32) (y : S5000x128.Idx) :
    ∃ pc ∈ ([⟨rRows, p0⟩] : List (View.Piece (Elt F) S5000x128 .f32)), y ∈ pc.1.set :=
  View.cover_of_tiled [⟨rRows, p0⟩] S5000x128.size (by rfl) y

/-! ## The body's triple -/

set_option maxHeartbeats 1000000 in
/-- The body on whole staging buffers, the inputs' at contents `x_w` and the output's at anything, runs to a state with
    the inputs' buffers as they were and the output's at `out2_7` of the inputs: every load is of a whole block, the
    loaded output block is not used, and the one store overwrites the whole output block. -/
theorem sound_kernel2 (c : Dev nD) (E : Set ℕ) (i : grid2.Coords) (arg0 : Memref sig .tc .vmem S5000x128 .bf16) (harg0 : arg0.IsWhole) (arg1 : Memref sig .tc .vmem S5000x128 .f32) (harg1 : arg1.IsWhole) (arg2 : Memref sig .tc .vmem S5000x2 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .bf16) (x1 : Vec F S5000x128 .f32) (x2 : Vec F S5000x2 .f32) (x3 : Vec F S128x128 .f32) (x4 : Vec F S1x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__sage_combine_kernel i arg0 harg0 arg1 harg1 arg2 harg2 arg3 harg3 arg4 harg4 arg5 harg5 arg6 harg6 arg7 harg7) K := by
  simp only [cc2__sage_combine_kernel_eq_skeleton]; unfold cc2__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2 _)

/-! ## The proof data, projected -/

/-- The proof data's arrays are the contents the region is entered from. -/
theorem A_eq2 (c : Dev nD) (w : Fin cfg2.W) : (dat2 V c).A w = V c (Pipeline.arrRef spec2 w) := by
  dsimp only [dat2]

/-- What the body leaves in each window's buffer. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's buffer holds its block when the body is called. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the region invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of region 2's proof data, at every point. -/
theorem body_obligation2 (c : Dev nD) : BodyObligation (dat2 (F := F) V c) (defs₀ (F := F)) Variants.none () Set.univ := fun t => by
  rw [bigSep_W2, bigSep_W2]
  exact sound_body2 V c t

end Regions

/-! # The run: from the launch memory through the six items -/

variable (m : (ℓ : Loc nD τ sig) → Buf (Elt F) ℓ) (ρ : Dev nD → PrngReg)

/-! ## A region's exit contents: its arrays at what the write-backs leave, every other buffer as entered -/

theorem Wb2_arr (c : Dev nD) (w : Fin cfg0.W) :
    Wb2 m ρ c (Proc.devRef .tc (Pipeline.arrRef spec0 w)) = (dat0 (Vt1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
/-- At region 0's exit each of its arrays holds what the write-backs leave, and every other buffer what it held at entry. -/
theorem hF0 (c : Dev nD) (w : Fin cfg0.W) : (dat0 (Vt1 m ρ) c).arrAt w cfg0.N = Vt2 m ρ c (Pipeline.arrRef spec0 w) :=
  (Wb2_arr m ρ c w).symm
theorem hrest0 (c : Dev nD) : ∀ b, b ∉ Finset.univ.image (Pipeline.arrRef spec0) → Vt2 m ρ c b = Vt1 m ρ c b :=
  fun b hb => Wb2_of_ne m ρ c b fun w e => hb (Finset.mem_image.mpr ⟨w, Finset.mem_univ _, e⟩)

theorem Wb4_arr (c : Dev nD) (w : Fin cfg1.W) :
    Wb4 m ρ c (Proc.devRef .tc (Pipeline.arrRef spec1 w)) = (dat1 (Vt3 m ρ) c).arrAt w cfg1.N := by
  unfold Wb4; exact Pipeline.withArrays_arr spec1 launch1.win.arr_inj c _ _ w
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
/-- At region 1's exit each of its arrays holds what the write-backs leave, and every other buffer what it held at entry. -/
theorem hF1 (c : Dev nD) (w : Fin cfg1.W) : (dat1 (Vt3 m ρ) c).arrAt w cfg1.N = Vt4 m ρ c (Pipeline.arrRef spec1 w) :=
  (Wb4_arr m ρ c w).symm
theorem hrest1 (c : Dev nD) : ∀ b, b ∉ Finset.univ.image (Pipeline.arrRef spec1) → Vt4 m ρ c b = Vt3 m ρ c b :=
  fun b hb => Wb4_of_ne m ρ c b fun w e => hb (Finset.mem_image.mpr ⟨w, Finset.mem_univ _, e⟩)

theorem Wb6_arr (c : Dev nD) (w : Fin cfg2.W) :
    Wb6 m ρ c (Proc.devRef .tc (Pipeline.arrRef spec2 w)) = (dat2 (Vt5 m ρ) c).arrAt w cfg2.N := by
  unfold Wb6; exact Pipeline.withArrays_arr spec2 launch2.win.arr_inj c _ _ w
theorem Wb6_of_ne (c : Dev nD) (b : Ref sig .tc) (hb : ∀ w, Pipeline.arrRef spec2 w ≠ b) :
    Wb6 m ρ c (Proc.devRef .tc b) = Wb5 m ρ c (Proc.devRef .tc b) := by
  unfold Wb6; exact Pipeline.withArrays_of_ne spec2 c _ _ b hb
/-- At region 2's exit each of its arrays holds what the write-backs leave, and every other buffer what it held at entry. -/
theorem hF2 (c : Dev nD) (w : Fin cfg2.W) : (dat2 (Vt5 m ρ) c).arrAt w cfg2.N = Vt6 m ρ c (Pipeline.arrRef spec2 w) :=
  (Wb6_arr m ρ c w).symm
theorem hrest2 (c : Dev nD) : ∀ b, b ∉ Finset.univ.image (Pipeline.arrRef spec2) → Vt6 m ρ c b = Vt5 m ρ c b :=
  fun b hb => Wb6_of_ne m ρ c b fun w e => hb (Finset.mem_image.mpr ⟨w, Finset.mem_univ _, e⟩)

/-! ## No item writes an argument

A host stretch writes only its own results, none of which is an argument. A region changes only its output array, which
is no argument; an argument that a region reads through an input window is one of the region's arrays, and an input
array is left as entered. So the last boundary's contents at an argument walk back to the launch memory. -/

theorem Wb6_main_arg0 (c : Dev nD) : Wb6 m ρ c (Proc.devRef .tc main_arg0) = m ((c : Thread nD τ).loc main_arg0) :=
  calc Wb6 m ρ c (Proc.devRef .tc main_arg0)
    _ = Wb5 m ρ c (Proc.devRef .tc main_arg0) := Wb6_of_ne m ρ c main_arg0 (by decide)
    _ = Wb4 m ρ c (Proc.devRef .tc main_arg0) := StableHlo.after_of_writes_sub hostOps2 _ hostOps2_writes (by decide)
    _ = Wb3 m ρ c (Proc.devRef .tc main_arg0) := Wb4_of_ne m ρ c main_arg0 (by decide)
    _ = Wb2 m ρ c (Proc.devRef .tc main_arg0) := StableHlo.after_of_writes_sub hostOps1 _ hostOps1_writes (by decide)
    _ = Wb1 m ρ c (Proc.devRef .tc main_arg0) := Wb2_of_ne m ρ c main_arg0 (by decide)
    _ = Wb0 m ρ c (Proc.devRef .tc main_arg0) := StableHlo.after_of_writes_sub hostOps0 _ hostOps0_writes (by decide)
    _ = m ((c : Thread nD τ).loc main_arg0) := rfl
theorem Wb6_main_arg1 (c : Dev nD) : Wb6 m ρ c (Proc.devRef .tc main_arg1) = m ((c : Thread nD τ).loc main_arg1) :=
  calc Wb6 m ρ c (Proc.devRef .tc main_arg1)
    _ = Wb5 m ρ c (Proc.devRef .tc main_arg1) := Wb6_of_ne m ρ c main_arg1 (by decide)
    _ = Wb4 m ρ c (Proc.devRef .tc main_arg1) := StableHlo.after_of_writes_sub hostOps2 _ hostOps2_writes (by decide)
    _ = Wb3 m ρ c (Proc.devRef .tc main_arg1) := Wb4_of_ne m ρ c main_arg1 (by decide)
    _ = Wb2 m ρ c (Proc.devRef .tc main_arg1) := StableHlo.after_of_writes_sub hostOps1 _ hostOps1_writes (by decide)
    _ = Wb1 m ρ c (Proc.devRef .tc main_arg1) := Wb2_of_ne m ρ c main_arg1 (by decide)
    _ = Wb0 m ρ c (Proc.devRef .tc main_arg1) := StableHlo.after_of_writes_sub hostOps0 _ hostOps0_writes (by decide)
    _ = m ((c : Thread nD τ).loc main_arg1) := rfl
theorem Wb6_main_arg2 (c : Dev nD) : Wb6 m ρ c (Proc.devRef .tc main_arg2) = m ((c : Thread nD τ).loc main_arg2) :=
  calc Wb6 m ρ c (Proc.devRef .tc main_arg2)
    _ = Wb5 m ρ c (Proc.devRef .tc main_arg2) := Wb6_of_ne m ρ c main_arg2 (by decide)
    _ = Wb4 m ρ c (Proc.devRef .tc main_arg2) := StableHlo.after_of_writes_sub hostOps2 _ hostOps2_writes (by decide)
    _ = Wb3 m ρ c (Proc.devRef .tc main_arg2) := Wb4_of_ne m ρ c main_arg2 (by decide)
    _ = Wb2 m ρ c (Proc.devRef .tc main_arg2) := StableHlo.after_of_writes_sub hostOps1 _ hostOps1_writes (by decide)
    _ = Wb1 m ρ c (Proc.devRef .tc main_arg2) := Wb2_of_ne m ρ c main_arg2 (by decide)
    _ = Wb0 m ρ c (Proc.devRef .tc main_arg2) := StableHlo.after_of_writes_sub hostOps0 _ hostOps0_writes (by decide)
    _ = m ((c : Thread nD τ).loc main_arg2) := rfl
theorem Wb6_main_arg3 (c : Dev nD) : Wb6 m ρ c (Proc.devRef .tc main_arg3) = m ((c : Thread nD τ).loc main_arg3) :=
  calc Wb6 m ρ c (Proc.devRef .tc main_arg3)
    _ = Wb5 m ρ c (Proc.devRef .tc main_arg3) := Wb6_of_ne m ρ c main_arg3 (by decide)
    _ = Wb4 m ρ c (Proc.devRef .tc main_arg3) := StableHlo.after_of_writes_sub hostOps2 _ hostOps2_writes (by decide)
    _ = Wb3 m ρ c (Proc.devRef .tc main_arg3) := Wb4_of_ne m ρ c main_arg3 (by decide)
    _ = Wb2 m ρ c (Proc.devRef .tc main_arg3) := StableHlo.after_of_writes_sub hostOps1 _ hostOps1_writes (by decide)
    _ = Wb1 m ρ c (Proc.devRef .tc main_arg3) := Wb2_of_ne m ρ c main_arg3 (by decide)
    _ = Wb0 m ρ c (Proc.devRef .tc main_arg3) := StableHlo.after_of_writes_sub hostOps0 _ hostOps0_writes (by decide)
    _ = m ((c : Thread nD τ).loc main_arg3) := rfl
theorem Wb6_main_arg4 (c : Dev nD) : Wb6 m ρ c (Proc.devRef .tc main_arg4) = m ((c : Thread nD τ).loc main_arg4) :=
  calc Wb6 m ρ c (Proc.devRef .tc main_arg4)
    _ = Wb5 m ρ c (Proc.devRef .tc main_arg4) := Wb6_of_ne m ρ c main_arg4 (by decide)
    _ = Wb4 m ρ c (Proc.devRef .tc main_arg4) := StableHlo.after_of_writes_sub hostOps2 _ hostOps2_writes (by decide)
    _ = Wb3 m ρ c (Proc.devRef .tc main_arg4) := Wb4_of_ne m ρ c main_arg4 (by decide)
    _ = Wb2 m ρ c (Proc.devRef .tc main_arg4) := StableHlo.after_of_writes_sub hostOps1 _ hostOps1_writes (by decide)
    _ = Wb1 m ρ c (Proc.devRef .tc main_arg4) := (Wb2_arr m ρ c 1).trans (((dat0 (Vt1 m ρ) c).arrAt_in 1 rfl _).trans (A_eq0 (Vt1 m ρ) c 1))
    _ = Wb0 m ρ c (Proc.devRef .tc main_arg4) := StableHlo.after_of_writes_sub hostOps0 _ hostOps0_writes (by decide)
    _ = m ((c : Thread nD τ).loc main_arg4) := rfl
theorem Wb6_main_arg5 (c : Dev nD) : Wb6 m ρ c (Proc.devRef .tc main_arg5) = m ((c : Thread nD τ).loc main_arg5) :=
  calc Wb6 m ρ c (Proc.devRef .tc main_arg5)
    _ = Wb5 m ρ c (Proc.devRef .tc main_arg5) := Wb6_of_ne m ρ c main_arg5 (by decide)
    _ = Wb4 m ρ c (Proc.devRef .tc main_arg5) := StableHlo.after_of_writes_sub hostOps2 _ hostOps2_writes (by decide)
    _ = Wb3 m ρ c (Proc.devRef .tc main_arg5) := Wb4_of_ne m ρ c main_arg5 (by decide)
    _ = Wb2 m ρ c (Proc.devRef .tc main_arg5) := StableHlo.after_of_writes_sub hostOps1 _ hostOps1_writes (by decide)
    _ = Wb1 m ρ c (Proc.devRef .tc main_arg5) := Wb2_of_ne m ρ c main_arg5 (by decide)
    _ = Wb0 m ρ c (Proc.devRef .tc main_arg5) := StableHlo.after_of_writes_sub hostOps0 _ hostOps0_writes (by decide)
    _ = m ((c : Thread nD τ).loc main_arg5) := rfl
theorem Wb6_main_arg6 (c : Dev nD) : Wb6 m ρ c (Proc.devRef .tc main_arg6) = m ((c : Thread nD τ).loc main_arg6) :=
  calc Wb6 m ρ c (Proc.devRef .tc main_arg6)
    _ = Wb5 m ρ c (Proc.devRef .tc main_arg6) := Wb6_of_ne m ρ c main_arg6 (by decide)
    _ = Wb4 m ρ c (Proc.devRef .tc main_arg6) := StableHlo.after_of_writes_sub hostOps2 _ hostOps2_writes (by decide)
    _ = Wb3 m ρ c (Proc.devRef .tc main_arg6) := (Wb4_arr m ρ c 3).trans (((dat1 (Vt3 m ρ) c).arrAt_in 3 rfl _).trans (A_eq1 (Vt3 m ρ) c 3))
    _ = Wb2 m ρ c (Proc.devRef .tc main_arg6) := StableHlo.after_of_writes_sub hostOps1 _ hostOps1_writes (by decide)
    _ = Wb1 m ρ c (Proc.devRef .tc main_arg6) := Wb2_of_ne m ρ c main_arg6 (by decide)
    _ = Wb0 m ρ c (Proc.devRef .tc main_arg6) := StableHlo.after_of_writes_sub hostOps0 _ hostOps0_writes (by decide)
    _ = m ((c : Thread nD τ).loc main_arg6) := rfl
theorem Wb6_main_arg7 (c : Dev nD) : Wb6 m ρ c (Proc.devRef .tc main_arg7) = m ((c : Thread nD τ).loc main_arg7) :=
  calc Wb6 m ρ c (Proc.devRef .tc main_arg7)
    _ = Wb5 m ρ c (Proc.devRef .tc main_arg7) := Wb6_of_ne m ρ c main_arg7 (by decide)
    _ = Wb4 m ρ c (Proc.devRef .tc main_arg7) := StableHlo.after_of_writes_sub hostOps2 _ hostOps2_writes (by decide)
    _ = Wb3 m ρ c (Proc.devRef .tc main_arg7) := Wb4_of_ne m ρ c main_arg7 (by decide)
    _ = Wb2 m ρ c (Proc.devRef .tc main_arg7) := StableHlo.after_of_writes_sub hostOps1 _ hostOps1_writes (by decide)
    _ = Wb1 m ρ c (Proc.devRef .tc main_arg7) := Wb2_of_ne m ρ c main_arg7 (by decide)
    _ = Wb0 m ρ c (Proc.devRef .tc main_arg7) := StableHlo.after_of_writes_sub hostOps0 _ hostOps0_writes (by decide)
    _ = m ((c : Thread nD τ).loc main_arg7) := rfl
theorem Wb6_main_arg8 (c : Dev nD) : Wb6 m ρ c (Proc.devRef .tc main_arg8) = m ((c : Thread nD τ).loc main_arg8) :=
  calc Wb6 m ρ c (Proc.devRef .tc main_arg8)
    _ = Wb5 m ρ c (Proc.devRef .tc main_arg8) := Wb6_of_ne m ρ c main_arg8 (by decide)
    _ = Wb4 m ρ c (Proc.devRef .tc main_arg8) := StableHlo.after_of_writes_sub hostOps2 _ hostOps2_writes (by decide)
    _ = Wb3 m ρ c (Proc.devRef .tc main_arg8) := (Wb4_arr m ρ c 5).trans (((dat1 (Vt3 m ρ) c).arrAt_in 5 rfl _).trans (A_eq1 (Vt3 m ρ) c 5))
    _ = Wb2 m ρ c (Proc.devRef .tc main_arg8) := StableHlo.after_of_writes_sub hostOps1 _ hostOps1_writes (by decide)
    _ = Wb1 m ρ c (Proc.devRef .tc main_arg8) := Wb2_of_ne m ρ c main_arg8 (by decide)
    _ = Wb0 m ρ c (Proc.devRef .tc main_arg8) := StableHlo.after_of_writes_sub hostOps0 _ hostOps0_writes (by decide)
    _ = m ((c : Thread nD τ).loc main_arg8) := rfl
theorem Wb6_main_arg9 (c : Dev nD) : Wb6 m ρ c (Proc.devRef .tc main_arg9) = m ((c : Thread nD τ).loc main_arg9) :=
  calc Wb6 m ρ c (Proc.devRef .tc main_arg9)
    _ = Wb5 m ρ c (Proc.devRef .tc main_arg9) := Wb6_of_ne m ρ c main_arg9 (by decide)
    _ = Wb4 m ρ c (Proc.devRef .tc main_arg9) := StableHlo.after_of_writes_sub hostOps2 _ hostOps2_writes (by decide)
    _ = Wb3 m ρ c (Proc.devRef .tc main_arg9) := Wb4_of_ne m ρ c main_arg9 (by decide)
    _ = Wb2 m ρ c (Proc.devRef .tc main_arg9) := StableHlo.after_of_writes_sub hostOps1 _ hostOps1_writes (by decide)
    _ = Wb1 m ρ c (Proc.devRef .tc main_arg9) := Wb2_of_ne m ρ c main_arg9 (by decide)
    _ = Wb0 m ρ c (Proc.devRef .tc main_arg9) := StableHlo.after_of_writes_sub hostOps0 _ hostOps0_writes (by decide)
    _ = m ((c : Thread nD τ).loc main_arg9) := rfl
theorem Wb6_main_arg10 (c : Dev nD) : Wb6 m ρ c (Proc.devRef .tc main_arg10) = m ((c : Thread nD τ).loc main_arg10) :=
  calc Wb6 m ρ c (Proc.devRef .tc main_arg10)
    _ = Wb5 m ρ c (Proc.devRef .tc main_arg10) := (Wb6_arr m ρ c 3).trans (((dat2 (Vt5 m ρ) c).arrAt_in 3 rfl _).trans (A_eq2 (Vt5 m ρ) c 3))
    _ = Wb4 m ρ c (Proc.devRef .tc main_arg10) := StableHlo.after_of_writes_sub hostOps2 _ hostOps2_writes (by decide)
    _ = Wb3 m ρ c (Proc.devRef .tc main_arg10) := Wb4_of_ne m ρ c main_arg10 (by decide)
    _ = Wb2 m ρ c (Proc.devRef .tc main_arg10) := StableHlo.after_of_writes_sub hostOps1 _ hostOps1_writes (by decide)
    _ = Wb1 m ρ c (Proc.devRef .tc main_arg10) := Wb2_of_ne m ρ c main_arg10 (by decide)
    _ = Wb0 m ρ c (Proc.devRef .tc main_arg10) := StableHlo.after_of_writes_sub hostOps0 _ hostOps0_writes (by decide)
    _ = m ((c : Thread nD τ).loc main_arg10) := rfl
theorem Wb6_main_arg11 (c : Dev nD) : Wb6 m ρ c (Proc.devRef .tc main_arg11) = m ((c : Thread nD τ).loc main_arg11) :=
  calc Wb6 m ρ c (Proc.devRef .tc main_arg11)
    _ = Wb5 m ρ c (Proc.devRef .tc main_arg11) := Wb6_of_ne m ρ c main_arg11 (by decide)
    _ = Wb4 m ρ c (Proc.devRef .tc main_arg11) := StableHlo.after_of_writes_sub hostOps2 _ hostOps2_writes (by decide)
    _ = Wb3 m ρ c (Proc.devRef .tc main_arg11) := Wb4_of_ne m ρ c main_arg11 (by decide)
    _ = Wb2 m ρ c (Proc.devRef .tc main_arg11) := StableHlo.after_of_writes_sub hostOps1 _ hostOps1_writes (by decide)
    _ = Wb1 m ρ c (Proc.devRef .tc main_arg11) := Wb2_of_ne m ρ c main_arg11 (by decide)
    _ = Wb0 m ρ c (Proc.devRef .tc main_arg11) := StableHlo.after_of_writes_sub hostOps0 _ hostOps0_writes (by decide)
    _ = m ((c : Thread nD τ).loc main_arg11) := rfl
theorem Wb6_main_arg12 (c : Dev nD) : Wb6 m ρ c (Proc.devRef .tc main_arg12) = m ((c : Thread nD τ).loc main_arg12) :=
  calc Wb6 m ρ c (Proc.devRef .tc main_arg12)
    _ = Wb5 m ρ c (Proc.devRef .tc main_arg12) := (Wb6_arr m ρ c 5).trans (((dat2 (Vt5 m ρ) c).arrAt_in 5 rfl _).trans (A_eq2 (Vt5 m ρ) c 5))
    _ = Wb4 m ρ c (Proc.devRef .tc main_arg12) := StableHlo.after_of_writes_sub hostOps2 _ hostOps2_writes (by decide)
    _ = Wb3 m ρ c (Proc.devRef .tc main_arg12) := Wb4_of_ne m ρ c main_arg12 (by decide)
    _ = Wb2 m ρ c (Proc.devRef .tc main_arg12) := StableHlo.after_of_writes_sub hostOps1 _ hostOps1_writes (by decide)
    _ = Wb1 m ρ c (Proc.devRef .tc main_arg12) := Wb2_of_ne m ρ c main_arg12 (by decide)
    _ = Wb0 m ρ c (Proc.devRef .tc main_arg12) := StableHlo.after_of_writes_sub hostOps0 _ hostOps0_writes (by decide)
    _ = m ((c : Thread nD τ).loc main_arg12) := rfl
theorem Wb6_main_arg13 (c : Dev nD) : Wb6 m ρ c (Proc.devRef .tc main_arg13) = m ((c : Thread nD τ).loc main_arg13) :=
  calc Wb6 m ρ c (Proc.devRef .tc main_arg13)
    _ = Wb5 m ρ c (Proc.devRef .tc main_arg13) := Wb6_of_ne m ρ c main_arg13 (by decide)
    _ = Wb4 m ρ c (Proc.devRef .tc main_arg13) := StableHlo.after_of_writes_sub hostOps2 _ hostOps2_writes (by decide)
    _ = Wb3 m ρ c (Proc.devRef .tc main_arg13) := Wb4_of_ne m ρ c main_arg13 (by decide)
    _ = Wb2 m ρ c (Proc.devRef .tc main_arg13) := StableHlo.after_of_writes_sub hostOps1 _ hostOps1_writes (by decide)
    _ = Wb1 m ρ c (Proc.devRef .tc main_arg13) := Wb2_of_ne m ρ c main_arg13 (by decide)
    _ = Wb0 m ρ c (Proc.devRef .tc main_arg13) := StableHlo.after_of_writes_sub hostOps0 _ hostOps0_writes (by decide)
    _ = m ((c : Thread nD τ).loc main_arg13) := rfl
theorem Wb6_main_arg14 (c : Dev nD) : Wb6 m ρ c (Proc.devRef .tc main_arg14) = m ((c : Thread nD τ).loc main_arg14) :=
  calc Wb6 m ρ c (Proc.devRef .tc main_arg14)
    _ = Wb5 m ρ c (Proc.devRef .tc main_arg14) := Wb6_of_ne m ρ c main_arg14 (by decide)
    _ = Wb4 m ρ c (Proc.devRef .tc main_arg14) := StableHlo.after_of_writes_sub hostOps2 _ hostOps2_writes (by decide)
    _ = Wb3 m ρ c (Proc.devRef .tc main_arg14) := Wb4_of_ne m ρ c main_arg14 (by decide)
    _ = Wb2 m ρ c (Proc.devRef .tc main_arg14) := StableHlo.after_of_writes_sub hostOps1 _ hostOps1_writes (by decide)
    _ = Wb1 m ρ c (Proc.devRef .tc main_arg14) := Wb2_of_ne m ρ c main_arg14 (by decide)
    _ = Wb0 m ρ c (Proc.devRef .tc main_arg14) := StableHlo.after_of_writes_sub hostOps0 _ hostOps0_writes (by decide)
    _ = m ((c : Thread nD τ).loc main_arg14) := rfl

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing nothing. -/
abbrev rider (c : Dev nD) : sProp 𝕄 := iprop((∃ r, prngReg c r) ∗ ∃ W, owes (c : Thread nD τ) (0 : CellTallies nD τ sig Unit) W)
/-- A host stretch as a segment over the unscoped references, from the contents `W`: it leaves them at the stretch's
    operations applied to `W`, the rider unchanged. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev lastState (c : Dev nD) : sProp 𝕄 := iprop(StableHlo.held (c : Thread nD τ) (Pipeline.ucRefs τ sig) (Wb6 m ρ c) ∗ ∃ r, prngReg c r)

/-! ## The regions as segments -/

-- the library's lemmas are stated over the pinned configuration; matching it against the printed one takes unfolding
-- plain definitions inside a metavariable's type
set_option backward.isDefEq.respectTransparency.types false in
/-- Region 0 over the thread state: entered with every unscoped buffer at `Wb1`, left with them at `Wb2`. Its arrays are
    split out of the unscoped buffers at entry and put back at the exit contents; the generator register passes into the
    region invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L lv 0 fun _ _ => rfl
  pre c := iprop(StableHlo.held (c : Thread nD τ) (Pipeline.ucRefs τ sig) (Wb1 m ρ c) ∗ rider c)
  post c := iprop(StableHlo.held (c : Thread nD τ) (Pipeline.ucRefs τ sig) (Wb2 m ρ c) ∗ rider c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; matching it against the printed one takes unfolding
-- plain definitions inside a metavariable's type
set_option backward.isDefEq.respectTransparency.types false in
/-- Region 1 over the thread state: entered with every unscoped buffer at `Wb3`, left with them at `Wb4`. Its arrays are
    split out of the unscoped buffers at entry and put back at the exit contents; the generator register passes into the
    region invariant and out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L lv 1 fun _ _ => rfl
  pre c := iprop(StableHlo.held (c : Thread nD τ) (Pipeline.ucRefs τ sig) (Wb3 m ρ c) ∗ rider c)
  post c := iprop(StableHlo.held (c : Thread nD τ) (Pipeline.ucRefs τ sig) (Wb4 m ρ c) ∗ rider c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; matching it against the printed one takes unfolding
-- plain definitions inside a metavariable's type
set_option backward.isDefEq.respectTransparency.types false in
/-- Region 2 over the thread state: entered with every unscoped buffer at `Wb5`, left with them at `Wb6`. Its arrays are
    split out of the unscoped buffers at entry and put back at the exit contents; the generator register passes into the
    region invariant and out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt5 m ρ) c).loose
  hwaits := Pipeline.hwaits_of_owed_zero _ _ _ _ L lv 2 fun _ _ => rfl
  pre c := iprop(StableHlo.held (c : Thread nD τ) (Pipeline.ucRefs τ sig) (Wb5 m ρ c) ∗ rider c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vt5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vt5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vt5 m ρ c) (Vt6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six items in order: a host segment per stretch from its boundary's contents, a region per kernel call. -/
abbrev runSegs : List (Pipeline.Seg (pcfgs (F := F)) adm (pdats m ρ) () defs₀ 𝒱₀ L lv) :=
  [ .host (hostSeg hostOps0 hostOps0_sub hostOps0_fresh (Wb0 m ρ)),
    .region (reg0 m ρ),
    .host (hostSeg hostOps1 hostOps1_sub hostOps1_fresh (Wb2 m ρ)),
    .region (reg1 m ρ),
    .host (hostSeg hostOps2 hostOps2_sub hostOps2_fresh (Wb4 m ρ)),
    .region (reg2 m ρ) ]
/-- The program is the run of the segments: it is the chain of its items, and the segments' run is that chain by
    definitional unfolding. -/
theorem main_run (c : Dev nD) : main (F := F) c = Pipeline.Seg.run (runSegs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of the program on the TensorCores terminates, nothing
    faulting, and every final state has every unscoped buffer of every core at the last boundary's contents `Wb6`. -/
theorem run_all : θ_run defs (onTc (τ := τ) (main (F := F))) ⟨m, fun _ => 0, ρ⟩
      (fun r => ∀ c : Dev nD, ∀ b ∈ Pipeline.ucRefs τ sig, r.2.mem (((c : Thread nD τ)).1, b) = Wb6 m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ rider c)) (Tₙ := lastState m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb6 m ρ c) s')
      isplitl [Hh] <;> iassumption)
    (hQ := fun s h c => h c)

/-- The frame: the program terminates, nothing faulting, and every argument array ends as launched: each is an
    unscoped buffer, the run leaves it at the last boundary's contents, and those are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (Wb6_main_arg0 m ρ c),
     (h c _ (mem_uc main_arg1 (by decide))).trans (Wb6_main_arg1 m ρ c),
     (h c _ (mem_uc main_arg2 (by decide))).trans (Wb6_main_arg2 m ρ c),
     (h c _ (mem_uc main_arg3 (by decide))).trans (Wb6_main_arg3 m ρ c),
     (h c _ (mem_uc main_arg4 (by decide))).trans (Wb6_main_arg4 m ρ c),
     (h c _ (mem_uc main_arg5 (by decide))).trans (Wb6_main_arg5 m ρ c),
     (h c _ (mem_uc main_arg6 (by decide))).trans (Wb6_main_arg6 m ρ c),
     (h c _ (mem_uc main_arg7 (by decide))).trans (Wb6_main_arg7 m ρ c),
     (h c _ (mem_uc main_arg8 (by decide))).trans (Wb6_main_arg8 m ρ c),
     (h c _ (mem_uc main_arg9 (by decide))).trans (Wb6_main_arg9 m ρ c),
     (h c _ (mem_uc main_arg10 (by decide))).trans (Wb6_main_arg10 m ρ c),
     (h c _ (mem_uc main_arg11 (by decide))).trans (Wb6_main_arg11 m ρ c),
     (h c _ (mem_uc main_arg12 (by decide))).trans (Wb6_main_arg12 m ρ c),
     (h c _ (mem_uc main_arg13 (by decide))).trans (Wb6_main_arg13 m ρ c),
     (h c _ (mem_uc main_arg14 (by decide))).trans (Wb6_main_arg14 m ρ c)⟩) (run_all m ρ)

/-- info: 'Cert.Kernel.Fr.run_all' depends on axioms: [propext, Classical.choice, Quot.sound] -/
#guard_msgs in #print axioms run_all
/-- info: 'Cert.Kernel.Fr.frame' depends on axioms: [propext, Classical.choice, Quot.sound] -/
#guard_msgs in #print axioms frame

end Cert.Kernel.Fr

end
-- ==== Proof.FrameDefsIdeal.lean ====
import proofs.«150007_j7043746365769_2_alg».proof.Proof.Gen.KernelIdeal.Launch
import proofs.«150007_j7043746365769_2_alg».proof.Proof.Gen.KernelIdeal.Skeleton
import proofs.«150007_j7043746365769_2_alg».proof.Proof.Gen.KernelIdeal.Points
import proofs.«150007_j7043746365769_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The three row-blocked regions: blocks, what each body leaves, proof data, and the buffers between items

The program is three kernel regions, each over ten blocks of 5000 rows, among stretches of host operations. Region 0 is
the input projection (one matrix product, a bias row, a maximum with zero); regions 1 and 2 are the two combines (a
self product and a neighbour product of the degree-scaled aggregate, two bias rows, a sum, for region 1 a maximum with
zero, and the row mask). For each region, at the buffer contents `V` it is entered from: a window's block at a grid
point; the output block the body leaves, as the body's arithmetic on the input blocks; the proof data (every input
block stays, the output block becomes that). Then the buffer contents at each boundary between items, from the launch
memory: a host stretch's operations applied, a region's arrays at what its write-backs leave.
-/

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The whole-block rectangles the bodies load and store through -/

abbrev rRows : Rect S5000x128 := Rect.unit (s := S5000x128) ![0, 0] S5000x128.size inb_S5000x128_S5000x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0
abbrev rCols : Rect S5000x2 := Rect.unit (s := S5000x2) ![0, 0] S5000x2.size inb_S5000x2_S5000x2_0_0

section Regions

variable (V : (c : Dev nD) → (b : Ref sig .tc) → Buf (Elt F) ((c : Thread nD τ).loc b))

/-! ## Region 0: the input projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after the body: its one whole-block store, of the body's arithmetic on the three input blocks. -/
def out0_3 (x0 : Vec F S5000x128 .f32) (x1 : Vec F S128x128 .f32) (x2 : Vec F S1x128 .f32) : Vec F S5000x128 .bf16 :=
  View.canon [⟨rRows, k0_pay1 (View.ld x0 rRows) (View.ld x1 rWeight) (View.ld x2 rBias)⟩]

/-- The proof data of region 0: the arrays as found; every input block stays, the output block becomes `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-! ## Region 1: the first combine -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block after the body: its one whole-block store, of the body's arithmetic on the seven input blocks. -/
def out1_7 (x0 : Vec F S5000x128 .bf16) (x1 : Vec F S5000x128 .f32) (x2 : Vec F S5000x2 .f32) (x3 : Vec F S128x128 .f32) (x4 : Vec F S1x128 .f32)
    (x5 : Vec F S128x128 .f32) (x6 : Vec F S1x128 .f32) : Vec F S5000x128 .bf16 :=
  View.canon [⟨rRows, k1_pay1 (View.ld x0 rRows) (View.ld x1 rRows) (View.ld x2 rCols) (View.ld x3 rWeight) (View.ld x4 rBias) (View.ld x5 rWeight) (View.ld x6 rBias)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-! ## Region 2: the second combine -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_7 (x0 : Vec F S5000x128 .bf16) (x1 : Vec F S5000x128 .f32) (x2 : Vec F S5000x2 .f32) (x3 : Vec F S128x128 .f32) (x4 : Vec F S1x128 .f32)
    (x5 : Vec F S128x128 .f32) (x6 : Vec F S1x128 .f32) : Vec F S5000x128 .f32 :=
  View.canon [⟨rRows, k2_pay1 (View.ld x0 rRows) (View.ld x1 rRows) (View.ld x2 rCols) (View.ld x3 rWeight) (View.ld x4 rBias) (View.ld x5 rWeight) (View.ld x6 rBias)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

end Regions

/-! ## The buffer contents at each boundary between items -/

variable (m : (ℓ : Loc nD τ sig) → Buf (Elt F) ℓ) (ρ : Dev nD → PrngReg)

/-- Core `c`'s buffers at launch. -/
abbrev Wb0 : Dev nD → Valuation τ sig (Elt F) := fun c b => (s₀ m ρ).mem ((c : Dev nD), b)
/-- After the first host stretch (region 0's entry). -/
abbrev Wb1 : Dev nD → Valuation τ sig (Elt F) := fun c => StableHlo.after hostOps0 (Wb0 m ρ c)
abbrev Vt1 : (c : Dev nD) → (b : Ref sig .tc) → Buf (Elt F) ((c : Thread nD τ).loc b) := fun c b => Wb1 m ρ c b
/-- At region 0's exit: its arrays at what the write-backs leave, every other buffer as entered. -/
def Wb2 (c : Dev nD) : Valuation τ sig (Elt F) :=
  Pipeline.withArrays spec0 c (Wb1 m ρ c) fun w => (dat0 (Vt1 m ρ) c).arrAt w cfg0.N
abbrev Vt2 : (c : Dev nD) → (b : Ref sig .tc) → Buf (Elt F) ((c : Thread nD τ).loc b) := fun c b => Wb2 m ρ c b
/-- After the second host stretch (region 1's entry). -/
abbrev Wb3 : Dev nD → Valuation τ sig (Elt F) := fun c => StableHlo.after hostOps1 (Wb2 m ρ c)
abbrev Vt3 : (c : Dev nD) → (b : Ref sig .tc) → Buf (Elt F) ((c : Thread nD τ).loc b) := fun c b => Wb3 m ρ c b
/-- At region 1's exit. -/
def Wb4 (c : Dev nD) : Valuation τ sig (Elt F) :=
  Pipeline.withArrays spec1 c (Wb3 m ρ c) fun w => (dat1 (Vt3 m ρ) c).arrAt w cfg1.N
abbrev Vt4 : (c : Dev nD) → (b : Ref sig .tc) → Buf (Elt F) ((c : Thread nD τ).loc b) := fun c b => Wb4 m ρ c b
/-- After the third host stretch (region 2's entry). -/
abbrev Wb5 : Dev nD → Valuation τ sig (Elt F) := fun c => StableHlo.after hostOps2 (Wb4 m ρ c)
abbrev Vt5 : (c : Dev nD) → (b : Ref sig .tc) → Buf (Elt F) ((c : Thread nD τ).loc b) := fun c b => Wb5 m ρ c b
/-- At region 2's exit: the end of the program. -/
def Wb6 (c : Dev nD) : Valuation τ sig (Elt F) :=
  Pipeline.withArrays spec2 c (Wb5 m ρ c) fun w => (dat2 (Vt5 m ρ) c).arrAt w cfg2.N
abbrev Vt6 : (c : Dev nD) → (b : Ref sig .tc) → Buf (Elt F) ((c : Thread nD τ).loc b) := fun c b => Wb6 m ρ c b

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vt1 m ρ) c
  | ⟨1, _⟩ => fun c => dat1 (Vt3 m ρ) c
  | ⟨2, _⟩ => fun c => dat2 (Vt5 m ρ) c

end Cert.KernelIdeal.Fr

end
-- ==== Proof.FrameRunIdeal.lean ====
import proofs.«150007_j7043746365769_2_alg».proof.Proof.FrameDefsIdeal

/-!
# The run of the three row-blocked regions among the host stretches

For each region, at the buffer contents `V` it is entered from: each input window's staging buffer holds the window's
block at every grid point; the body, which loads whole blocks and stores one whole block, leaves the inputs' buffers as
they were and the output's buffer at the body's arithmetic on the input blocks; so the region's proof data meet the
body obligation. Then the run: a region leaves its arrays at what its write-backs leave and every other buffer as it was
entered; a host stretch writes only its own results; so from the launch memory the program terminates with every
unscoped buffer at the last boundary's contents, and no item writes an argument array: each argument ends as launched.
-/

-- membership in a rectangle of 5000 rows is checked coordinate by coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! # Region 0, at the contents `V` it is entered from -/

/-! ## Every input window's staging buffer holds its block at every point -/

/-- Input window 0: for any proof data whose array is `V`'s and whose body leaves the block in place, the buffer the
    body is handed holds the window's block at that point, whether or not a fetch happened there (an unfetched point has
    the block index of the point before it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: for any proof data whose array is `V`'s and whose body leaves the block in place, the buffer the
    body is handed holds the window's block at that point, whether or not a fetch happened there (an unfetched point has
    the block index of the point before it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: for any proof data whose array is `V`'s and whose body leaves the block in place, the buffer the
    body is handed holds the window's block at that point, whether or not a fetch happened there (an unfetched point has
    the block index of the point before it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output block -/

/-- The body's one store is of the whole block, so every index of the block lies in it. -/
theorem cover0 (p0 : Vec F S5000x128 .bf16) (y : S5000x128.Idx) :
    ∃ pc ∈ ([⟨rRows, p0⟩] : List (View.Piece (Elt F) S5000x128 .bf16)), y ∈ pc.1.set :=
  View.cover_of_tiled [⟨rRows, p0⟩] S5000x128.size (by rfl) y

/-! ## The body's triple -/

set_option maxHeartbeats 1000000 in
/-- The body on whole staging buffers, the inputs' at contents `x_w` and the output's at anything, runs to a state with
    the inputs' buffers as they were and the output's at `out0_3` of the inputs: every load is of a whole block, the
    loaded output block is not used, and the one store overwrites the whole output block. -/
theorem sound_kernel0 (c : Dev nD) (E : Set ℕ) (i : grid0.Coords) (arg0 : Memref sig .tc .vmem S5000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S5000x128 .bf16) (harg3 : arg3.IsWhole)
    (x0 : Vec F S5000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_in_kernel i arg0 harg0 arg1 harg1 arg2 harg2 arg3 harg3) K := by
  simp only [cc0__linear_in_kernel_eq_skeleton]; unfold cc0__linear_in_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## The proof data, projected -/

/-- The proof data's arrays are the contents the region is entered from. -/
theorem A_eq0 (c : Dev nD) (w : Fin cfg0.W) : (dat0 V c).A w = V c (Pipeline.arrRef spec0 w) := by
  dsimp only [dat0]

/-- What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the region invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0's proof data, at every point. -/
theorem body_obligation0 (c : Dev nD) : BodyObligation (dat0 (F := F) V c) (defs₀ (F := F)) Variants.none () Set.univ := fun t => by
  rw [bigSep_W0, bigSep_W0]
  exact sound_body0 V c t

/-! # Region 1, at the contents `V` it is entered from -/

/-! ## Every input window's staging buffer holds its block at every point -/

/-- Input window 0: for any proof data whose array is `V`'s and whose body leaves the block in place, the buffer the
    body is handed holds the window's block at that point, whether or not a fetch happened there (an unfetched point has
    the block index of the point before it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: for any proof data whose array is `V`'s and whose body leaves the block in place, the buffer the
    body is handed holds the window's block at that point, whether or not a fetch happened there (an unfetched point has
    the block index of the point before it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: for any proof data whose array is `V`'s and whose body leaves the block in place, the buffer the
    body is handed holds the window's block at that point, whether or not a fetch happened there (an unfetched point has
    the block index of the point before it). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: for any proof data whose array is `V`'s and whose body leaves the block in place, the buffer the
    body is handed holds the window's block at that point, whether or not a fetch happened there (an unfetched point has
    the block index of the point before it). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4: for any proof data whose array is `V`'s and whose body leaves the block in place, the buffer the
    body is handed holds the window's block at that point, whether or not a fetch happened there (an unfetched point has
    the block index of the point before it). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5: for any proof data whose array is `V`'s and whose body leaves the block in place, the buffer the
    body is handed holds the window's block at that point, whether or not a fetch happened there (an unfetched point has
    the block index of the point before it). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6: for any proof data whose array is `V`'s and whose body leaves the block in place, the buffer the
    body is handed holds the window's block at that point, whether or not a fetch happened there (an unfetched point has
    the block index of the point before it). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output block -/

/-- The body's one store is of the whole block, so every index of the block lies in it. -/
theorem cover1 (p0 : Vec F S5000x128 .bf16) (y : S5000x128.Idx) :
    ∃ pc ∈ ([⟨rRows, p0⟩] : List (View.Piece (Elt F) S5000x128 .bf16)), y ∈ pc.1.set :=
  View.cover_of_tiled [⟨rRows, p0⟩] S5000x128.size (by rfl) y

/-! ## The body's triple -/

set_option maxHeartbeats 1000000 in
/-- The body on whole staging buffers, the inputs' at contents `x_w` and the output's at anything, runs to a state with
    the inputs' buffers as they were and the output's at `out1_7` of the inputs: every load is of a whole block, the
    loaded output block is not used, and the one store overwrites the whole output block. -/
theorem sound_kernel1 (c : Dev nD) (E : Set ℕ) (i : grid1.Coords) (arg0 : Memref sig .tc .vmem S5000x128 .bf16) (harg0 : arg0.IsWhole) (arg1 : Memref sig .tc .vmem S5000x128 .f32) (harg1 : arg1.IsWhole) (arg2 : Memref sig .tc .vmem S5000x2 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .bf16) (harg7 : arg7.IsWhole)
    (x0 : Vec F S5000x128 .bf16) (x1 : Vec F S5000x128 .f32) (x2 : Vec F S5000x2 .f32) (x3 : Vec F S128x128 .f32) (x4 : Vec F S1x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1__sage_combine_kernel i arg0 harg0 arg1 harg1 arg2 harg2 arg3 harg3 arg4 harg4 arg5 harg5 arg6 harg6 arg7 harg7) K := by
  simp only [cc1__sage_combine_kernel_eq_skeleton]; unfold cc1__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1 _)

/-! ## The proof data, projected -/

/-- The proof data's arrays are the contents the region is entered from. -/
theorem A_eq1 (c : Dev nD) (w : Fin cfg1.W) : (dat1 V c).A w = V c (Pipeline.arrRef spec1 w) := by
  dsimp only [dat1]

/-- What the body leaves in each window's buffer. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's buffer holds its block when the body is called. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the region invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of region 1's proof data, at every point. -/
theorem body_obligation1 (c : Dev nD) : BodyObligation (dat1 (F := F) V c) (defs₀ (F := F)) Variants.none () Set.univ := fun t => by
  rw [bigSep_W1, bigSep_W1]
  exact sound_body1 V c t

/-! # Region 2, at the contents `V` it is entered from -/

/-! ## Every input window's staging buffer holds its block at every point -/

/-- Input window 0: for any proof data whose array is `V`'s and whose body leaves the block in place, the buffer the
    body is handed holds the window's block at that point, whether or not a fetch happened there (an unfetched point has
    the block index of the point before it). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1: for any proof data whose array is `V`'s and whose body leaves the block in place, the buffer the
    body is handed holds the window's block at that point, whether or not a fetch happened there (an unfetched point has
    the block index of the point before it). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2: for any proof data whose array is `V`'s and whose body leaves the block in place, the buffer the
    body is handed holds the window's block at that point, whether or not a fetch happened there (an unfetched point has
    the block index of the point before it). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3: for any proof data whose array is `V`'s and whose body leaves the block in place, the buffer the
    body is handed holds the window's block at that point, whether or not a fetch happened there (an unfetched point has
    the block index of the point before it). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4: for any proof data whose array is `V`'s and whose body leaves the block in place, the buffer the
    body is handed holds the window's block at that point, whether or not a fetch happened there (an unfetched point has
    the block index of the point before it). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5: for any proof data whose array is `V`'s and whose body leaves the block in place, the buffer the
    body is handed holds the window's block at that point, whether or not a fetch happened there (an unfetched point has
    the block index of the point before it). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6: for any proof data whose array is `V`'s and whose body leaves the block in place, the buffer the
    body is handed holds the window's block at that point, whether or not a fetch happened there (an unfetched point has
    the block index of the point before it). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The one store covers the output block -/

/-- The body's one store is of the whole block, so every index of the block lies in it. -/
theorem cover2 (p0 : Vec F S5000x128 .f32) (y : S5000x128.Idx) :
    ∃ pc ∈ ([⟨rRows, p0⟩] : List (View.Piece (Elt F) S5000x128 .f32)), y ∈ pc.1.set :=
  View.cover_of_tiled [⟨rRows, p0⟩] S5000x128.size (by rfl) y

/-! ## The body's triple -/

set_option maxHeartbeats 1000000 in
/-- The body on whole staging buffers, the inputs' at contents `x_w` and the output's at anything, runs to a state with
    the inputs' buffers as they were and the output's at `out2_7` of the inputs: every load is of a whole block, the
    loaded output block is not used, and the one store overwrites the whole output block. -/
theorem sound_kernel2 (c : Dev nD) (E : Set ℕ) (i : grid2.Coords) (arg0 : Memref sig .tc .vmem S5000x128 .bf16) (harg0 : arg0.IsWhole) (arg1 : Memref sig .tc .vmem S5000x128 .f32) (harg1 : arg1.IsWhole) (arg2 : Memref sig .tc .vmem S5000x2 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .bf16) (x1 : Vec F S5000x128 .f32) (x2 : Vec F S5000x2 .f32) (x3 : Vec F S128x128 .f32) (x4 : Vec F S1x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__sage_combine_kernel i arg0 harg0 arg1 harg1 arg2 harg2 arg3 harg3 arg4 harg4 arg5 harg5 arg6 harg6 arg7 harg7) K := by
  simp only [cc2__sage_combine_kernel_eq_skeleton]; unfold cc2__sage_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2 _)

/-! ## The proof data, projected -/

/-- The proof data's arrays are the contents the region is entered from. -/
theorem A_eq2 (c : Dev nD) (w : Fin cfg2.W) : (dat2 V c).A w = V c (Pipeline.arrRef spec2 w) := by
  dsimp only [dat2]

/-- What the body leaves in each window's buffer. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's buffer holds its block when the body is called. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the region invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of region 2's proof data, at every point. -/
theorem body_obligation2 (c : Dev nD) : BodyObligation (dat2 (F := F) V c) (defs₀ (F := F)) Variants.none () Set.univ := fun t => by
  rw [bigSep_W2, bigSep_W2]
  exact sound_body2 V c t

end Regions

/-! # The run: from the launch memory through the six items -/

variable (m : (ℓ : Loc nD τ sig) → Buf (Elt F) ℓ) (ρ : Dev nD → PrngReg)

/-! ## A region's exit contents: its arrays at what the write-backs leave, every other buffer as entered -/

theorem Wb2_arr (c : Dev nD) (w : Fin cfg0.W) :
    Wb2 m ρ c (Proc.devRef .tc (Pipeline.arrRef spec0 w)) = (dat0 (Vt1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
/-- At region 0's exit each of its arrays holds what the write-backs leave, and every other buffer what it held at entry. -/
theorem hF0 (c : Dev nD) (w : Fin cfg0.W) : (dat0 (Vt1 m ρ) c).arrAt w cfg0.N = Vt2 m ρ c (Pipeline.arrRef spec0 w) :=
  (Wb2_arr m ρ c w).symm
theorem hrest0 (c : Dev nD) : ∀ b, b ∉ Finset.univ.image (Pipeline.arrRef spec0) → Vt2 m ρ c b = Vt1 m ρ c b :=
  fun b hb => Wb2_of_ne m ρ c b fun w e => hb (Finset.mem_image.mpr ⟨w, Finset.mem_univ _, e⟩)

theorem Wb4_arr (c : Dev nD) (w : Fin cfg1.W) :
    Wb4 m ρ c (Proc.devRef .tc (Pipeline.arrRef spec1 w)) = (dat1 (Vt3 m ρ) c).arrAt w cfg1.N := by
  unfold Wb4; exact Pipeline.withArrays_arr spec1 launch1.win.arr_inj c _ _ w
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
/-- At region 1's exit each of its arrays holds what the write-backs leave, and every other buffer what it held at entry. -/
theorem hF1 (c : Dev nD) (w : Fin cfg1.W) : (dat1 (Vt3 m ρ) c).arrAt w cfg1.N = Vt4 m ρ c (Pipeline.arrRef spec1 w) :=
  (Wb4_arr m ρ c w).symm
theorem hrest1 (c : Dev nD) : ∀ b, b ∉ Finset.univ.image (Pipeline.arrRef spec1) → Vt4 m ρ c b = Vt3 m ρ c b :=
  fun b hb => Wb4_of_ne m ρ c b fun w e => hb (Finset.mem_image.mpr ⟨w, Finset.mem_univ _, e⟩)

theorem Wb6_arr (c : Dev nD) (w : Fin cfg2.W) :
    Wb6 m ρ c (Proc.devRef .tc (Pipeline.arrRef spec2 w)) = (dat2 (Vt5 m ρ) c).arrAt w cfg2.N := by
  unfold Wb6; exact Pipeline.withArrays_arr spec2 launch2.win.arr_inj c _ _ w
theorem Wb6_of_ne (c : Dev nD) (b : Ref sig .tc) (hb : ∀ w, Pipeline.arrRef spec2 w ≠ b) :
    Wb6 m ρ c (Proc.devRef .tc b) = Wb5 m ρ c (Proc.devRef .tc b) := by
  unfold Wb6; exact Pipeline.withArrays_of_ne spec2 c _ _ b hb
/-- At region 2's exit each of its arrays holds what the write-backs leave, and every other buffer what it held at entry. -/
theorem hF2 (c : Dev nD) (w : Fin cfg2.W) : (dat2 (Vt5 m ρ) c).arrAt w cfg2.N = Vt6 m ρ c (Pipeline.arrRef spec2 w) :=
  (Wb6_arr m ρ c w).symm
theorem hrest2 (c : Dev nD) : ∀ b, b ∉ Finset.univ.image (Pipeline.arrRef spec2) → Vt6 m ρ c b = Vt5 m ρ c b :=
  fun b hb => Wb6_of_ne m ρ c b fun w e => hb (Finset.mem_image.mpr ⟨w, Finset.mem_univ _, e⟩)

/-! ## No item writes an argument

A host stretch writes only its own results, none of which is an argument. A region changes only its output array, which
is no argument; an argument that a region reads through an input window is one of the region's arrays, and an input
array is left as entered. So the last boundary's contents at an argument walk back to the launch memory. -/

theorem Wb6_main_arg0 (c : Dev nD) : Wb6 m ρ c (Proc.devRef .tc main_arg0) = m ((c : Thread nD τ).loc main_arg0) :=
  calc Wb6 m ρ c (Proc.devRef .tc main_arg0)
    _ = Wb5 m ρ c (Proc.devRef .tc main_arg0) := Wb6_of_ne m ρ c main_arg0 (by decide)
    _ = Wb4 m ρ c (Proc.devRef .tc main_arg0) := StableHlo.after_of_writes_sub hostOps2 _ hostOps2_writes (by decide)
    _ = Wb3 m ρ c (Proc.devRef .tc main_arg0) := Wb4_of_ne m ρ c main_arg0 (by decide)
    _ = Wb2 m ρ c (Proc.devRef .tc main_arg0) := StableHlo.after_of_writes_sub hostOps1 _ hostOps1_writes (by decide)
    _ = Wb1 m ρ c (Proc.devRef .tc main_arg0) := Wb2_of_ne m ρ c main_arg0 (by decide)
    _ = Wb0 m ρ c (Proc.devRef .tc main_arg0) := StableHlo.after_of_writes_sub hostOps0 _ hostOps0_writes (by decide)
    _ = m ((c : Thread nD τ).loc main_arg0) := rfl
theorem Wb6_main_arg1 (c : Dev nD) : Wb6 m ρ c (Proc.devRef .tc main_arg1) = m ((c : Thread nD τ).loc main_arg1) :=
  calc Wb6 m ρ c (Proc.devRef .tc main_arg1)
    _ = Wb5 m ρ c (Proc.devRef .tc main_arg1) := Wb6_of_ne m ρ c main_arg1 (by decide)
    _ = Wb4 m ρ c (Proc.devRef .tc main_arg1) := StableHlo.after_of_writes_sub hostOps2 _ hostOps2_writes (by decide)
    _ = Wb3 m ρ c (Proc.devRef .tc main_arg1) := Wb4_of_ne m ρ c main_arg1 (by decide)
    _ = Wb2 m ρ c (Proc.devRef .tc main_arg1) := StableHlo.after_of_writes_sub hostOps1 _ hostOps1_writes (by decide)
    _ = Wb1 m ρ c (Proc.devRef .tc main_arg1) := Wb2_of_ne m ρ c main_arg1 (by decide)
    _ = Wb0 m ρ c (Proc.devRef .tc main_arg1) := StableHlo.after_of_writes_sub hostOps0 _ hostOps0_writes (by decide)
    _ = m ((c : Thread nD τ).loc main_arg1) := rfl
theorem Wb6_main_arg2 (c : Dev nD) : Wb6 m ρ c (Proc.devRef .tc main_arg2) = m ((c : Thread nD τ).loc main_arg2) :=
  calc Wb6 m ρ c (Proc.devRef .tc main_arg2)
    _ = Wb5 m ρ c (Proc.devRef .tc main_arg2) := Wb6_of_ne m ρ c main_arg2 (by decide)
    _ = Wb4 m ρ c (Proc.devRef .tc main_arg2) := StableHlo.after_of_writes_sub hostOps2 _ hostOps2_writes (by decide)
    _ = Wb3 m ρ c (Proc.devRef .tc main_arg2) := Wb4_of_ne m ρ c main_arg2 (by decide)
    _ = Wb2 m ρ c (Proc.devRef .tc main_arg2) := StableHlo.after_of_writes_sub hostOps1 _ hostOps1_writes (by decide)
    _ = Wb1 m ρ c (Proc.devRef .tc main_arg2) := Wb2_of_ne m ρ c main_arg2 (by decide)
    _ = Wb0 m ρ c (Proc.devRef .tc main_arg2) := StableHlo.after_of_writes_sub hostOps0 _ hostOps0_writes (by decide)
    _ = m ((c : Thread nD τ).loc main_arg2) := rfl
theorem Wb6_main_arg3 (c : Dev nD) : Wb6 m ρ c (Proc.devRef .tc main_arg3) = m ((c : Thread nD τ).loc main_arg3) :=
  calc Wb6 m ρ c (Proc.devRef .tc main_arg3)
    _ = Wb5 m ρ c (Proc.devRef .tc main_arg3) := Wb6_of_ne m ρ c main_arg3 (by decide)
    _ = Wb4 m ρ c (Proc.devRef .tc main_arg3) := StableHlo.after_of_writes_sub hostOps2 _ hostOps2_writes (by decide)
    _ = Wb3 m ρ c (Proc.devRef .tc main_arg3) := Wb4_of_ne m ρ c main_arg3 (by decide)
    _ = Wb2 m ρ c (Proc.devRef .tc main_arg3) := StableHlo.after_of_writes_sub hostOps1 _ hostOps1_writes (by decide)
    _ = Wb1 m ρ c (Proc.devRef .tc main_arg3) := Wb2_of_ne m ρ c main_arg3 (by decide)
    _ = Wb0 m ρ c (Proc.devRef .tc main_arg3) := StableHlo.after_of_writes_sub hostOps0 _ hostOps0_writes (by decide)
    _ = m ((c : Thread nD τ).loc main_arg3) := rfl
theorem Wb6_main_arg4 (c : Dev nD) : Wb6 m ρ c (Proc.devRef .tc main_arg4) = m ((c : Thread nD τ).loc main_arg4) :=
  calc Wb6 m ρ c (Proc.devRef .tc main_arg4)
    _ = Wb5 m ρ c (Proc.devRef .tc main_arg4) := Wb6_of_ne m ρ c main_arg4 (by decide)
    _ = Wb4 m ρ c (Proc.devRef .tc main_arg4) := StableHlo.after_of_writes_sub hostOps2 _ hostOps2_writes (by decide)
    _ = Wb3 m ρ c (Proc.devRef .tc main_arg4) := Wb4_of_ne m ρ c main_arg4 (by decide)
    _ = Wb2 m ρ c (Proc.devRef .tc main_arg4) := StableHlo.after_of_writes_sub hostOps1 _ hostOps1_writes (by decide)
    _ = Wb1 m ρ c (Proc.devRef .tc main_arg4) := (Wb2_arr m ρ c 1).trans (((dat0 (Vt1 m ρ) c).arrAt_in 1 rfl _).trans (A_eq0 (Vt1 m ρ) c 1))
    _ = Wb0 m ρ c (Proc.devRef .tc main_arg4) := StableHlo.after_of_writes_sub hostOps0 _ hostOps0_writes (by decide)
    _ = m ((c : Thread nD τ).loc main_arg4) := rfl
theorem Wb6_main_arg5 (c : Dev nD) : Wb6 m ρ c (Proc.devRef .tc main_arg5) = m ((c : Thread nD τ).loc main_arg5) :=
  calc Wb6 m ρ c (Proc.devRef .tc main_arg5)
    _ = Wb5 m ρ c (Proc.devRef .tc main_arg5) := Wb6_of_ne m ρ c main_arg5 (by decide)
    _ = Wb4 m ρ c (Proc.devRef .tc main_arg5) := StableHlo.after_of_writes_sub hostOps2 _ hostOps2_writes (by decide)
    _ = Wb3 m ρ c (Proc.devRef .tc main_arg5) := Wb4_of_ne m ρ c main_arg5 (by decide)
    _ = Wb2 m ρ c (Proc.devRef .tc main_arg5) := StableHlo.after_of_writes_sub hostOps1 _ hostOps1_writes (by decide)
    _ = Wb1 m ρ c (Proc.devRef .tc main_arg5) := Wb2_of_ne m ρ c main_arg5 (by decide)
    _ = Wb0 m ρ c (Proc.devRef .tc main_arg5) := StableHlo.after_of_writes_sub hostOps0 _ hostOps0_writes (by decide)
    _ = m ((c : Thread nD τ).loc main_arg5) := rfl
theorem Wb6_main_arg6 (c : Dev nD) : Wb6 m ρ c (Proc.devRef .tc main_arg6) = m ((c : Thread nD τ).loc main_arg6) :=
  calc Wb6 m ρ c (Proc.devRef .tc main_arg6)
    _ = Wb5 m ρ c (Proc.devRef .tc main_arg6) := Wb6_of_ne m ρ c main_arg6 (by decide)
    _ = Wb4 m ρ c (Proc.devRef .tc main_arg6) := StableHlo.after_of_writes_sub hostOps2 _ hostOps2_writes (by decide)
    _ = Wb3 m ρ c (Proc.devRef .tc main_arg6) := (Wb4_arr m ρ c 3).trans (((dat1 (Vt3 m ρ) c).arrAt_in 3 rfl _).trans (A_eq1 (Vt3 m ρ) c 3))
    _ = Wb2 m ρ c (Proc.devRef .tc main_arg6) := StableHlo.after_of_writes_sub hostOps1 _ hostOps1_writes (by decide)
    _ = Wb1 m ρ c (Proc.devRef .tc main_arg6) := Wb2_of_ne m ρ c main_arg6 (by decide)
    _ = Wb0 m ρ c (Proc.devRef .tc main_arg6) := StableHlo.after_of_writes_sub hostOps0 _ hostOps0_writes (by decide)
    _ = m ((c : Thread nD τ).loc main_arg6) := rfl
theorem Wb6_main_arg7 (c : Dev nD) : Wb6 m ρ c (Proc.devRef .tc main_arg7) = m ((c : Thread nD τ).loc main_arg7) :=
  calc Wb6 m ρ c (Proc.devRef .tc main_arg7)
    _ = Wb5 m ρ c (Proc.devRef .tc main_arg7) := Wb6_of_ne m ρ c main_arg7 (by decide)
    _ = Wb4 m ρ c (Proc.devRef .tc main_arg7) := StableHlo.after_of_writes_sub hostOps2 _ hostOps2_writes (by decide)
    _ = Wb3 m ρ c (Proc.devRef .tc main_arg7) := Wb4_of_ne m ρ c main_arg7 (by decide)
    _ = Wb2 m ρ c (Proc.devRef .tc main_arg7) := StableHlo.after_of_writes_sub hostOps1 _ hostOps1_writes (by decide)
    _ = Wb1 m ρ c (Proc.devRef .tc main_arg7) := Wb2_of_ne m ρ c main_arg7 (by decide)
    _ = Wb0 m ρ c (Proc.devRef .tc main_arg7) := StableHlo.after_of_writes_sub hostOps0 _ hostOps0_writes (by decide)
    _ = m ((c : Thread nD τ).loc main_arg7) := rfl
theorem Wb6_main_arg8 (c : Dev nD) : Wb6 m ρ c (Proc.devRef .tc main_arg8) = m ((c : Thread nD τ).loc main_arg8) :=
  calc Wb6 m ρ c (Proc.devRef .tc main_arg8)
    _ = Wb5 m ρ c (Proc.devRef .tc main_arg8) := Wb6_of_ne m ρ c main_arg8 (by decide)
    _ = Wb4 m ρ c (Proc.devRef .tc main_arg8) := StableHlo.after_of_writes_sub hostOps2 _ hostOps2_writes (by decide)
    _ = Wb3 m ρ c (Proc.devRef .tc main_arg8) := (Wb4_arr m ρ c 5).trans (((dat1 (Vt3 m ρ) c).arrAt_in 5 rfl _).trans (A_eq1 (Vt3 m ρ) c 5))
    _ = Wb2 m ρ c (Proc.devRef .tc main_arg8) := StableHlo.after_of_writes_sub hostOps1 _ hostOps1_writes (by decide)
    _ = Wb1 m ρ c (Proc.devRef .tc main_arg8) := Wb2_of_ne m ρ c main_arg8 (by decide)
    _ = Wb0 m ρ c (Proc.devRef .tc main_arg8) := StableHlo.after_of_writes_sub hostOps0 _ hostOps0_writes (by decide)
    _ = m ((c : Thread nD τ).loc main_arg8) := rfl
theorem Wb6_main_arg9 (c : Dev nD) : Wb6 m ρ c (Proc.devRef .tc main_arg9) = m ((c : Thread nD τ).loc main_arg9) :=
  calc Wb6 m ρ c (Proc.devRef .tc main_arg9)
    _ = Wb5 m ρ c (Proc.devRef .tc main_arg9) := Wb6_of_ne m ρ c main_arg9 (by decide)
    _ = Wb4 m ρ c (Proc.devRef .tc main_arg9) := StableHlo.after_of_writes_sub hostOps2 _ hostOps2_writes (by decide)
    _ = Wb3 m ρ c (Proc.devRef .tc main_arg9) := Wb4_of_ne m ρ c main_arg9 (by decide)
    _ = Wb2 m ρ c (Proc.devRef .tc main_arg9) := StableHlo.after_of_writes_sub hostOps1 _ hostOps1_writes (by decide)
    _ = Wb1 m ρ c (Proc.devRef .tc main_arg9) := Wb2_of_ne m ρ c main_arg9 (by decide)
    _ = Wb0 m ρ c (Proc.devRef .tc main_arg9) := StableHlo.after_of_writes_sub hostOps0 _ hostOps0_writes (by decide)
    _ = m ((c : Thread nD τ).loc main_arg9) := rfl
theorem Wb6_main_arg10 (c : Dev nD) : Wb6 m ρ c (Proc.devRef .tc main_arg10) = m ((c : Thread nD τ).loc main_arg10) :=
  calc Wb6 m ρ c (Proc.devRef .tc main_arg10)
    _ = Wb5 m ρ c (Proc.devRef .tc main_arg10) := (Wb6_arr m ρ c 3).trans (((dat2 (Vt5 m ρ) c).arrAt_in 3 rfl _).trans (A_eq2 (Vt5 m ρ) c 3))
    _ = Wb4 m ρ c (Proc.devRef .tc main_arg10) := StableHlo.after_of_writes_sub hostOps2 _ hostOps2_writes (by decide)
    _ = Wb3 m ρ c (Proc.devRef .tc main_arg10) := Wb4_of_ne m ρ c main_arg10 (by decide)
    _ = Wb2 m ρ c (Proc.devRef .tc main_arg10) := StableHlo.after_of_writes_sub hostOps1 _ hostOps1_writes (by decide)
    _ = Wb1 m ρ c (Proc.devRef .tc main_arg10) := Wb2_of_ne m ρ c main_arg10 (by decide)
    _ = Wb0 m ρ c (Proc.devRef .tc main_arg10) := StableHlo.after_of_writes_sub hostOps0 _ hostOps0_writes (by decide)
    _ = m ((c : Thread nD τ).loc main_arg10) := rfl
theorem Wb6_main_arg11 (c : Dev nD) : Wb6 m ρ c (Proc.devRef .tc main_arg11) = m ((c : Thread nD τ).loc main_arg11) :=
  calc Wb6 m ρ c (Proc.devRef .tc main_arg11)
    _ = Wb5 m ρ c (Proc.devRef .tc main_arg11) := Wb6_of_ne m ρ c main_arg11 (by decide)
    _ = Wb4 m ρ c (Proc.devRef .tc main_arg11) := StableHlo.after_of_writes_sub hostOps2 _ hostOps2_writes (by decide)
    _ = Wb3 m ρ c (Proc.devRef .tc main_arg11) := Wb4_of_ne m ρ c main_arg11 (by decide)
    _ = Wb2 m ρ c (Proc.devRef .tc main_arg11) := StableHlo.after_of_writes_sub hostOps1 _ hostOps1_writes (by decide)
    _ = Wb1 m ρ c (Proc.devRef .tc main_arg11) := Wb2_of_ne m ρ c main_arg11 (by decide)
    _ = Wb0 m ρ c (Proc.devRef .tc main_arg11) := StableHlo.after_of_writes_sub hostOps0 _ hostOps0_writes (by decide)
    _ = m ((c : Thread nD τ).loc main_arg11) := rfl
theorem Wb6_main_arg12 (c : Dev nD) : Wb6 m ρ c (Proc.devRef .tc main_arg12) = m ((c : Thread nD τ).loc main_arg12) :=
  calc Wb6 m ρ c (Proc.devRef .tc main_arg12)
    _ = Wb5 m ρ c (Proc.devRef .tc main_arg12) := (Wb6_arr m ρ c 5).trans (((dat2 (Vt5 m ρ) c).arrAt_in 5 rfl _).trans (A_eq2 (Vt5 m ρ) c 5))
    _ = Wb4 m ρ c (Proc.devRef .tc main_arg12) := StableHlo.after_of_writes_sub hostOps2 _ hostOps2_writes (by decide)
    _ = Wb3 m ρ c (Proc.devRef .tc main_arg12) := Wb4_of_ne m ρ c main_arg12 (by decide)
    _ = Wb2 m ρ c (Proc.devRef .tc main_arg12) := StableHlo.after_of_writes_sub hostOps1 _ hostOps1_writes (by decide)
    _ = Wb1 m ρ c (Proc.devRef .tc main_arg12) := Wb2_of_ne m ρ c main_arg12 (by decide)
    _ = Wb0 m ρ c (Proc.devRef .tc main_arg12) := StableHlo.after_of_writes_sub hostOps0 _ hostOps0_writes (by decide)
    _ = m ((c : Thread nD τ).loc main_arg12) := rfl
theorem Wb6_main_arg13 (c : Dev nD) : Wb6 m ρ c (Proc.devRef .tc main_arg13) = m ((c : Thread nD τ).loc main_arg13) :=
  calc Wb6 m ρ c (Proc.devRef .tc main_arg13)
    _ = Wb5 m ρ c (Proc.devRef .tc main_arg13) := Wb6_of_ne m ρ c main_arg13 (by decide)
    _ = Wb4 m ρ c (Proc.devRef .tc main_arg13) := StableHlo.after_of_writes_sub hostOps2 _ hostOps2_writes (by decide)
    _ = Wb3 m ρ c (Proc.devRef .tc main_arg13) := Wb4_of_ne m ρ c main_arg13 (by decide)
    _ = Wb2 m ρ c (Proc.devRef .tc main_arg13) := StableHlo.after_of_writes_sub hostOps1 _ hostOps1_writes (by decide)
    _ = Wb1 m ρ c (Proc.devRef .tc main_arg13) := Wb2_of_ne m ρ c main_arg13 (by decide)
    _ = Wb0 m ρ c (Proc.devRef .tc main_arg13) := StableHlo.after_of_writes_sub hostOps0 _ hostOps0_writes (by decide)
    _ = m ((c : Thread nD τ).loc main_arg13) := rfl
theorem Wb6_main_arg14 (c : Dev nD) : Wb6 m ρ c (Proc.devRef .tc main_arg14) = m ((c : Thread nD τ).loc main_arg14) :=
  calc Wb6 m ρ c (Proc.devRef .tc main_arg14)
    _ = Wb5 m ρ c (Proc.devRef .tc main_arg14) := Wb6_of_ne m ρ c main_arg14 (by decide)
    _ = Wb4 m ρ c (Proc.devRef .tc main_arg14) := StableHlo.after_of_writes_sub hostOps2 _ hostOps2_writes (by decide)
    _ = Wb3 m ρ c (Proc.devRef .tc main_arg14) := Wb4_of_ne m ρ c main_arg14 (by decide)
    _ = Wb2 m ρ c (Proc.devRef .tc main_arg14) := StableHlo.after_of_writes_sub hostOps1 _ hostOps1_writes (by decide)
    _ = Wb1 m ρ c (Proc.devRef .tc main_arg14) := Wb2_of_ne m ρ c main_arg14 (by decide)
    _ = Wb0 m ρ c (Proc.devRef .tc main_arg14) := StableHlo.after_of_writes_sub hostOps0 _ hostOps0_writes (by decide)
    _ = m ((c : Thread nD τ).loc main_arg14) := rfl

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing nothing. -/
abbrev rider (c : Dev nD) : sProp 𝕄 := iprop((∃ r, prngReg c r) ∗ ∃ W, owes (c : Thread nD τ) (0 : CellTallies nD τ sig Unit) W)
/-- A host stretch as a segment over the unscoped references, from the contents `W`: it leaves them at the stretch's
    operations applied to `W`, the rider unchanged. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev lastState (c : Dev nD) : sProp 𝕄 := iprop(StableHlo.held (c : Thread nD τ) (Pipeline.ucRefs τ sig) (Wb6 m ρ c) ∗ ∃ r, prngReg c r)

/-! ## The regions as segments -/

-- the library's lemmas are stated over the pinned configuration; matching it against the printed one takes unfolding
-- plain definitions inside a metavariable's type
set_option backward.isDefEq.respectTransparency.types false in
/-- Region 0 over the thread state: entered with every unscoped buffer at `Wb1`, left with them at `Wb2`. Its arrays are
    split out of the unscoped buffers at entry and put back at the exit contents; the generator register passes into the
    region invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m ρ) c).loose
  hwaits := Pipeline.hwaits_of_owed_zero _ _ _ _ L lv 0 fun _ _ => rfl
  pre c := iprop(StableHlo.held (c : Thread nD τ) (Pipeline.ucRefs τ sig) (Wb1 m ρ c) ∗ rider c)
  post c := iprop(StableHlo.held (c : Thread nD τ) (Pipeline.ucRefs τ sig) (Wb2 m ρ c) ∗ rider c)
  X c := iprop(∃ r, prngReg c r)
  Y c := iprop(∃ r, prngReg c r)
  Z c := Pipeline.unscopedRest (Ix := Unit) (Name := ℕ) (U := UR sig nD τ) (Lvl := ℕ) spec0 c (Vt1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vt1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vt1 m ρ c) (Vt2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; matching it against the printed one takes unfolding
-- plain definitions inside a metavariable's type
set_option backward.isDefEq.respectTransparency.types false in
/-- Region 1 over the thread state: entered with every unscoped buffer at `Wb3`, left with them at `Wb4`. Its arrays are
    split out of the unscoped buffers at entry and put back at the exit contents; the generator register passes into the
    region invariant and out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt3 m ρ) c).loose
  hwaits := Pipeline.hwaits_of_owed_zero _ _ _ _ L lv 1 fun _ _ => rfl
  pre c := iprop(StableHlo.held (c : Thread nD τ) (Pipeline.ucRefs τ sig) (Wb3 m ρ c) ∗ rider c)
  post c := iprop(StableHlo.held (c : Thread nD τ) (Pipeline.ucRefs τ sig) (Wb4 m ρ c) ∗ rider c)
  X c := iprop(∃ r, prngReg c r)
  Y c := iprop(∃ r, prngReg c r)
  Z c := Pipeline.unscopedRest (Ix := Unit) (Name := ℕ) (U := UR sig nD τ) (Lvl := ℕ) spec1 c (Vt3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vt3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vt3 m ρ c) (Vt4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; matching it against the printed one takes unfolding
-- plain definitions inside a metavariable's type
set_option backward.isDefEq.respectTransparency.types false in
/-- Region 2 over the thread state: entered with every unscoped buffer at `Wb5`, left with them at `Wb6`. Its arrays are
    split out of the unscoped buffers at entry and put back at the exit contents; the generator register passes into the
    region invariant and out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt5 m ρ) c).loose
  hwaits := Pipeline.hwaits_of_owed_zero _ _ _ _ L lv 2 fun _ _ => rfl
  pre c := iprop(StableHlo.held (c : Thread nD τ) (Pipeline.ucRefs τ sig) (Wb5 m ρ c) ∗ rider c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vt5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vt5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vt5 m ρ c) (Vt6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six items in order: a host segment per stretch from its boundary's contents, a region per kernel call. -/
abbrev runSegs : List (Pipeline.Seg (pcfgs (F := F)) adm (pdats m ρ) () defs₀ 𝒱₀ L lv) :=
  [ .host (hostSeg hostOps0 hostOps0_sub hostOps0_fresh (Wb0 m ρ)),
    .region (reg0 m ρ),
    .host (hostSeg hostOps1 hostOps1_sub hostOps1_fresh (Wb2 m ρ)),
    .region (reg1 m ρ),
    .host (hostSeg hostOps2 hostOps2_sub hostOps2_fresh (Wb4 m ρ)),
    .region (reg2 m ρ) ]
/-- The program is the run of the segments: it is the chain of its items, and the segments' run is that chain by
    definitional unfolding. -/
theorem main_run (c : Dev nD) : main (F := F) c = Pipeline.Seg.run (runSegs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of the program on the TensorCores terminates, nothing
    faulting, and every final state has every unscoped buffer of every core at the last boundary's contents `Wb6`. -/
theorem run_all : θ_run defs (onTc (τ := τ) (main (F := F))) ⟨m, fun _ => 0, ρ⟩
      (fun r => ∀ c : Dev nD, ∀ b ∈ Pipeline.ucRefs τ sig, r.2.mem (((c : Thread nD τ)).1, b) = Wb6 m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ rider c)) (Tₙ := lastState m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb6 m ρ c) s')
      isplitl [Hh] <;> iassumption)
    (hQ := fun s h c => h c)

/-- The frame: the program terminates, nothing faulting, and every argument array ends as launched: each is an
    unscoped buffer, the run leaves it at the last boundary's contents, and those are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (Wb6_main_arg0 m ρ c),
     (h c _ (mem_uc main_arg1 (by decide))).trans (Wb6_main_arg1 m ρ c),
     (h c _ (mem_uc main_arg2 (by decide))).trans (Wb6_main_arg2 m ρ c),
     (h c _ (mem_uc main_arg3 (by decide))).trans (Wb6_main_arg3 m ρ c),
     (h c _ (mem_uc main_arg4 (by decide))).trans (Wb6_main_arg4 m ρ c),
     (h c _ (mem_uc main_arg5 (by decide))).trans (Wb6_main_arg5 m ρ c),
     (h c _ (mem_uc main_arg6 (by decide))).trans (Wb6_main_arg6 m ρ c),
     (h c _ (mem_uc main_arg7 (by decide))).trans (Wb6_main_arg7 m ρ c),
     (h c _ (mem_uc main_arg8 (by decide))).trans (Wb6_main_arg8 m ρ c),
     (h c _ (mem_uc main_arg9 (by decide))).trans (Wb6_main_arg9 m ρ c),
     (h c _ (mem_uc main_arg10 (by decide))).trans (Wb6_main_arg10 m ρ c),
     (h c _ (mem_uc main_arg11 (by decide))).trans (Wb6_main_arg11 m ρ c),
     (h c _ (mem_uc main_arg12 (by decide))).trans (Wb6_main_arg12 m ρ c),
     (h c _ (mem_uc main_arg13 (by decide))).trans (Wb6_main_arg13 m ρ c),
     (h c _ (mem_uc main_arg14 (by decide))).trans (Wb6_main_arg14 m ρ c)⟩) (run_all m ρ)

/-- info: 'Cert.KernelIdeal.Fr.run_all' depends on axioms: [propext, Classical.choice, Quot.sound] -/
#guard_msgs in #print axioms run_all
/-- info: 'Cert.KernelIdeal.Fr.frame' depends on axioms: [propext, Classical.choice, Quot.sound] -/
#guard_msgs in #print axioms frame

end Cert.KernelIdeal.Fr

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibSageMath.lean ====
/- The pure mathematics of a two-layer bidirectional mean-aggregating graph encoder with batch
   normalisation, a rectifier and a final maximum over rows, over the extended reals: which values stay
   real, why dividing by `max c 1` is multiplying by its reciprocal, why the dense layer may be regrouped,
   and why a maximum over all rows is the running maximum of the maxima of consecutive blocks of rows. -/
import Idealize.ShloMosaic.PureOps.Ideal

noncomputable section

namespace SageMath

open Idealize.ShloMosaic

open scoped BigOperators

/-! ### A. Realness -/

/-- An extended real is REAL when it is the image of a real number (neither infinity). -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal (0 : EReal) := ⟨0, EReal.coe_zero.symm⟩

/-- One is real. -/
theorem isReal_one : IsReal (1 : EReal) := ⟨1, EReal.coe_one.symm⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The greater of two reals is real. -/
theorem IsReal.max {x y : EReal} (hx : IsReal x) (hy : IsReal y) : IsReal (max x y) := by
  obtain ⟨a, rfl⟩ := hx
  obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real divided by a nonzero real is real: the division is the product with the real `1 / c`. -/
theorem IsReal.div_coe {x : EReal} (hx : IsReal x) {c : ℝ} (hc : c ≠ 0) :
    IsReal (Ideal.div x (c : EReal)) := by
  rw [Ideal.div_coe hc]
  exact hx.mul (IsReal.coe _)

/-- A real is not `-∞`. -/
theorem IsReal.ne_bot {x : EReal} (hx : IsReal x) : x ≠ ⊥ := by
  obtain ⟨a, rfl⟩ := hx
  exact EReal.coe_ne_bot a

/-- A real is not `+∞`. -/
theorem IsReal.ne_top {x : EReal} (hx : IsReal x) : x ≠ ⊤ := by
  obtain ⟨a, rfl⟩ := hx
  exact EReal.coe_ne_top a

/-! ### B. The reciprocal -/

/-- `max c 1` is at least one, so it is not zero. -/
theorem max_one_ne_zero (c : EReal) : max c 1 ≠ 0 :=
  (lt_of_lt_of_le zero_lt_one (le_max_right c 1)).ne'

/-- Off zero, dividing is multiplying by the reciprocal `1 / c`: both are the product with `c⁻¹`. -/
theorem div_eq_mul_recip (s c : EReal) (hc : c ≠ 0) : Ideal.div s c = s * Ideal.div 1 c := by
  rw [Ideal.div, Ideal.div, if_neg hc, if_neg hc, one_mul]

/-- Dividing by `max c 1` is multiplying by its reciprocal, whatever `s` and `c` are. -/
theorem div_max_one (s c : EReal) : Ideal.div s (max c 1) = s * Ideal.div 1 (max c 1) :=
  div_eq_mul_recip s (max c 1) (max_one_ne_zero c)

/-- The reciprocal of `max c 1` is real when `c` is: `max c 1` is a real that is at least one. -/
theorem isReal_recip_max_one {c : EReal} (hc : IsReal c) : IsReal (Ideal.div 1 (max c 1)) := by
  obtain ⟨r, rfl⟩ := hc
  have h1 : Max.max (r : EReal) 1 = ((Max.max r 1 : ℝ) : EReal) := by
    rw [← EReal.coe_one]; exact (EReal.coe_strictMono.monotone.map_max).symm
  have hne : (Max.max r 1 : ℝ) ≠ 0 := (lt_of_lt_of_le zero_lt_one (le_max_right r 1)).ne'
  rw [h1]
  exact isReal_one.div_coe hne

/-! ### C. The dense layer regrouped -/

/-- For real `x`, `u`, `v` the product distributes over the sum (it need not at the infinities). -/
theorem mul_add_of_isReal {x u v : EReal} (hx : IsReal x) (hu : IsReal u) (hv : IsReal v) :
    x * (u + v) = x * u + x * v := by
  obtain ⟨a, rfl⟩ := hx
  obtain ⟨b, rfl⟩ := hu
  obtain ⟨c, rfl⟩ := hv
  rw [← EReal.coe_add, ← EReal.coe_mul, ← EReal.coe_mul, ← EReal.coe_mul, ← EReal.coe_add, mul_add]

/-- A contraction of a real row against the sum of two real columns is the sum of the two
    contractions. -/
theorem sum_mul_add {κ : Type} [Fintype κ] (x wf wb : κ → EReal) (hx : ∀ k, IsReal (x k))
    (hwf : ∀ k, IsReal (wf k)) (hwb : ∀ k, IsReal (wb k)) :
    ∑ k, x k * (wf k + wb k) = ∑ k, x k * wf k + ∑ k, x k * wb k := by
  rw [← Finset.sum_add_distrib]
  exact Finset.sum_congr rfl fun k _ => mul_add_of_isReal (hx k) (hwf k) (hwb k)

/-- The dense layer regrouped: the two aggregate terms `a`, `b` and the two biases `bf`, `bb` are
    arbitrary extended reals, only moved around by commutativity and associativity of the sum; the one
    contraction against the summed columns splits into the two contractions because its entries are real. -/
theorem layer_regroup {κ : Type} [Fintype κ] (a b bf bb : EReal) (x wf wb : κ → EReal)
    (hx : ∀ k, IsReal (x k)) (hwf : ∀ k, IsReal (wf k)) (hwb : ∀ k, IsReal (wb k)) :
    ((a + b) + ∑ k, x k * (wf k + wb k)) + (bf + bb)
      = ((a + bf) + ∑ k, x k * wf k) + ((b + bb) + ∑ k, x k * wb k) := by
  rw [sum_mul_add x wf wb hx hwf hwb]
  abel

/-- One output entry of the dense layer is real when the aggregates, the biases, the row and the
    column are. -/
theorem layer_isReal {κ : Type} [Fintype κ] {a b bf bb : EReal} (ha : IsReal a) (hb : IsReal b)
    (hbf : IsReal bf) (hbb : IsReal bb) (x w : κ → EReal) (hx : ∀ k, IsReal (x k))
    (hw : ∀ k, IsReal (w k)) : IsReal (((a + b) + ∑ k, x k * w k) + (bf + bb)) :=
  ((ha.add hb).add (IsReal.sum _ _ fun k _ => (hx k).mul (hw k))).add (hbf.add hbb)

/-! ### E. The float literals, as the extended reals their patterns denote -/

/-- The pattern of `1.0` denotes `1`. -/
theorem ofBits_one : Ideal.ofBits .f32 0x3F800000#32 = 1 := by
  simp [Ideal.ofBits, Ideal.ieee, -EReal.coe_mul]; norm_num

/-- The pattern of `50000.0` (the row count) denotes the real `50000`. -/
theorem ofBits_50000 : Ideal.ofBits .f32 0x47435000#32 = ((50000 : ℝ) : EReal) := by
  simp [Ideal.ofBits, Ideal.ieee, -EReal.coe_mul]; norm_num

/-- The pattern of the variance offset (about `1e-5`) denotes the real `10995116 · 2⁻⁴⁰`. -/
theorem ofBits_eps : Ideal.ofBits .f32 0x3727C5AC#32 = ((10995116 * (2 : ℝ) ^ (-40 : ℤ) : ℝ) : EReal) := by
  simp [Ideal.ofBits, Ideal.ieee, -EReal.coe_mul]

/-- The variance offset is real. -/
theorem ofBits_eps_isReal : IsReal (Ideal.ofBits .f32 0x3727C5AC#32) := by
  rw [ofBits_eps]; exact IsReal.coe _

/-- The variance offset is positive. -/
theorem ofBits_eps_pos : 0 < Ideal.ofBits .f32 0x3727C5AC#32 := by
  rw [ofBits_eps]
  have h : (0 : ℝ) < 10995116 * (2 : ℝ) ^ (-40 : ℤ) := by positivity
  exact_mod_cast h

/-- The pattern of `-inf` denotes `-∞`. -/
theorem ofBits_neg_inf : Ideal.ofBits .f32 0xFF800000#32 = ⊥ := by
  simp [Ideal.ofBits, Ideal.ieee]

/-! ### D. Batch normalisation followed by the rectifier stays real -/

/-- The reciprocal square root of a positive real is real. -/
theorem isReal_rsqrt {v : EReal} (hv : IsReal v) (hpos : 0 < v) : IsReal (Ideal.rsqrt v) := by
  obtain ⟨r, rfl⟩ := hv
  have hr : 0 < r := by exact_mod_cast hpos
  rw [Ideal.rsqrt_coe, if_neg (not_lt.mpr hr.le), if_neg hr.ne']
  exact IsReal.coe _

/-- The square of a real is nonnegative. -/
theorem mul_self_nonneg_of_isReal {d : EReal} (hd : IsReal d) : 0 ≤ d * d := by
  obtain ⟨a, rfl⟩ := hd
  rw [← EReal.coe_mul]
  exact_mod_cast mul_self_nonneg a

/-- A finite sum of squares of reals is nonnegative. -/
theorem sum_mul_self_nonneg {ι : Type} [Fintype ι] (d : ι → EReal) (hd : ∀ i, IsReal (d i)) :
    0 ≤ ∑ i, d i * d i :=
  Finset.sum_nonneg fun i _ => mul_self_nonneg_of_isReal (hd i)

/-- A nonnegative real divided by a positive real is nonnegative. -/
theorem div_coe_nonneg {x : EReal} (hx : IsReal x) (h0 : 0 ≤ x) {N : ℝ} (hN : 0 < N) :
    0 ≤ Ideal.div x (N : EReal) := by
  obtain ⟨a, rfl⟩ := hx
  have ha : 0 ≤ a := by exact_mod_cast h0
  rw [Ideal.div_coe hN.ne', ← EReal.coe_mul]
  have h : 0 ≤ a * (1 / N) := mul_nonneg ha (by positivity)
  exact_mod_cast h

/-- A nonnegative real plus a positive real is positive. -/
theorem add_pos_of_isReal {v e : EReal} (hv : IsReal v) (h0 : 0 ≤ v) (he : IsReal e) (hepos : 0 < e) :
    0 < v + e := by
  obtain ⟨a, rfl⟩ := hv
  obtain ⟨b, rfl⟩ := he
  have ha : 0 ≤ a := by exact_mod_cast h0
  have hb : 0 < b := by exact_mod_cast hepos
  rw [← EReal.coe_add]
  have h : 0 < a + b := add_pos_of_nonneg_of_pos ha hb
  exact_mod_cast h

/-- Normalising real entries around ANY real centre `μ` stays real: each deviation is real, the sum of
    their squares is a nonnegative real, so the mean square is a nonnegative real, the mean square plus a
    positive real offset is a positive real, its reciprocal square root is real, and scaling, shifting and
    taking the greater with a real keep it real. -/
theorem normalise_isReal {ι : Type} [Fintype ι] (h : ι → EReal) (hh : ∀ i, IsReal (h i)) {μ : EReal}
    (hμ : IsReal μ) {N : ℝ} (hN : 0 < N) {g b e z : EReal} (hg : IsReal g) (hb : IsReal b)
    (he : IsReal e) (hepos : 0 < e) (hz : IsReal z) (n : ι) :
    IsReal (max ((((h n - μ) * Ideal.rsqrt
      (Ideal.div (0 + ∑ i, (h i - μ) * (h i - μ)) (N : EReal) + e)) * g) + b) z) := by
  have hd : ∀ i, IsReal (h i - μ) := fun i => (hh i).sub hμ
  have hS : IsReal (0 + ∑ i, (h i - μ) * (h i - μ)) :=
    isReal_zero.add (IsReal.sum _ _ fun i _ => (hd i).mul (hd i))
  have hS0 : 0 ≤ 0 + ∑ i, (h i - μ) * (h i - μ) := by
    rw [zero_add]
    exact sum_mul_self_nonneg (fun i => h i - μ) hd
  have hv : IsReal (Ideal.div (0 + ∑ i, (h i - μ) * (h i - μ)) (N : EReal)) := hS.div_coe hN.ne'
  have hv0 : 0 ≤ Ideal.div (0 + ∑ i, (h i - μ) * (h i - μ)) (N : EReal) := div_coe_nonneg hS hS0 hN
  have hr := isReal_rsqrt (hv.add he) (add_pos_of_isReal hv hv0 he hepos)
  exact ((((hd n).mul hr).mul hg).add hb).max hz

/-- Batch normalisation followed by the rectifier, on real entries with real scale, shift, offset
    (positive) and floor: the mean `(0 + Σ h) / N` is real, so this is the normalisation around a real
    centre. -/
theorem bn_relu_isReal {ι : Type} [Fintype ι] (h : ι → EReal) (hh : ∀ i, IsReal (h i)) {N : ℝ}
    (hN : 0 < N) {g b e z : EReal} (hg : IsReal g) (hb : IsReal b) (he : IsReal e) (hepos : 0 < e)
    (hz : IsReal z) (n : ι) :
    IsReal (max ((((h n - Ideal.div (0 + ∑ i, h i) (N : EReal)) * Ideal.rsqrt
      (Ideal.div (0 + ∑ i, (h i - Ideal.div (0 + ∑ j, h j) (N : EReal))
        * (h i - Ideal.div (0 + ∑ j, h j) (N : EReal))) (N : EReal) + e)) * g) + b) z) :=
  normalise_isReal h hh ((isReal_zero.add (IsReal.sum _ _ fun i _ => hh i)).div_coe hN.ne') hN hg hb he
    hepos hz n

end SageMath

end
-- ==== Proof.SageRows.lean ====
import Idealize.ShloMosaic.PureOps.Ideal.Laws
import Idealize.ShloMosaic.Lib.ValueIdx
import proofs.«150007_j7043746365769_2_alg».proof.Proof.LibPlainDot
import proofs.«150007_j7043746365769_2_alg».proof.Proof.LibSageMath

/-!
# The three layers as functions of whole arrays, row by row

Over a symbolic number of rows `R` and 128 columns, at the ideal values. The input projection of a row is the maximum
with zero of its product with a weight matrix plus a bias row. A combine adds a self term (the row's product with one
matrix, plus a bias row) and a neighbour term (the product of the row's aggregate, scaled by the row's first side
column, with another matrix, plus a bias row), optionally takes the maximum with zero, and multiplies by the row's
second side column. Every entry of an output row depends on the same row of the row-indexed operands only, so a block
of consecutive rows of the output is the same function of the corresponding blocks of the operands (`*_shift`).
Scaling an aggregate entry by the reciprocal of `max d 1` is dividing it by `max d 1`, at every extended real.
-/

noncomputable section

namespace Sage

open Idealize.ShloMosaic Cert.Lib.PlainDot
open scoped BigOperators

/-- An array of `a` rows and `b` columns at the ideal values. -/
abbrev Mat (a b : Nat) : Type := (⟨2, ![a, b]⟩ : Shape).Idx → EReal

variable {R Rb n : Nat}

/-- The entry of a one-row array under the column of an index. -/
abbrev biasIdx (j : (⟨2, ![R, 128]⟩ : Shape).Idx) : (⟨2, ![1, 128]⟩ : Shape).Idx := fun a => match a with
  | ⟨0, _⟩ => ⟨0, Nat.one_pos⟩
  | ⟨1, _⟩ => ⟨(j 1).val, (j 1).isLt⟩
/-- The first side column's entry in the row of an index. -/
abbrev sideIdx0 (j : (⟨2, ![R, 128]⟩ : Shape).Idx) : (⟨2, ![R, 2]⟩ : Shape).Idx := fun a => match a with
  | ⟨0, _⟩ => ⟨(j 0).val, (j 0).isLt⟩
  | ⟨1, _⟩ => ⟨0, Nat.zero_lt_two⟩
/-- The second side column's entry in the row of an index. -/
abbrev sideIdx1 (j : (⟨2, ![R, 128]⟩ : Shape).Idx) : (⟨2, ![R, 2]⟩ : Shape).Idx := fun a => match a with
  | ⟨0, _⟩ => ⟨(j 0).val, (j 0).isLt⟩
  | ⟨1, _⟩ => ⟨1, Nat.one_lt_two⟩

/-- The zero the rectifier compares with. -/
abbrev zeroF : EReal := Ideal.ofBits .f32 0x00000000#32

/-- The input projection. -/
def project (x : Mat R 128) (wT : Mat 128 128) (b : Mat 1 128) : Mat R 128 :=
  fun j => max (mm x wT j + b (biasIdx j)) zeroF

/-- The aggregate scaled row by row by the first side column. -/
def scaled (agg : Mat R 128) (cols : Mat R 2) : Mat R 128 := fun i => agg i * cols (sideIdx0 i)

/-- A combine before the rectifier and the mask: the self term plus the neighbour term. -/
def combinePre (x agg : Mat R 128) (cols : Mat R 2) (wsT : Mat 128 128) (bs : Mat 1 128) (wnT : Mat 128 128) (bn : Mat 1 128) :
    Mat R 128 :=
  fun j => (mm x wsT j + bs (biasIdx j)) + (mm (scaled agg cols) wnT j + bn (biasIdx j))

/-- The first combine: rectified, then masked by the second side column. -/
def combine1 (x agg : Mat R 128) (cols : Mat R 2) (wsT : Mat 128 128) (bs : Mat 1 128) (wnT : Mat 128 128) (bn : Mat 1 128) :
    Mat R 128 :=
  fun j => max (combinePre x agg cols wsT bs wnT bn j) zeroF * cols (sideIdx1 j)

/-- The second combine: masked by the second side column, no rectifier. -/
def combine2 (x agg : Mat R 128) (cols : Mat R 2) (wsT : Mat 128 128) (bs : Mat 1 128) (wnT : Mat 128 128) (bn : Mat 1 128) :
    Mat R 128 :=
  fun j => combinePre x agg cols wsT bs wnT bn j * cols (sideIdx1 j)

/-! ## Blocks of rows -/

/-- The index `off` rows further down. -/
def shift (off : Nat) (h : off + Rb ≤ R) (i : (⟨2, ![Rb, n]⟩ : Shape).Idx) : (⟨2, ![R, n]⟩ : Shape).Idx := fun a => match a with
  | ⟨0, _⟩ => ⟨off + (i 0).val, by have := (i 0).isLt; exact lt_of_lt_of_le (Nat.add_lt_add_left this off) h⟩
  | ⟨1, _⟩ => ⟨(i 1).val, (i 1).isLt⟩

theorem shift_val0 (off : Nat) (h : off + Rb ≤ R) (i : (⟨2, ![Rb, n]⟩ : Shape).Idx) : (shift off h i 0).val = off + (i 0).val := rfl
theorem shift_val1 (off : Nat) (h : off + Rb ≤ R) (i : (⟨2, ![Rb, n]⟩ : Shape).Idx) : (shift off h i 1).val = (i 1).val := rfl

theorem rowIdx_shift (off : Nat) (h : off + Rb ≤ R) (j : (⟨2, ![Rb, 128]⟩ : Shape).Idx) (k : Fin 128) :
    shift off h (rowIdx (K := 128) j k) = rowIdx (K := 128) (shift off h j) k :=
  funext fun a => Fin.ext (by match a with | ⟨0, _⟩ => rfl | ⟨1, _⟩ => rfl)
theorem colIdx_shift (off : Nat) (h : off + Rb ≤ R) (j : (⟨2, ![Rb, 128]⟩ : Shape).Idx) (k : Fin 128) :
    colIdx (K := 128) (C := 128) j k = colIdx (K := 128) (C := 128) (shift off h j) k :=
  funext fun a => Fin.ext (by match a with | ⟨0, _⟩ => rfl | ⟨1, _⟩ => rfl)
theorem biasIdx_shift (off : Nat) (h : off + Rb ≤ R) (j : (⟨2, ![Rb, 128]⟩ : Shape).Idx) : biasIdx j = biasIdx (shift off h j) :=
  funext fun a => Fin.ext (by match a with | ⟨0, _⟩ => rfl | ⟨1, _⟩ => rfl)
theorem sideIdx0_shift (off : Nat) (h : off + Rb ≤ R) (j : (⟨2, ![Rb, 128]⟩ : Shape).Idx) : shift off h (sideIdx0 j) = sideIdx0 (shift off h j) :=
  funext fun a => Fin.ext (by match a with | ⟨0, _⟩ => rfl | ⟨1, _⟩ => rfl)
theorem sideIdx1_shift (off : Nat) (h : off + Rb ≤ R) (j : (⟨2, ![Rb, 128]⟩ : Shape).Idx) : shift off h (sideIdx1 j) = sideIdx1 (shift off h j) :=
  funext fun a => Fin.ext (by match a with | ⟨0, _⟩ => rfl | ⟨1, _⟩ => rfl)

/-- A product of a block of rows is the block of the product. -/
theorem mm_shift (off : Nat) (h : off + Rb ≤ R) (X : Mat R 128) (wT : Mat 128 128) (j : (⟨2, ![Rb, 128]⟩ : Shape).Idx) :
    mm (fun i => X (shift off h i)) wT j = mm X wT (shift off h j) := by
  unfold mm
  refine Finset.sum_congr rfl fun k _ => ?_
  beta_reduce
  rw [rowIdx_shift, colIdx_shift off h]

theorem scaled_shift (off : Nat) (h : off + Rb ≤ R) (A : Mat R 128) (C : Mat R 2) :
    scaled (fun i => A (shift off h i)) (fun i => C (shift off h i)) = fun i => scaled A C (shift off h i) := by
  funext i; unfold scaled; beta_reduce; rw [sideIdx0_shift]

/-- The projection of a block of rows is the block of the projection. -/
theorem project_shift (off : Nat) (h : off + Rb ≤ R) (X : Mat R 128) (wT : Mat 128 128) (b : Mat 1 128) (j : (⟨2, ![Rb, 128]⟩ : Shape).Idx) :
    project (fun i => X (shift off h i)) wT b j = project X wT b (shift off h j) := by
  unfold project; rw [mm_shift, biasIdx_shift off h]

theorem combinePre_shift (off : Nat) (h : off + Rb ≤ R) (X A : Mat R 128) (C : Mat R 2) (wsT : Mat 128 128) (bs : Mat 1 128)
    (wnT : Mat 128 128) (bn : Mat 1 128) (j : (⟨2, ![Rb, 128]⟩ : Shape).Idx) :
    combinePre (fun i => X (shift off h i)) (fun i => A (shift off h i)) (fun i => C (shift off h i)) wsT bs wnT bn j
      = combinePre X A C wsT bs wnT bn (shift off h j) := by
  unfold combinePre; rw [scaled_shift, mm_shift, mm_shift, biasIdx_shift off h]

/-- The first combine of a block of rows is the block of the combine. -/
theorem combine1_shift (off : Nat) (h : off + Rb ≤ R) (X A : Mat R 128) (C : Mat R 2) (wsT : Mat 128 128) (bs : Mat 1 128)
    (wnT : Mat 128 128) (bn : Mat 1 128) (j : (⟨2, ![Rb, 128]⟩ : Shape).Idx) :
    combine1 (fun i => X (shift off h i)) (fun i => A (shift off h i)) (fun i => C (shift off h i)) wsT bs wnT bn j
      = combine1 X A C wsT bs wnT bn (shift off h j) := by
  unfold combine1; rw [combinePre_shift]; beta_reduce; rw [sideIdx1_shift]

/-- The second combine of a block of rows is the block of the combine. -/
theorem combine2_shift (off : Nat) (h : off + Rb ≤ R) (X A : Mat R 128) (C : Mat R 2) (wsT : Mat 128 128) (bs : Mat 1 128)
    (wnT : Mat 128 128) (bn : Mat 1 128) (j : (⟨2, ![Rb, 128]⟩ : Shape).Idx) :
    combine2 (fun i => X (shift off h i)) (fun i => A (shift off h i)) (fun i => C (shift off h i)) wsT bs wnT bn j
      = combine2 X A C wsT bs wnT bn (shift off h j) := by
  unfold combine2; rw [combinePre_shift]; beta_reduce; rw [sideIdx1_shift]

/-! ## Scaling by a reciprocal is dividing -/

/-- When the first side column holds the reciprocal of `max d 1`, the scaled aggregate is the aggregate divided by
    `max d 1`: at every extended real, no finiteness needed. -/
theorem scaled_eq_div (agg : Mat R 128) (cols : Mat R 2) (d : Mat R 128)
    (hc : ∀ i, cols (sideIdx0 i) = Ideal.div 1 (max (d i) 1)) :
    scaled agg cols = fun i => Ideal.div (agg i) (max (d i) 1) := by
  funext i; unfold scaled; rw [hc]; exact (SageMath.div_max_one _ _).symm

end Sage

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.SageLayout.lean ====
import Idealize.ShloMosaic.Lib.Pipeline.Value
import Idealize.ShloMosaic.Lib.ValueLayout
import proofs.«150007_j7043746365769_2_alg».proof.Proof.SageRows
import proofs.«150007_j7043746365769_2_alg».proof.Proof.LibRowLayout

/-!
# The layout operations of a row block, read at an index

A one-row array spread over the rows reads, at an index, its entry under the index's column. A side column cut out of
a two-column array and spread over the columns reads the array's entry in the index's row and that column. With these
the scaled aggregate and the mask of a combine are the specification's.
-/

noncomputable section

namespace Sage

open Idealize.ShloMosaic Idealize.ShloMosaic.ValueIdx Cert.KernelIdeal.MvnKernel

variable {R : Nat}

theorem biasIdx_ix2 (p : Fin R) (q : Fin 128) : biasIdx (ix2 p q) = ix2 (0 : Fin 1) q :=
  funext fun a => Fin.ext (by match a with | ⟨0, _⟩ => rfl | ⟨1, _⟩ => rfl)
theorem sideIdx0_ix2 (p : Fin R) (q : Fin 128) : sideIdx0 (ix2 p q) = ix2 p (⟨0, Nat.zero_lt_two⟩ : Fin 2) :=
  funext fun a => Fin.ext (by match a with | ⟨0, _⟩ => rfl | ⟨1, _⟩ => rfl)
theorem sideIdx1_ix2 (p : Fin R) (q : Fin 128) : sideIdx1 (ix2 p q) = ix2 p (⟨1, Nat.one_lt_two⟩ : Fin 2) :=
  funext fun a => Fin.ext (by match a with | ⟨0, _⟩ => rfl | ⟨1, _⟩ => rfl)

/-- A bias row spread over the rows, at an index. -/
theorem bias_row (b : Mat 1 128) (h : (⟨2, ![1, 128]⟩ : Shape).Broadcasts ⟨2, ![R, 128]⟩) (j : (⟨2, ![R, 128]⟩ : Shape).Idx) :
    broadcastTo ⟨2, ![R, 128]⟩ b h j = b (biasIdx j) := by
  obtain ⟨p, q, rfl⟩ : ∃ (p : Fin R) (q : Fin 128), j = ix2 p q := ⟨j 0, j 1, eq_ix2 j⟩
  rw [broadcastTo_1b_ab_apply, biasIdx_ix2]

/-- The first side column, cut out and spread over the columns, at an index. -/
theorem side_col0 (c : Mat R 2) (hs : (⟨2, ![R, 2]⟩ : Shape).Slices ![0, 0] ⟨2, ![R, 1]⟩)
    (hb : (⟨2, ![R, 1]⟩ : Shape).Broadcasts ⟨2, ![R, 128]⟩) (j : (⟨2, ![R, 128]⟩ : Shape).Idx) :
    broadcastTo ⟨2, ![R, 128]⟩ (extractStridedSlice ⟨2, ![R, 1]⟩ ![0, 0] c hs) hb j = c (sideIdx0 j) := by
  obtain ⟨p, q, rfl⟩ : ∃ (p : Fin R) (q : Fin 128), j = ix2 p q := ⟨j 0, j 1, eq_ix2 j⟩
  rw [broadcastTo_a1_ab_apply, sliceCol_apply, sideIdx0_ix2]

/-- The second side column, cut out and spread over the columns, at an index. -/
theorem side_col1 (c : Mat R 2) (hs : (⟨2, ![R, 2]⟩ : Shape).Slices ![0, 1] ⟨2, ![R, 1]⟩)
    (hb : (⟨2, ![R, 1]⟩ : Shape).Broadcasts ⟨2, ![R, 128]⟩) (j : (⟨2, ![R, 128]⟩ : Shape).Idx) :
    broadcastTo ⟨2, ![R, 128]⟩ (extractStridedSlice ⟨2, ![R, 1]⟩ ![0, 1] c hs) hb j = c (sideIdx1 j) := by
  obtain ⟨p, q, rfl⟩ : ∃ (p : Fin R) (q : Fin 128), j = ix2 p q := ⟨j 0, j 1, eq_ix2 j⟩
  rw [broadcastTo_a1_ab_apply, sliceCol_apply, sideIdx1_ix2]

/-- The aggregate times the spread first side column is the scaled aggregate. -/
theorem scaled_of_ops {φ : FTy} (agg : FVec Ideal ⟨2, ![R, 128]⟩ φ) (c : Mat R 2) (hs : (⟨2, ![R, 2]⟩ : Shape).Slices ![0, 0] ⟨2, ![R, 1]⟩)
    (hb : (⟨2, ![R, 1]⟩ : Shape).Broadcasts ⟨2, ![R, 128]⟩) :
    (fun i => agg i * broadcastTo ⟨2, ![R, 128]⟩ (extractStridedSlice ⟨2, ![R, 1]⟩ ![0, 0] c hs) hb i) = scaled agg c := by
  funext i; unfold scaled; rw [side_col0]

end Sage

end
-- ==== Proof.KernelPayload.lean ====
import proofs.«150007_j7043746365769_2_alg».proof.Proof.Gen.KernelIdeal.Skeleton
import proofs.«150007_j7043746365769_2_alg».proof.Proof.SageLayout

/-!
# The three bodies' arithmetic is the specification's, block by block

At the ideal values a change of float format is the identity and a matrix product into a zero accumulator is the plain
sum over the contracted axis, so each body's stored block is the corresponding layer function of its loaded blocks,
with each weight block transposed.
-/

noncomputable section

namespace Cert.KernelIdeal.Pay

open Cert.KernelIdeal Cert.KernelIdeal.Gen Idealize.ShloMosaic Sage Cert.Lib.PlainDot

/-- The bodies' product contracts the left operand's columns with the right operand's rows, nothing batched. -/
theorem dot_plain : dot_S5000x128_S128x128_S5000x128_1_0_0_1_n_n = DotDims.plain 5000 128 128 := rfl

/-- Region 0's stored block is the projection of its row block. -/
theorem pay0 (x0 : Vec Ideal S5000x128 .f32) (x1 : Vec Ideal S128x128 .f32) (x2 : Vec Ideal S1x128 .f32) :
    k0_pay1 (F := Ideal) x0 x1 x2 = project x0 (transpose S128x128 [1, 0] x1 transposes_S128x128_p1_0_S128x128) x2 := by
  funext j
  unfold k0_pay1 project
  simp only [shapeCast_self]
  show max (FloatOps.matmul dot_S5000x128_S128x128_S5000x128_1_0_0_1_n_n none (x0 : FVec Ideal ⟨2, ![5000, 128]⟩ .bf16)
        (transpose S128x128 [1, 0] x1 transposes_S128x128_p1_0_S128x128 : FVec Ideal ⟨2, ![128, 128]⟩ .bf16) (constant ⟨2, ![5000, 128]⟩ .f32 0x00000000#32) j
      + broadcastTo ⟨2, ![5000, 128]⟩ x2 broadcasts_S1x128_S5000x128 j) zeroF = _
  rw [matmul_zero_apply _ dot_plain, bias_row]

/-- Region 1's stored block is the first combine of its row blocks. -/
theorem pay1 (x0 : Vec Ideal S5000x128 .bf16) (x1 : Vec Ideal S5000x128 .f32) (x2 : Vec Ideal S5000x2 .f32) (x3 : Vec Ideal S128x128 .f32)
    (x4 : Vec Ideal S1x128 .f32) (x5 : Vec Ideal S128x128 .f32) (x6 : Vec Ideal S1x128 .f32) :
    k1_pay1 (F := Ideal) x0 x1 x2 x3 x4 x5 x6
      = combine1 x0 x1 x2 (transpose S128x128 [1, 0] x3 transposes_S128x128_p1_0_S128x128) x4
          (transpose S128x128 [1, 0] x5 transposes_S128x128_p1_0_S128x128) x6 := by
  funext j
  unfold k1_pay1 combine1 combinePre
  simp only [shapeCast_self]
  show max ((FloatOps.matmul dot_S5000x128_S128x128_S5000x128_1_0_0_1_n_n none (x0 : FVec Ideal ⟨2, ![5000, 128]⟩ .bf16)
        (transpose S128x128 [1, 0] x3 transposes_S128x128_p1_0_S128x128 : FVec Ideal ⟨2, ![128, 128]⟩ .bf16) (constant ⟨2, ![5000, 128]⟩ .f32 0x00000000#32) j
        + broadcastTo ⟨2, ![5000, 128]⟩ x4 broadcasts_S1x128_S5000x128 j)
      + (FloatOps.matmul dot_S5000x128_S128x128_S5000x128_1_0_0_1_n_n none ((fun i => x1 i * broadcastTo ⟨2, ![5000, 128]⟩ (extractStridedSlice ⟨2, ![5000, 1]⟩ ![0, 0] x2 slices_S5000x2_o0_0_S5000x1) broadcasts_S5000x1_S5000x128 i) : FVec Ideal ⟨2, ![5000, 128]⟩ .bf16)
        (transpose S128x128 [1, 0] x5 transposes_S128x128_p1_0_S128x128 : FVec Ideal ⟨2, ![128, 128]⟩ .bf16) (constant ⟨2, ![5000, 128]⟩ .f32 0x00000000#32) j
        + broadcastTo ⟨2, ![5000, 128]⟩ x6 broadcasts_S1x128_S5000x128 j)) zeroF
      * broadcastTo ⟨2, ![5000, 128]⟩ (extractStridedSlice ⟨2, ![5000, 1]⟩ ![0, 1] x2 slices_S5000x2_o0_1_S5000x1) broadcasts_S5000x1_S5000x128 j = _
  rw [scaled_of_ops, matmul_zero_apply _ dot_plain, matmul_zero_apply _ dot_plain, bias_row, bias_row, side_col1]

/-- Region 2's stored block is the second combine of its row blocks. -/
theorem pay2 (x0 : Vec Ideal S5000x128 .bf16) (x1 : Vec Ideal S5000x128 .f32) (x2 : Vec Ideal S5000x2 .f32) (x3 : Vec Ideal S128x128 .f32)
    (x4 : Vec Ideal S1x128 .f32) (x5 : Vec Ideal S128x128 .f32) (x6 : Vec Ideal S1x128 .f32) :
    k2_pay1 (F := Ideal) x0 x1 x2 x3 x4 x5 x6
      = combine2 x0 x1 x2 (transpose S128x128 [1, 0] x3 transposes_S128x128_p1_0_S128x128) x4
          (transpose S128x128 [1, 0] x5 transposes_S128x128_p1_0_S128x128) x6 := by
  funext j
  unfold k2_pay1 combine2 combinePre
  simp only [shapeCast_self]
  show ((FloatOps.matmul dot_S5000x128_S128x128_S5000x128_1_0_0_1_n_n none (x0 : FVec Ideal ⟨2, ![5000, 128]⟩ .bf16)
        (transpose S128x128 [1, 0] x3 transposes_S128x128_p1_0_S128x128 : FVec Ideal ⟨2, ![128, 128]⟩ .bf16) (constant ⟨2, ![5000, 128]⟩ .f32 0x00000000#32) j
        + broadcastTo ⟨2, ![5000, 128]⟩ x4 broadcasts_S1x128_S5000x128 j)
      + (FloatOps.matmul dot_S5000x128_S128x128_S5000x128_1_0_0_1_n_n none ((fun i => x1 i * broadcastTo ⟨2, ![5000, 128]⟩ (extractStridedSlice ⟨2, ![5000, 1]⟩ ![0, 0] x2 slices_S5000x2_o0_0_S5000x1) broadcasts_S5000x1_S5000x128 i) : FVec Ideal ⟨2, ![5000, 128]⟩ .bf16)
        (transpose S128x128 [1, 0] x5 transposes_S128x128_p1_0_S128x128 : FVec Ideal ⟨2, ![128, 128]⟩ .bf16) (constant ⟨2, ![5000, 128]⟩ .f32 0x00000000#32) j
        + broadcastTo ⟨2, ![5000, 128]⟩ x6 broadcasts_S1x128_S5000x128 j))
      * broadcastTo ⟨2, ![5000, 128]⟩ (extractStridedSlice ⟨2, ![5000, 1]⟩ ![0, 1] x2 slices_S5000x2_o0_1_S5000x1) broadcasts_S5000x1_S5000x128 j = _
  rw [scaled_of_ops, matmul_zero_apply _ dot_plain, matmul_zero_apply _ dot_plain, bias_row, bias_row, side_col1]

end Cert.KernelIdeal.Pay

end
-- ==== Proof.KernelArrays.lean ====
import proofs.«150007_j7043746365769_2_alg».proof.Proof.FrameDefsIdeal
import proofs.«150007_j7043746365769_2_alg».proof.Proof.KernelPayload
import Idealize.ShloMosaic.Lib.Pipeline.Value

/-!
# Each region's output array as one function of the arrays it finds

A region writes its output ten blocks of 5000 rows at a time. Block `t` of the output is the region's layer function of
block `t` of each row-indexed operand and of the whole weight and bias operands; the layer functions act row by row, so
block `t` of the output is block `t` of the layer function of the whole arrays. The ten blocks cover the 50000 rows, so the
output array ends as that function everywhere.
-/

set_option maxRecDepth 16384

noncomputable section

namespace Cert.KernelIdeal.Val

open Idealize.ShloMosaic Idealize.ShloMosaic.TcCoe
open Idealize.SL.Sem
open Idealize.ShloMosaic.Pipeline (Dat)
open Cert.KernelIdeal Cert.KernelIdeal.Gen Cert.KernelIdeal.Fr Sage

theorem hz : (![0, 0] : Fin 2 → Nat) = fun _ => 0 := funext fun a => by fin_cases a <;> rfl

variable (V : (c : Dev nD) → (b : Ref sig .tc) → Buf (Elt Ideal) ((c : Thread nD τ).loc b))

/-! ## Region 0: the input projection -/

/-- The printed index maps over the grid: a row-indexed window's block index is the point, every other window stays at its
    one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem hoff0 (t : Fin cfg0.N) : t.val * 5000 + 5000 ≤ 50000 := by
  have h : t.val < 10 := Nat.lt_of_lt_of_eq t.isLt N_0
  omega

/-- Window 0's block at point `t` is rows `5000 t … 5000 t + 4999` of its array. -/
theorem blk0_0 (c : Dev nD) (t : Fin cfg0.N) :
    iblk0 V c 0 t = fun (i : (⟨2, ![5000, 128]⟩ : Shape).Idx) => (V c main_v1 : Mat 50000 128) (shift (Rb := 5000) (n := 128) (t.val * 5000) (hoff0 t) i) := by
  funext y
  show V c main_v1 (((cfg0.win 0).blk t).view.emb y) = V c main_v1 (shift (Rb := 5000) (n := 128) (t.val * 5000) (hoff0 t) y)
  refine congrArg _ (funext fun a => Fin.ext ?_)
  obtain ⟨ea, eb, -, -, -, -, -, -⟩ := idx0 t
  match a with
  | ⟨0, _⟩ => show win0_0.index t (0 : Fin 2) * 5000 + 1 * (y 0).val = t.val * 5000 + (y 0).val; rw [ea]; omega
  | ⟨1, _⟩ => show win0_0.index t (1 : Fin 2) * 128 + 1 * (y 1).val = (y 1).val; rw [eb]; omega

/-- Window 1's block at every point is its whole array. -/
theorem blk0_1 (c : Dev nD) (t : Fin cfg0.N) : iblk0 V c 1 t = (V c main_arg4 : Mat 128 128) := by
  funext y
  show V c main_arg4 (((cfg0.win 1).blk t).view.emb y) = V c main_arg4 y
  refine congrArg _ (funext fun a => Fin.ext ?_)
  obtain ⟨-, -, ea, eb, -, -, -, -⟩ := idx0 t
  match a with
  | ⟨0, _⟩ => show win0_1.index t (0 : Fin 2) * 128 + 1 * (y 0).val = (y 0).val; rw [ea]; omega
  | ⟨1, _⟩ => show win0_1.index t (1 : Fin 2) * 128 + 1 * (y 1).val = (y 1).val; rw [eb]; omega

/-- Window 2's block at every point is its whole array. -/
theorem blk0_2 (c : Dev nD) (t : Fin cfg0.N) : iblk0 V c 2 t = (V c main_v2 : Mat 1 128) := by
  funext y
  show V c main_v2 (((cfg0.win 2).blk t).view.emb y) = V c main_v2 y
  refine congrArg _ (funext fun a => Fin.ext ?_)
  obtain ⟨-, -, -, -, ea, eb, -, -⟩ := idx0 t
  match a with
  | ⟨0, _⟩ => show win0_2.index t (0 : Fin 2) * 1 + 1 * (y 0).val = (y 0).val; rw [ea]; omega
  | ⟨1, _⟩ => show win0_2.index t (1 : Fin 2) * 128 + 1 * (y 1).val = (y 1).val; rw [eb]; omega

/-- The output window's block at point `t` sits at rows `5000 t … 5000 t + 4999`. -/
theorem emb0_out (t : Fin cfg0.N) (j : (⟨2, ![5000, 128]⟩ : Shape).Idx) :
    ((cfg0.win 3).blk t).view.emb j = shift (Rb := 5000) (n := 128) (t.val * 5000) (hoff0 t) j := by
  refine funext fun a => Fin.ext ?_
  obtain ⟨-, -, -, -, -, -, ea, eb⟩ := idx0 t
  match a with
  | ⟨0, _⟩ => show win0_3.index t (0 : Fin 2) * 5000 + 1 * (j 0).val = t.val * 5000 + (j 0).val; rw [ea]; omega
  | ⟨1, _⟩ => show win0_3.index t (1 : Fin 2) * 128 + 1 * (j 1).val = (j 1).val; rw [eb]; omega

/-- What region 0's output array ends holding: the input projection, of the arrays the region finds. -/
def G0 (c : Dev nD) : Mat 50000 128 :=
  project (V c main_v1) (transpose S128x128 [1, 0] (V c main_arg4) transposes_S128x128_p1_0_S128x128) (V c main_v2)

theorem after0_out (c : Dev nD) (t : Fin cfg0.N) : (dat0 V c).after 3 t = out0_3 (iblk0 V c 0 t) (iblk0 V c 1 t) (iblk0 V c 2 t) := by
  dsimp only [dat0]

/-- What point `t` writes back is block `t` of `G0`. -/
theorem flushed0 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_out]
  unfold out0_3
  rw [View.canon_unit_zero hz]
  simp only [View.ld_unit_zero (S := S5000x128) hz, View.ld_unit_zero (S := S128x128) hz, View.ld_unit_zero (S := S1x128) hz]
  funext j
  refine (congrFun (Pay.pay0 _ _ _) j).trans ?_
  show _ = G0 V c (((cfg0.win 3).blk t).view.emb j)
  rw [blk0_0 V c t, blk0_1 V c t, blk0_2 V c t, emb0_out t j]
  exact project_shift (t.val * 5000) (hoff0 t) _ _ _ j

/-- An index of the array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v3).slice (win0_3.rect t)).set ↔ _
  rw [View.set_slice_whole, Rect.mem_set_unit]
  exact Iff.rfl

/-- Every row is in some point's block: row `r` in block `r / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 5000 < cfg0.N := by rw [show cfg0.N = 10 from N_0]; omega
  obtain ⟨-, -, -, -, -, -, ea, eb⟩ := idx0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [ea]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [eb]; omega

/-- The output array after region 0's run. -/
theorem final0 (c : Dev nD) : (dat0 V c).arrAt 3 cfg0.N = G0 V c :=
  (dat0 V c).arrAt_eq_of_cover 3 (G0 V c) (fun t _ => flushed0 V c t) cover0

/-! ## Region 1: the first combine -/

/-- The printed index maps over the grid: a row-indexed window's block index is the point, every other window stays at its
    one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem hoff1 (t : Fin cfg1.N) : t.val * 5000 + 5000 ≤ 50000 := by
  have h : t.val < 10 := Nat.lt_of_lt_of_eq t.isLt N_1
  omega

/-- Window 0's block at point `t` is rows `5000 t … 5000 t + 4999` of its array. -/
theorem blk1_0 (c : Dev nD) (t : Fin cfg1.N) :
    iblk1 V c 0 t = fun (i : (⟨2, ![5000, 128]⟩ : Shape).Idx) => (V c main_v3 : Mat 50000 128) (shift (Rb := 5000) (n := 128) (t.val * 5000) (hoff1 t) i) := by
  funext y
  show V c main_v3 (((cfg1.win 0).blk t).view.emb y) = V c main_v3 (shift (Rb := 5000) (n := 128) (t.val * 5000) (hoff1 t) y)
  refine congrArg _ (funext fun a => Fin.ext ?_)
  obtain ⟨ea, eb, -, -, -, -, -, -, -, -, -, -, -, -, -, -⟩ := idx1 t
  match a with
  | ⟨0, _⟩ => show win1_0.index t (0 : Fin 2) * 5000 + 1 * (y 0).val = t.val * 5000 + (y 0).val; rw [ea]; omega
  | ⟨1, _⟩ => show win1_0.index t (1 : Fin 2) * 128 + 1 * (y 1).val = (y 1).val; rw [eb]; omega

/-- Window 1's block at point `t` is rows `5000 t … 5000 t + 4999` of its array. -/
theorem blk1_1 (c : Dev nD) (t : Fin cfg1.N) :
    iblk1 V c 1 t = fun (i : (⟨2, ![5000, 128]⟩ : Shape).Idx) => (V c main_v28 : Mat 50000 128) (shift (Rb := 5000) (n := 128) (t.val * 5000) (hoff1 t) i) := by
  funext y
  show V c main_v28 (((cfg1.win 1).blk t).view.emb y) = V c main_v28 (shift (Rb := 5000) (n := 128) (t.val * 5000) (hoff1 t) y)
  refine congrArg _ (funext fun a => Fin.ext ?_)
  obtain ⟨-, -, ea, eb, -, -, -, -, -, -, -, -, -, -, -, -⟩ := idx1 t
  match a with
  | ⟨0, _⟩ => show win1_1.index t (0 : Fin 2) * 5000 + 1 * (y 0).val = t.val * 5000 + (y 0).val; rw [ea]; omega
  | ⟨1, _⟩ => show win1_1.index t (1 : Fin 2) * 128 + 1 * (y 1).val = (y 1).val; rw [eb]; omega

/-- Window 2's block at point `t` is rows `5000 t … 5000 t + 4999` of its array. -/
theorem blk1_2 (c : Dev nD) (t : Fin cfg1.N) :
    iblk1 V c 2 t = fun (i : (⟨2, ![5000, 2]⟩ : Shape).Idx) => (V c main_v17 : Mat 50000 2) (shift (Rb := 5000) (n := 2) (t.val * 5000) (hoff1 t) i) := by
  funext y
  show V c main_v17 (((cfg1.win 2).blk t).view.emb y) = V c main_v17 (shift (Rb := 5000) (n := 2) (t.val * 5000) (hoff1 t) y)
  refine congrArg _ (funext fun a => Fin.ext ?_)
  obtain ⟨-, -, -, -, ea, eb, -, -, -, -, -, -, -, -, -, -⟩ := idx1 t
  match a with
  | ⟨0, _⟩ => show win1_2.index t (0 : Fin 2) * 5000 + 1 * (y 0).val = t.val * 5000 + (y 0).val; rw [ea]; omega
  | ⟨1, _⟩ => show win1_2.index t (1 : Fin 2) * 2 + 1 * (y 1).val = (y 1).val; rw [eb]; omega

/-- Window 3's block at every point is its whole array. -/
theorem blk1_3 (c : Dev nD) (t : Fin cfg1.N) : iblk1 V c 3 t = (V c main_arg6 : Mat 128 128) := by
  funext y
  show V c main_arg6 (((cfg1.win 3).blk t).view.emb y) = V c main_arg6 y
  refine congrArg _ (funext fun a => Fin.ext ?_)
  obtain ⟨-, -, -, -, -, -, ea, eb, -, -, -, -, -, -, -, -⟩ := idx1 t
  match a with
  | ⟨0, _⟩ => show win1_3.index t (0 : Fin 2) * 128 + 1 * (y 0).val = (y 0).val; rw [ea]; omega
  | ⟨1, _⟩ => show win1_3.index t (1 : Fin 2) * 128 + 1 * (y 1).val = (y 1).val; rw [eb]; omega

/-- Window 4's block at every point is its whole array. -/
theorem blk1_4 (c : Dev nD) (t : Fin cfg1.N) : iblk1 V c 4 t = (V c main_v29 : Mat 1 128) := by
  funext y
  show V c main_v29 (((cfg1.win 4).blk t).view.emb y) = V c main_v29 y
  refine congrArg _ (funext fun a => Fin.ext ?_)
  obtain ⟨-, -, -, -, -, -, -, -, ea, eb, -, -, -, -, -, -⟩ := idx1 t
  match a with
  | ⟨0, _⟩ => show win1_4.index t (0 : Fin 2) * 1 + 1 * (y 0).val = (y 0).val; rw [ea]; omega
  | ⟨1, _⟩ => show win1_4.index t (1 : Fin 2) * 128 + 1 * (y 1).val = (y 1).val; rw [eb]; omega

/-- Window 5's block at every point is its whole array. -/
theorem blk1_5 (c : Dev nD) (t : Fin cfg1.N) : iblk1 V c 5 t = (V c main_arg8 : Mat 128 128) := by
  funext y
  show V c main_arg8 (((cfg1.win 5).blk t).view.emb y) = V c main_arg8 y
  refine congrArg _ (funext fun a => Fin.ext ?_)
  obtain ⟨-, -, -, -, -, -, -, -, -, -, ea, eb, -, -, -, -⟩ := idx1 t
  match a with
  | ⟨0, _⟩ => show win1_5.index t (0 : Fin 2) * 128 + 1 * (y 0).val = (y 0).val; rw [ea]; omega
  | ⟨1, _⟩ => show win1_5.index t (1 : Fin 2) * 128 + 1 * (y 1).val = (y 1).val; rw [eb]; omega

/-- Window 6's block at every point is its whole array. -/
theorem blk1_6 (c : Dev nD) (t : Fin cfg1.N) : iblk1 V c 6 t = (V c main_v30 : Mat 1 128) := by
  funext y
  show V c main_v30 (((cfg1.win 6).blk t).view.emb y) = V c main_v30 y
  refine congrArg _ (funext fun a => Fin.ext ?_)
  obtain ⟨-, -, -, -, -, -, -, -, -, -, -, -, ea, eb, -, -⟩ := idx1 t
  match a with
  | ⟨0, _⟩ => show win1_6.index t (0 : Fin 2) * 1 + 1 * (y 0).val = (y 0).val; rw [ea]; omega
  | ⟨1, _⟩ => show win1_6.index t (1 : Fin 2) * 128 + 1 * (y 1).val = (y 1).val; rw [eb]; omega

/-- The output window's block at point `t` sits at rows `5000 t … 5000 t + 4999`. -/
theorem emb1_out (t : Fin cfg1.N) (j : (⟨2, ![5000, 128]⟩ : Shape).Idx) :
    ((cfg1.win 7).blk t).view.emb j = shift (Rb := 5000) (n := 128) (t.val * 5000) (hoff1 t) j := by
  refine funext fun a => Fin.ext ?_
  obtain ⟨-, -, -, -, -, -, -, -, -, -, -, -, -, -, ea, eb⟩ := idx1 t
  match a with
  | ⟨0, _⟩ => show win1_7.index t (0 : Fin 2) * 5000 + 1 * (j 0).val = t.val * 5000 + (j 0).val; rw [ea]; omega
  | ⟨1, _⟩ => show win1_7.index t (1 : Fin 2) * 128 + 1 * (j 1).val = (j 1).val; rw [eb]; omega

/-- What region 1's output array ends holding: the first combine, of the arrays the region finds. -/
def G1 (c : Dev nD) : Mat 50000 128 :=
  combine1 (V c main_v3) (V c main_v28) (V c main_v17) (transpose S128x128 [1, 0] (V c main_arg6) transposes_S128x128_p1_0_S128x128) (V c main_v29) (transpose S128x128 [1, 0] (V c main_arg8) transposes_S128x128_p1_0_S128x128) (V c main_v30)

theorem after1_out (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by
  dsimp only [dat1]

/-- What point `t` writes back is block `t` of `G1`. -/
theorem flushed1 (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_out]
  unfold out1_7
  rw [View.canon_unit_zero hz]
  simp only [View.ld_unit_zero (S := S5000x128) hz, View.ld_unit_zero (S := S5000x2) hz, View.ld_unit_zero (S := S128x128) hz, View.ld_unit_zero (S := S1x128) hz]
  funext j
  refine (congrFun (Pay.pay1 _ _ _ _ _ _ _) j).trans ?_
  show _ = G1 V c (((cfg1.win 7).blk t).view.emb j)
  rw [blk1_0 V c t, blk1_1 V c t, blk1_2 V c t, blk1_3 V c t, blk1_4 V c t, blk1_5 V c t, blk1_6 V c t, emb1_out t j]
  exact combine1_shift (t.val * 5000) (hoff1 t) _ _ _ _ _ _ _ j

/-- An index of the array is in point `t`'s block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v31).slice (win1_7.rect t)).set ↔ _
  rw [View.set_slice_whole, Rect.mem_set_unit]
  exact Iff.rfl

/-- Every row is in some point's block: row `r` in block `r / 5000`. -/
theorem cover1 (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have ht : (i 0).val / 5000 < cfg1.N := by rw [show cfg1.N = 10 from N_1]; omega
  obtain ⟨-, -, -, -, -, -, -, -, -, -, -, -, -, -, ea, eb⟩ := idx1 ⟨(i 0).val / 5000, ht⟩
  refine ⟨⟨(i 0).val / 5000, ht⟩, flush1_7 _, ?_⟩
  rw [mem_blk1]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [ea]; show (i 0).val / 5000 * 5000 ≤ (i 0).val ∧ (i 0).val < (i 0).val / 5000 * 5000 + 5000; omega
  | ⟨1, _⟩ =>
    show win1_7.index ⟨(i 0).val / 5000, ht⟩ (1 : Fin 2) * 128 ≤ (i 1).val ∧ (i 1).val < win1_7.index ⟨(i 0).val / 5000, ht⟩ (1 : Fin 2) * 128 + 128
    rw [eb]; omega

/-- The output array after region 1's run. -/
theorem final1 (c : Dev nD) : (dat1 V c).arrAt 7 cfg1.N = G1 V c :=
  (dat1 V c).arrAt_eq_of_cover 7 (G1 V c) (fun t _ => flushed1 V c t) cover1

/-! ## Region 2: the second combine -/

/-- The printed index maps over the grid: a row-indexed window's block index is the point, every other window stays at its
    one block. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem hoff2 (t : Fin cfg2.N) : t.val * 5000 + 5000 ≤ 50000 := by
  have h : t.val < 10 := Nat.lt_of_lt_of_eq t.isLt N_2
  omega

/-- Window 0's block at point `t` is rows `5000 t … 5000 t + 4999` of its array. -/
theorem blk2_0 (c : Dev nD) (t : Fin cfg2.N) :
    iblk2 V c 0 t = fun (i : (⟨2, ![5000, 128]⟩ : Shape).Idx) => (V c main_v31 : Mat 50000 128) (shift (Rb := 5000) (n := 128) (t.val * 5000) (hoff2 t) i) := by
  funext y
  show V c main_v31 (((cfg2.win 0).blk t).view.emb y) = V c main_v31 (shift (Rb := 5000) (n := 128) (t.val * 5000) (hoff2 t) y)
  refine congrArg _ (funext fun a => Fin.ext ?_)
  obtain ⟨ea, eb, -, -, -, -, -, -, -, -, -, -, -, -, -, -⟩ := idx2 t
  match a with
  | ⟨0, _⟩ => show win2_0.index t (0 : Fin 2) * 5000 + 1 * (y 0).val = t.val * 5000 + (y 0).val; rw [ea]; omega
  | ⟨1, _⟩ => show win2_0.index t (1 : Fin 2) * 128 + 1 * (y 1).val = (y 1).val; rw [eb]; omega

/-- Window 1's block at point `t` is rows `5000 t … 5000 t + 4999` of its array. -/
theorem blk2_1 (c : Dev nD) (t : Fin cfg2.N) :
    iblk2 V c 1 t = fun (i : (⟨2, ![5000, 128]⟩ : Shape).Idx) => (V c main_v42 : Mat 50000 128) (shift (Rb := 5000) (n := 128) (t.val * 5000) (hoff2 t) i) := by
  funext y
  show V c main_v42 (((cfg2.win 1).blk t).view.emb y) = V c main_v42 (shift (Rb := 5000) (n := 128) (t.val * 5000) (hoff2 t) y)
  refine congrArg _ (funext fun a => Fin.ext ?_)
  obtain ⟨-, -, ea, eb, -, -, -, -, -, -, -, -, -, -, -, -⟩ := idx2 t
  match a with
  | ⟨0, _⟩ => show win2_1.index t (0 : Fin 2) * 5000 + 1 * (y 0).val = t.val * 5000 + (y 0).val; rw [ea]; omega
  | ⟨1, _⟩ => show win2_1.index t (1 : Fin 2) * 128 + 1 * (y 1).val = (y 1).val; rw [eb]; omega

/-- Window 2's block at point `t` is rows `5000 t … 5000 t + 4999` of its array. -/
theorem blk2_2 (c : Dev nD) (t : Fin cfg2.N) :
    iblk2 V c 2 t = fun (i : (⟨2, ![5000, 2]⟩ : Shape).Idx) => (V c main_v17 : Mat 50000 2) (shift (Rb := 5000) (n := 2) (t.val * 5000) (hoff2 t) i) := by
  funext y
  show V c main_v17 (((cfg2.win 2).blk t).view.emb y) = V c main_v17 (shift (Rb := 5000) (n := 2) (t.val * 5000) (hoff2 t) y)
  refine congrArg _ (funext fun a => Fin.ext ?_)
  obtain ⟨-, -, -, -, ea, eb, -, -, -, -, -, -, -, -, -, -⟩ := idx2 t
  match a with
  | ⟨0, _⟩ => show win2_2.index t (0 : Fin 2) * 5000 + 1 * (y 0).val = t.val * 5000 + (y 0).val; rw [ea]; omega
  | ⟨1, _⟩ => show win2_2.index t (1 : Fin 2) * 2 + 1 * (y 1).val = (y 1).val; rw [eb]; omega

/-- Window 3's block at every point is its whole array. -/
theorem blk2_3 (c : Dev nD) (t : Fin cfg2.N) : iblk2 V c 3 t = (V c main_arg10 : Mat 128 128) := by
  funext y
  show V c main_arg10 (((cfg2.win 3).blk t).view.emb y) = V c main_arg10 y
  refine congrArg _ (funext fun a => Fin.ext ?_)
  obtain ⟨-, -, -, -, -, -, ea, eb, -, -, -, -, -, -, -, -⟩ := idx2 t
  match a with
  | ⟨0, _⟩ => show win2_3.index t (0 : Fin 2) * 128 + 1 * (y 0).val = (y 0).val; rw [ea]; omega
  | ⟨1, _⟩ => show win2_3.index t (1 : Fin 2) * 128 + 1 * (y 1).val = (y 1).val; rw [eb]; omega

/-- Window 4's block at every point is its whole array. -/
theorem blk2_4 (c : Dev nD) (t : Fin cfg2.N) : iblk2 V c 4 t = (V c main_v43 : Mat 1 128) := by
  funext y
  show V c main_v43 (((cfg2.win 4).blk t).view.emb y) = V c main_v43 y
  refine congrArg _ (funext fun a => Fin.ext ?_)
  obtain ⟨-, -, -, -, -, -, -, -, ea, eb, -, -, -, -, -, -⟩ := idx2 t
  match a with
  | ⟨0, _⟩ => show win2_4.index t (0 : Fin 2) * 1 + 1 * (y 0).val = (y 0).val; rw [ea]; omega
  | ⟨1, _⟩ => show win2_4.index t (1 : Fin 2) * 128 + 1 * (y 1).val = (y 1).val; rw [eb]; omega

/-- Window 5's block at every point is its whole array. -/
theorem blk2_5 (c : Dev nD) (t : Fin cfg2.N) : iblk2 V c 5 t = (V c main_arg12 : Mat 128 128) := by
  funext y
  show V c main_arg12 (((cfg2.win 5).blk t).view.emb y) = V c main_arg12 y
  refine congrArg _ (funext fun a => Fin.ext ?_)
  obtain ⟨-, -, -, -, -, -, -, -, -, -, ea, eb, -, -, -, -⟩ := idx2 t
  match a with
  | ⟨0, _⟩ => show win2_5.index t (0 : Fin 2) * 128 + 1 * (y 0).val = (y 0).val; rw [ea]; omega
  | ⟨1, _⟩ => show win2_5.index t (1 : Fin 2) * 128 + 1 * (y 1).val = (y 1).val; rw [eb]; omega

/-- Window 6's block at every point is its whole array. -/
theorem blk2_6 (c : Dev nD) (t : Fin cfg2.N) : iblk2 V c 6 t = (V c main_v44 : Mat 1 128) := by
  funext y
  show V c main_v44 (((cfg2.win 6).blk t).view.emb y) = V c main_v44 y
  refine congrArg _ (funext fun a => Fin.ext ?_)
  obtain ⟨-, -, -, -, -, -, -, -, -, -, -, -, ea, eb, -, -⟩ := idx2 t
  match a with
  | ⟨0, _⟩ => show win2_6.index t (0 : Fin 2) * 1 + 1 * (y 0).val = (y 0).val; rw [ea]; omega
  | ⟨1, _⟩ => show win2_6.index t (1 : Fin 2) * 128 + 1 * (y 1).val = (y 1).val; rw [eb]; omega

/-- The output window's block at point `t` sits at rows `5000 t … 5000 t + 4999`. -/
theorem emb2_out (t : Fin cfg2.N) (j : (⟨2, ![5000, 128]⟩ : Shape).Idx) :
    ((cfg2.win 7).blk t).view.emb j = shift (Rb := 5000) (n := 128) (t.val * 5000) (hoff2 t) j := by
  refine funext fun a => Fin.ext ?_
  obtain ⟨-, -, -, -, -, -, -, -, -, -, -, -, -, -, ea, eb⟩ := idx2 t
  match a with
  | ⟨0, _⟩ => show win2_7.index t (0 : Fin 2) * 5000 + 1 * (j 0).val = t.val * 5000 + (j 0).val; rw [ea]; omega
  | ⟨1, _⟩ => show win2_7.index t (1 : Fin 2) * 128 + 1 * (j 1).val = (j 1).val; rw [eb]; omega

/-- What region 2's output array ends holding: the second combine, of the arrays the region finds. -/
def G2 (c : Dev nD) : Mat 50000 128 :=
  combine2 (V c main_v31) (V c main_v42) (V c main_v17) (transpose S128x128 [1, 0] (V c main_arg10) transposes_S128x128_p1_0_S128x128) (V c main_v43) (transpose S128x128 [1, 0] (V c main_arg12) transposes_S128x128_p1_0_S128x128) (V c main_v44)

theorem after2_out (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by
  dsimp only [dat2]

/-- What point `t` writes back is block `t` of `G2`. -/
theorem flushed2 (c : Dev nD) (t : Fin cfg2.N) :
    (dat2 V c).flushed 7 t = ((cfg2.win 7).blk t).view.read (Elt Ideal) (G2 V c) := by
  show (cfg2.win 7).cut (grid2.coords t) ((dat2 V c).after 7 t) = _
  rw [after2_out]
  unfold out2_7
  rw [View.canon_unit_zero hz]
  simp only [View.ld_unit_zero (S := S5000x128) hz, View.ld_unit_zero (S := S5000x2) hz, View.ld_unit_zero (S := S128x128) hz, View.ld_unit_zero (S := S1x128) hz]
  funext j
  refine (congrFun (Pay.pay2 _ _ _ _ _ _ _) j).trans ?_
  show _ = G2 V c (((cfg2.win 7).blk t).view.emb j)
  rw [blk2_0 V c t, blk2_1 V c t, blk2_2 V c t, blk2_3 V c t, blk2_4 V c t, blk2_5 V c t, blk2_6 V c t, emb2_out t j]
  exact combine2_shift (t.val * 5000) (hoff2 t) _ _ _ _ _ _ _ j

/-- An index of the array is in point `t`'s block iff each coordinate is in the block's range on its axis. -/
theorem mem_blk2 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v45).slice (win2_7.rect t)).set ↔ _
  rw [View.set_slice_whole, Rect.mem_set_unit]
  exact Iff.rfl

/-- Every row is in some point's block: row `r` in block `r / 5000`. -/
theorem cover2 (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  have ht : (i 0).val / 5000 < cfg2.N := by rw [show cfg2.N = 10 from N_2]; omega
  obtain ⟨-, -, -, -, -, -, -, -, -, -, -, -, -, -, ea, eb⟩ := idx2 ⟨(i 0).val / 5000, ht⟩
  refine ⟨⟨(i 0).val / 5000, ht⟩, flush2_7 _, ?_⟩
  rw [mem_blk2]
  intro a
  match a with
  | ⟨0, _⟩ =>
    show win2_7.index ⟨(i 0).val / 5000, ht⟩ (0 : Fin 2) * 5000 ≤ (i 0).val ∧ (i 0).val < win2_7.index ⟨(i 0).val / 5000, ht⟩ (0 : Fin 2) * 5000 + 5000
    rw [ea]; show (i 0).val / 5000 * 5000 ≤ (i 0).val ∧ (i 0).val < (i 0).val / 5000 * 5000 + 5000; omega
  | ⟨1, _⟩ =>
    show win2_7.index ⟨(i 0).val / 5000, ht⟩ (1 : Fin 2) * 128 ≤ (i 1).val ∧ (i 1).val < win2_7.index ⟨(i 0).val / 5000, ht⟩ (1 : Fin 2) * 128 + 128
    rw [eb]; omega

/-- The output array after region 2's run. -/
theorem final2 (c : Dev nD) : (dat2 V c).arrAt 7 cfg2.N = G2 V c :=
  (dat2 V c).arrAt_eq_of_cover 7 (G2 V c) (fun t _ => flushed2 V c t) cover2

end Cert.KernelIdeal.Val

end
-- ==== Proof.RefRows.lean ====
import proofs.«150007_j7043746365769_2_alg».proof.Proof.Gen.ReferenceIdeal.Read
import proofs.«150007_j7043746365769_2_alg».proof.Proof.SageLayout

/-!
# The reference's three layers are the specification's

Read one operation at a time, the reference's activations after each layer are the layer functions of the previous
activations, of the segment sums of their gathered rows, of the transposed weights and of the bias vectors spread as
rows. The reference divides an aggregate entry by `max deg 1`; the layer functions scale it by a side column, so the
side columns are hypotheses here: the first holds the reciprocal of `max deg 1`, the second the row mask.
-/

noncomputable section

namespace Cert.ReferenceIdeal.RefVal

open Cert.ReferenceIdeal Cert.ReferenceIdeal.Read Idealize.ShloMosaic Idealize.ShloMosaic.ValueIdx Sage Cert.Lib.PlainDot

theorem dot_plain : dot_S50000x128_S128x128_S50000x128_1_0_0_1_n_n = DotDims.plain 50000 128 128 := rfl

/-- The host's product of activations with a transposed weight, at an index. -/
theorem dot_apply (x : FVec Ideal S50000x128 .f32) (w : FVec Ideal S128x128 .f32) (j : S50000x128.Idx) :
    Host.dotGeneral (F := Ideal) dot_S50000x128_S128x128_S50000x128_1_0_0_1_n_n none x w j = mm x w j := by
  simp only [Host.dotGeneral]
  exact dotGeneral_apply _ dot_plain none _ x w j

/-- The rectifier's zero, spread over the array. -/
theorem relu0 (j : S50000x128.Idx) : val_main_call0_v0 (F := Ideal) j = zeroF := by
  rw [val_main_call0_v0_apply]; rfl
theorem relu1 (j : S50000x128.Idx) : val_main_call1_v0 (F := Ideal) j = zeroF := by
  rw [val_main_call1_v0_apply]; rfl

/-- A bias vector spread as a row and then over the rows is, at an index, any one-row array holding the vector, read
    under the index's column. -/
theorem bias_apply (a : (⟨S128, .f32⟩ : BufTy).Contents (Elt Ideal)) (b : Mat 1 128) (hb : ∀ q : Fin 128, b (ix2 (0 : Fin 1) q) = a (ix1 q))
    (j : S50000x128.Idx) : val_main_v5 (F := Ideal) a j = b (biasIdx j) := by
  obtain ⟨p, q, rfl⟩ : ∃ (p : Fin 50000) (q : Fin 128), j = ix2 p q := ⟨j 0, j 1, eq_ix2 j⟩
  rw [val_main_v5_apply, val_main_v4_apply, biasIdx_ix2, hb]
  exact congrArg a (funext fun ax => Fin.ext (by match ax with | ⟨0, _⟩ => rfl))

/-- The mask vector spread over the columns, at an index. -/
theorem mask_apply (a : (⟨S50000, .f32⟩ : BufTy).Contents (Elt Ideal)) (p : Fin 50000) (q : Fin 128) :
    val_main_v43 (F := Ideal) a (ix2 p q) = a (ix1 p) := by
  rw [val_main_v43_apply, val_main_v0_apply]
  exact congrArg a (funext fun ax => Fin.ext (by match ax with | ⟨0, _⟩ => rfl))

/-- `max deg 1` spread over the columns, at an index (first layer's count). -/
theorem dn1_apply (a14 : (⟨S2x800000, .i32⟩ : BufTy).Contents (Elt Ideal)) (p : Fin 50000) (q : Fin 128) :
    val_main_v29 (F := Ideal) a14 (ix2 p q) = max (val_main_v25 (F := Ideal) a14 (ix1 p)) 1 := by
  rw [val_main_v29_apply, val_main_v28_apply, val_main_v27_apply, val_main_v26_apply]
  show max (val_main_v25 (F := Ideal) a14 _) (Ideal.ofBits .f32 0x3F800000#32) = _
  rw [SageMath.ofBits_one]
  exact congrArg (fun z => max (val_main_v25 (F := Ideal) a14 z) 1) (funext fun ax => Fin.ext (by match ax with | ⟨0, _⟩ => rfl))

/-- `max deg 1` spread over the columns, at an index (second layer's count). -/
theorem dn2_apply (a14 : (⟨S2x800000, .i32⟩ : BufTy).Contents (Elt Ideal)) (p : Fin 50000) (q : Fin 128) :
    val_main_v66 (F := Ideal) a14 (ix2 p q) = max (val_main_v62 (F := Ideal) a14 (ix1 p)) 1 := by
  rw [val_main_v66_apply, val_main_v65_apply, val_main_v64_apply, val_main_v63_apply]
  show max (val_main_v62 (F := Ideal) a14 _) (Ideal.ofBits .f32 0x3F800000#32) = _
  rw [SageMath.ofBits_one]
  exact congrArg (fun z => max (val_main_v62 (F := Ideal) a14 z) 1) (funext fun ax => Fin.ext (by match ax with | ⟨0, _⟩ => rfl))

variable (a0 : (⟨S50000x125, .f32⟩ : BufTy).Contents (Elt Ideal)) (a1 : (⟨S50000x1, .f32⟩ : BufTy).Contents (Elt Ideal)) (a2 : (⟨S50000x1, .f32⟩ : BufTy).Contents (Elt Ideal)) (a3 : (⟨S50000, .f32⟩ : BufTy).Contents (Elt Ideal)) (a4 : (⟨S128x128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a14 : (⟨S2x800000, .i32⟩ : BufTy).Contents (Elt Ideal))

/-- The input projection. -/
theorem ref_project (b : Mat 1 128) (hb : ∀ q : Fin 128, b (ix2 (0 : Fin 1) q) = a5 (ix1 q)) :
    val_main_v7 (F := Ideal) a0 a1 a2 a3 a4 a5 = project (val_main_v1 (F := Ideal) a0 a1 a2 a3) (val_main_v2 (F := Ideal) a4) b := by
  funext j
  have h3 : val_main_v3 (F := Ideal) a0 a1 a2 a3 a4 j = mm (val_main_v1 (F := Ideal) a0 a1 a2 a3) (val_main_v2 (F := Ideal) a4) j := dot_apply _ _ j
  unfold project
  rw [val_main_v7_apply, val_main_v6_apply, h3, relu0, bias_apply a5 b hb]
  rfl

end Cert.ReferenceIdeal.RefVal

end
-- ==== Proof.RefCombine1.lean ====
import proofs.«150007_j7043746365769_2_alg».proof.Proof.RefRows

/-!
# The reference's first combine is the specification's
-/

noncomputable section

namespace Cert.ReferenceIdeal.RefVal

open Cert.ReferenceIdeal Cert.ReferenceIdeal.Read Idealize.ShloMosaic Idealize.ShloMosaic.ValueIdx Sage Cert.Lib.PlainDot

variable (a0 : (⟨S50000x125, .f32⟩ : BufTy).Contents (Elt Ideal)) (a1 : (⟨S50000x1, .f32⟩ : BufTy).Contents (Elt Ideal)) (a2 : (⟨S50000x1, .f32⟩ : BufTy).Contents (Elt Ideal)) (a3 : (⟨S50000, .f32⟩ : BufTy).Contents (Elt Ideal)) (a4 : (⟨S128x128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a14 : (⟨S2x800000, .i32⟩ : BufTy).Contents (Elt Ideal))

/-- The first combine. -/
theorem ref_combine1 (bs bn : Mat 1 128) (hbs : ∀ q : Fin 128, bs (ix2 (0 : Fin 1) q) = a7 (ix1 q)) (hbn : ∀ q : Fin 128, bn (ix2 (0 : Fin 1) q) = a9 (ix1 q))
    (cols : Mat 50000 2) (hc0 : ∀ p : Fin 50000, cols (ix2 p (⟨0, Nat.zero_lt_two⟩ : Fin 2)) = Ideal.div 1 (max (val_main_v25 (F := Ideal) a14 (ix1 p)) 1))
    (hc1 : ∀ p : Fin 50000, cols (ix2 p (⟨1, Nat.one_lt_two⟩ : Fin 2)) = a3 (ix1 p)) :
    val_main_v44 (F := Ideal) a0 a1 a2 a3 a4 a5 a6 a7 a8 a9 a14
      = combine1 (val_main_v7 (F := Ideal) a0 a1 a2 a3 a4 a5) (val_main_v21 (F := Ideal) a0 a1 a2 a3 a4 a5 a14) cols (val_main_v31 (F := Ideal) a6) bs (val_main_v36 (F := Ideal) a8) bn := by
  have hsc : scaled (val_main_v21 (F := Ideal) a0 a1 a2 a3 a4 a5 a14) cols = val_main_v30 (F := Ideal) a0 a1 a2 a3 a4 a5 a14 := by
    rw [scaled_eq_div _ cols (fun i => val_main_v25 (F := Ideal) a14 (ix1 (i 0))) (fun i => by
      obtain ⟨p, q, rfl⟩ : ∃ (p : Fin 50000) (q : Fin 128), i = ix2 p q := ⟨i 0, i 1, eq_ix2 i⟩
      rw [sideIdx0_ix2, hc0])]
    funext i
    obtain ⟨p, q, rfl⟩ : ∃ (p : Fin 50000) (q : Fin 128), i = ix2 p q := ⟨i 0, i 1, eq_ix2 i⟩
    rw [val_main_v30_apply, dn1_apply]
    rfl
  funext j
  obtain ⟨p, q, rfl⟩ : ∃ (p : Fin 50000) (q : Fin 128), j = ix2 p q := ⟨j 0, j 1, eq_ix2 j⟩
  have hS : val_main_v32 (F := Ideal) a0 a1 a2 a3 a4 a5 a6 (ix2 p q) = mm (val_main_v7 (F := Ideal) a0 a1 a2 a3 a4 a5) (val_main_v31 (F := Ideal) a6) (ix2 p q) := dot_apply _ _ _
  have hN : val_main_v37 (F := Ideal) a0 a1 a2 a3 a4 a5 a8 a14 (ix2 p q) = mm (val_main_v30 (F := Ideal) a0 a1 a2 a3 a4 a5 a14) (val_main_v36 (F := Ideal) a8) (ix2 p q) := dot_apply _ _ _
  have hbS : val_main_v34 (F := Ideal) a7 (ix2 p q) = bs (biasIdx (ix2 p q)) := bias_apply a7 bs hbs _
  have hbN : val_main_v39 (F := Ideal) a9 (ix2 p q) = bn (biasIdx (ix2 p q)) := bias_apply a9 bn hbn _
  have hM : val_main_v43 (F := Ideal) a3 (ix2 p q) = a3 (ix1 p) := mask_apply a3 p q
  unfold combine1 combinePre
  rw [hsc, sideIdx1_ix2, hc1, val_main_v44_apply, val_main_v42_apply, val_main_v41_apply, val_main_v35_apply, val_main_v40_apply, hS, hN, hbS, hbN, hM, relu1]
  rfl

end Cert.ReferenceIdeal.RefVal

end
-- ==== Proof.RefCombine2.lean ====
import proofs.«150007_j7043746365769_2_alg».proof.Proof.RefRows

/-!
# The reference's second combine is the specification's
-/

noncomputable section

namespace Cert.ReferenceIdeal.RefVal

open Cert.ReferenceIdeal Cert.ReferenceIdeal.Read Idealize.ShloMosaic Idealize.ShloMosaic.ValueIdx Sage Cert.Lib.PlainDot

variable (a0 : (⟨S50000x125, .f32⟩ : BufTy).Contents (Elt Ideal)) (a1 : (⟨S50000x1, .f32⟩ : BufTy).Contents (Elt Ideal)) (a2 : (⟨S50000x1, .f32⟩ : BufTy).Contents (Elt Ideal)) (a3 : (⟨S50000, .f32⟩ : BufTy).Contents (Elt Ideal)) (a4 : (⟨S128x128, .f32⟩ : BufTy).Contents (Elt Ideal)) (a5 : (⟨S128, .f32⟩ : BufTy).Contents (Elt Ideal)) (a6 : (⟨S128x128, .f32⟩ : BufTy).Contents (Elt Ideal)) (a7 : (⟨S128, .f32⟩ : BufTy).Contents (Elt Ideal)) (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a14 : (⟨S2x800000, .i32⟩ : BufTy).Contents (Elt Ideal))

/-- The second combine. -/
theorem ref_combine2 (bs bn : Mat 1 128) (hbs : ∀ q : Fin 128, bs (ix2 (0 : Fin 1) q) = a11 (ix1 q)) (hbn : ∀ q : Fin 128, bn (ix2 (0 : Fin 1) q) = a13 (ix1 q))
    (cols : Mat 50000 2) (hc0 : ∀ p : Fin 50000, cols (ix2 p (⟨0, Nat.zero_lt_two⟩ : Fin 2)) = Ideal.div 1 (max (val_main_v62 (F := Ideal) a14 (ix1 p)) 1))
    (hc1 : ∀ p : Fin 50000, cols (ix2 p (⟨1, Nat.one_lt_two⟩ : Fin 2)) = a3 (ix1 p)) :
    val_main_v80 (F := Ideal) a0 a1 a2 a3 a4 a5 a6 a7 a8 a9 a10 a11 a12 a13 a14
      = combine2 (val_main_v44 (F := Ideal) a0 a1 a2 a3 a4 a5 a6 a7 a8 a9 a14) (val_main_v58 (F := Ideal) a0 a1 a2 a3 a4 a5 a6 a7 a8 a9 a14) cols (val_main_v68 (F := Ideal) a10) bs (val_main_v73 (F := Ideal) a12) bn := by
  have hsc : scaled (val_main_v58 (F := Ideal) a0 a1 a2 a3 a4 a5 a6 a7 a8 a9 a14) cols = val_main_v67 (F := Ideal) a0 a1 a2 a3 a4 a5 a6 a7 a8 a9 a14 := by
    rw [scaled_eq_div _ cols (fun i => val_main_v62 (F := Ideal) a14 (ix1 (i 0))) (fun i => by
      obtain ⟨p, q, rfl⟩ : ∃ (p : Fin 50000) (q : Fin 128), i = ix2 p q := ⟨i 0, i 1, eq_ix2 i⟩
      rw [sideIdx0_ix2, hc0])]
    funext i
    obtain ⟨p, q, rfl⟩ : ∃ (p : Fin 50000) (q : Fin 128), i = ix2 p q := ⟨i 0, i 1, eq_ix2 i⟩
    rw [val_main_v67_apply, dn2_apply]
    rfl
  funext j
  obtain ⟨p, q, rfl⟩ : ∃ (p : Fin 50000) (q : Fin 128), j = ix2 p q := ⟨j 0, j 1, eq_ix2 j⟩
  have hS : val_main_v69 (F := Ideal) a0 a1 a2 a3 a4 a5 a6 a7 a8 a9 a10 a14 (ix2 p q) = mm (val_main_v44 (F := Ideal) a0 a1 a2 a3 a4 a5 a6 a7 a8 a9 a14) (val_main_v68 (F := Ideal) a10) (ix2 p q) := dot_apply _ _ _
  have hN : val_main_v74 (F := Ideal) a0 a1 a2 a3 a4 a5 a6 a7 a8 a9 a12 a14 (ix2 p q) = mm (val_main_v67 (F := Ideal) a0 a1 a2 a3 a4 a5 a6 a7 a8 a9 a14) (val_main_v73 (F := Ideal) a12) (ix2 p q) := dot_apply _ _ _
  have hbS : val_main_v71 (F := Ideal) a11 (ix2 p q) = bs (biasIdx (ix2 p q)) := bias_apply a11 bs hbs _
  have hbN : val_main_v76 (F := Ideal) a13 (ix2 p q) = bn (biasIdx (ix2 p q)) := bias_apply a13 bn hbn _
  have hM : val_main_v79 (F := Ideal) a3 (ix2 p q) = a3 (ix1 p) := mask_apply a3 p q
  unfold combine2 combinePre
  rw [hsc, sideIdx1_ix2, hc1, val_main_v80_apply, val_main_v78_apply, val_main_v72_apply, val_main_v77_apply, hS, hN, hbS, hbN, hM]
  rfl

end Cert.ReferenceIdeal.RefVal

end
-- ==== Proof.BridgeHost.lean ====
import proofs.«150007_j7043746365769_2_alg».proof.Proof.FrameDefsIdeal
import proofs.«150007_j7043746365769_2_alg».proof.Proof.Gen.ReferenceIdeal.Read
import proofs.«150007_j7043746365769_2_alg».proof.Proof.SageLayout
import Idealize.ShloMosaic.Lib.StableHlo.Run
import Idealize.ShloMosaic.Lib.ValueLayout

/-!
# The kernel program's host stretches, against the reference's stages

Between its regions the kernel program applies, operation for operation, the host operations the reference applies
between its layers: the four-way concatenation of the inputs, the edge sources and targets cut out of the edge array,
the gather of the sources' rows and their segment sum over the targets, the count of edges per target. So from any
buffer contents `W` that hold the previous activations and the edge array, a stretch leaves the reference's
aggregate. What differs: the kernel program keeps each bias vector as a one-row array (a reshape), and it packs the
reciprocal of `max deg 1` and the row mask as the two columns of one side array.
-/

noncomputable section

namespace Cert.Bridge

open Idealize.ShloMosaic Idealize.ShloMosaic.TcCoe Idealize.SL.Sem Idealize.ShloMosaic.ValueIdx Idealize.ShloMosaic.StableHlo Sage
open Cert.KernelIdeal Cert.KernelIdeal.Gen

/-- Two one-column arrays set side by side: the first column is the first array, the second the second. -/
theorem concat_cols {R : Nat} (x1 x2 : (⟨2, ![R, 1]⟩ : Shape).Idx → EReal)
    (h : Shape.Concatenates [(⟨2, ![R, 1]⟩ : Shape), ⟨2, ![R, 1]⟩] ⟨2, ![R, 2]⟩ (1 : Fin 2)) (p : Fin R) :
    concatenate (⟨2, ![R, 2]⟩ : Shape) (1 : Fin 2) [⟨⟨2, ![R, 1]⟩, x1⟩, ⟨⟨2, ![R, 1]⟩, x2⟩] h (ix2 p (⟨0, Nat.zero_lt_two⟩ : Fin 2)) = x1 (ix2 p (0 : Fin 1))
    ∧ concatenate (⟨2, ![R, 2]⟩ : Shape) (1 : Fin 2) [⟨⟨2, ![R, 1]⟩, x1⟩, ⟨⟨2, ![R, 1]⟩, x2⟩] h (ix2 p (⟨1, Nat.one_lt_two⟩ : Fin 2)) = x2 (ix2 p (0 : Fin 1)) := by
  constructor
  · exact concatenate_pair_apply_left (t := ⟨2, ![R, 2]⟩) (s₁ := ⟨2, ![R, 1]⟩) (s₂ := ⟨2, ![R, 1]⟩) (1 : Fin 2) x1 x2 h
      (ix2 p (⟨0, Nat.zero_lt_two⟩ : Fin 2)) rfl (ix2 p (0 : Fin 1)) (fun b => by match b with | ⟨0, _⟩ => rfl | ⟨1, _⟩ => rfl)
  · exact concatenate_pair_apply_right (t := ⟨2, ![R, 2]⟩) (s₁ := ⟨2, ![R, 1]⟩) (s₂ := ⟨2, ![R, 1]⟩) (1 : Fin 2) x1 x2 h
      (ix2 p (⟨1, Nat.one_lt_two⟩ : Fin 2)) rfl rfl (ix2 p (0 : Fin 1))
      (fun b hb => by match b with | ⟨0, _⟩ => rfl | ⟨1, _⟩ => exact absurd rfl hb) rfl

variable (W : Valuation τ sig (Elt Ideal))

/-! ## The first stretch -/

/-- The concatenated input. -/
theorem h0_input : StableHlo.after hostOps0 W (Proc.devRef .tc main_v1)
    = Cert.ReferenceIdeal.Read.val_main_v1 (F := Ideal) (W (Proc.devRef .tc main_arg0)) (W (Proc.devRef .tc main_arg1)) (W (Proc.devRef .tc main_arg2)) (W (Proc.devRef .tc main_arg3)) := by
  after_results
  rfl

/-- The mask as a column. -/
theorem h0_mask : StableHlo.after hostOps0 W (Proc.devRef .tc main_v0) = Cert.ReferenceIdeal.Read.val_main_v0 (F := Ideal) (W (Proc.devRef .tc main_arg3)) := by
  after_results
  rfl

/-- A reshaped bias vector is a one-row array holding the vector. -/
theorem row_of_vector (x : (⟨1, ![128]⟩ : Shape).Idx → EReal) (h : (⟨1, ![128]⟩ : Shape).ShapeCasts ⟨2, ![1, 128]⟩) (q : Fin 128) :
    shapeCast (⟨2, ![1, 128]⟩ : Shape) x h (ix2 (0 : Fin 1) q) = x (ix1 q) := shapeCast_a_1a_apply x h 0 q

/-- The input projection's bias row. -/
theorem h0_bias (q : Fin 128) : (StableHlo.after hostOps0 W (Proc.devRef .tc main_v2) : Mat 1 128) (ix2 (0 : Fin 1) q) = W (Proc.devRef .tc main_arg5) (ix1 q) := by
  have e : StableHlo.after hostOps0 W (Proc.devRef .tc main_v2) = fun i => shapeCast S1x128 (W (Proc.devRef .tc main_arg5)) shapeCasts_S128_S1x128 i := by
    after_results
    rfl
  rw [e]; exact row_of_vector _ _ q

/-! ## The second stretch -/

/-- The count of edges per target, at least one: the reference's, at a row. -/
theorem count_at (x14 : (⟨Cert.ReferenceIdeal.S2x800000, .i32⟩ : BufTy).Contents (Elt Ideal)) (i : Cert.ReferenceIdeal.S50000.Idx) :
    Cert.ReferenceIdeal.Read.val_main_v27 (F := Ideal) x14 i = max (Cert.ReferenceIdeal.Read.val_main_v25 (F := Ideal) x14 i) 1 := by
  rw [Cert.ReferenceIdeal.Read.val_main_v27_apply, Cert.ReferenceIdeal.Read.val_main_v26_apply]
  show max _ (Ideal.ofBits .f32 0x3F800000#32) = _
  rw [SageMath.ofBits_one]

/-- The numerator one, at a row. -/
theorem one_at (i : Cert.ReferenceIdeal.S50000.Idx) : Cert.ReferenceIdeal.Read.val_main_v26 (F := Ideal) i = 1 := by
  rw [Cert.ReferenceIdeal.Read.val_main_v26_apply]
  show Ideal.ofBits .f32 0x3F800000#32 = _
  exact SageMath.ofBits_one

/-- The host's division, at a row. -/
theorem divf_at (a b : FVec Ideal Cert.ReferenceIdeal.S50000 .f32) (i : Cert.ReferenceIdeal.S50000.Idx) :
    Host.divf (F := Ideal) a b i = Ideal.div (a i) (b i) := rfl

/-- The first aggregate: the segment sum over the targets of the gathered activation rows. -/
theorem h1_agg (a0 : (⟨Cert.ReferenceIdeal.S50000x125, .f32⟩ : BufTy).Contents (Elt Ideal)) (a1 a2 : (⟨Cert.ReferenceIdeal.S50000x1, .f32⟩ : BufTy).Contents (Elt Ideal)) (a3 : (⟨Cert.ReferenceIdeal.S50000, .f32⟩ : BufTy).Contents (Elt Ideal)) (a4 : (⟨Cert.ReferenceIdeal.S128x128, .f32⟩ : BufTy).Contents (Elt Ideal)) (a5 : (⟨Cert.ReferenceIdeal.S128, .f32⟩ : BufTy).Contents (Elt Ideal)) (a14 : (⟨Cert.ReferenceIdeal.S2x800000, .i32⟩ : BufTy).Contents (Elt Ideal))
    (h3 : (W (Proc.devRef .tc main_v3) : Mat 50000 128) = Cert.ReferenceIdeal.Read.val_main_v7 (F := Ideal) a0 a1 a2 a3 a4 a5)
    (h14 : W (Proc.devRef .tc main_arg14) = a14) :
    StableHlo.after hostOps1 W (Proc.devRef .tc main_v28) = Cert.ReferenceIdeal.Read.val_main_v21 (F := Ideal) a0 a1 a2 a3 a4 a5 a14 := by
  after_results_simp
  rw [h3, h14]
  rfl

/-- The edge sources as a vector. -/
theorem h1_src (a14 : (⟨Cert.ReferenceIdeal.S2x800000, .i32⟩ : BufTy).Contents (Elt Ideal)) (h14 : W (Proc.devRef .tc main_arg14) = a14) :
    StableHlo.after hostOps1 W (Proc.devRef .tc main_v5) = Cert.ReferenceIdeal.Read.val_main_v46 (F := Ideal) a14 := by
  after_results_simp
  rw [h14]
  rfl

/-- The edge targets as a vector. -/
theorem h1_tgt (a14 : (⟨Cert.ReferenceIdeal.S2x800000, .i32⟩ : BufTy).Contents (Elt Ideal)) (h14 : W (Proc.devRef .tc main_arg14) = a14) :
    StableHlo.after hostOps1 W (Proc.devRef .tc main_v7) = Cert.ReferenceIdeal.Read.val_main_v48 (F := Ideal) a14 := by
  after_results_simp
  rw [h14]
  rfl

/-- The side array: the reciprocal of the count (at least one) beside the mask column. -/
theorem h1_side (a14 : (⟨Cert.ReferenceIdeal.S2x800000, .i32⟩ : BufTy).Contents (Elt Ideal)) (h14 : W (Proc.devRef .tc main_arg14) = a14) :
    StableHlo.after hostOps1 W (Proc.devRef .tc main_v17)
      = concatenate S50000x2 1 [⟨S50000x1, Cert.ReferenceIdeal.Read.val_main_v0 (F := Ideal) (Host.divf (F := Ideal) (φ := .f32) (Cert.ReferenceIdeal.Read.val_main_v26 (F := Ideal)) (Cert.ReferenceIdeal.Read.val_main_v27 (F := Ideal) a14))⟩,
          ⟨S50000x1, W (Proc.devRef .tc main_v0)⟩] concatenates_S50000x1_S50000x1_S50000x2_d1 := by
  after_results
  rw [h14]
  rfl

/-- The side array's first column is the reciprocal of `max deg 1`. -/
theorem h1_side0 (a14 : (⟨Cert.ReferenceIdeal.S2x800000, .i32⟩ : BufTy).Contents (Elt Ideal)) (h14 : W (Proc.devRef .tc main_arg14) = a14) (p : Fin 50000) :
    (StableHlo.after hostOps1 W (Proc.devRef .tc main_v17) : Mat 50000 2) (ix2 p (⟨0, Nat.zero_lt_two⟩ : Fin 2))
      = Ideal.div 1 (max (Cert.ReferenceIdeal.Read.val_main_v25 (F := Ideal) a14 (ix1 p)) 1) := by
  refine (congrFun (h1_side W a14 h14) _).trans ?_
  refine ((concat_cols _ _ _ p).1).trans ?_
  refine (Cert.ReferenceIdeal.Read.val_main_v0_apply (F := Ideal) _ (ix2 p (0 : Fin 1))).trans ?_
  refine (divf_at _ _ _).trans ?_
  rw [one_at, count_at]
  exact congrArg (fun z => Ideal.div 1 (max (Cert.ReferenceIdeal.Read.val_main_v25 (F := Ideal) a14 z) 1)) (funext fun ax => Fin.ext (by match ax with | ⟨0, _⟩ => rfl))

/-- The side array's second column is the mask. -/
theorem h1_side1 (a14 : (⟨Cert.ReferenceIdeal.S2x800000, .i32⟩ : BufTy).Contents (Elt Ideal)) (h14 : W (Proc.devRef .tc main_arg14) = a14) (a3 : (⟨Cert.ReferenceIdeal.S50000, .f32⟩ : BufTy).Contents (Elt Ideal))
    (h0 : (W (Proc.devRef .tc main_v0) : (⟨2, ![50000, 1]⟩ : Shape).Idx → EReal) = Cert.ReferenceIdeal.Read.val_main_v0 (F := Ideal) a3) (p : Fin 50000) :
    (StableHlo.after hostOps1 W (Proc.devRef .tc main_v17) : Mat 50000 2) (ix2 p (⟨1, Nat.one_lt_two⟩ : Fin 2)) = a3 (ix1 p) := by
  refine (congrFun (h1_side W a14 h14) _).trans ?_
  refine ((concat_cols _ _ _ p).2).trans ?_
  rw [h0]
  refine (Cert.ReferenceIdeal.Read.val_main_v0_apply (F := Ideal) a3 (ix2 p (0 : Fin 1))).trans ?_
  exact congrArg a3 (funext fun ax => Fin.ext (by match ax with | ⟨0, _⟩ => rfl))

/-- The first combine's self bias row. -/
theorem h1_bias_s (q : Fin 128) : (StableHlo.after hostOps1 W (Proc.devRef .tc main_v29) : Mat 1 128) (ix2 (0 : Fin 1) q) = W (Proc.devRef .tc main_arg7) (ix1 q) := by
  have e : StableHlo.after hostOps1 W (Proc.devRef .tc main_v29) = fun i => shapeCast S1x128 (W (Proc.devRef .tc main_arg7)) shapeCasts_S128_S1x128 i := by
    after_results_simp
    rfl
  rw [e]; exact row_of_vector _ _ q

/-- The first combine's neighbour bias row. -/
theorem h1_bias_n (q : Fin 128) : (StableHlo.after hostOps1 W (Proc.devRef .tc main_v30) : Mat 1 128) (ix2 (0 : Fin 1) q) = W (Proc.devRef .tc main_arg9) (ix1 q) := by
  have e : StableHlo.after hostOps1 W (Proc.devRef .tc main_v30) = fun i => shapeCast S1x128 (W (Proc.devRef .tc main_arg9)) shapeCasts_S128_S1x128 i := by
    after_results_simp
    rfl
  rw [e]; exact row_of_vector _ _ q

/-! ## The third stretch -/

/-- The second aggregate. -/
theorem h2_agg (a0 : (⟨Cert.ReferenceIdeal.S50000x125, .f32⟩ : BufTy).Contents (Elt Ideal)) (a1 a2 : (⟨Cert.ReferenceIdeal.S50000x1, .f32⟩ : BufTy).Contents (Elt Ideal)) (a3 : (⟨Cert.ReferenceIdeal.S50000, .f32⟩ : BufTy).Contents (Elt Ideal)) (a4 : (⟨Cert.ReferenceIdeal.S128x128, .f32⟩ : BufTy).Contents (Elt Ideal)) (a5 : (⟨Cert.ReferenceIdeal.S128, .f32⟩ : BufTy).Contents (Elt Ideal)) (a6 : (⟨Cert.ReferenceIdeal.S128x128, .f32⟩ : BufTy).Contents (Elt Ideal)) (a7 : (⟨Cert.ReferenceIdeal.S128, .f32⟩ : BufTy).Contents (Elt Ideal)) (a8 : (⟨Cert.ReferenceIdeal.S128x128, .f32⟩ : BufTy).Contents (Elt Ideal)) (a9 : (⟨Cert.ReferenceIdeal.S128, .f32⟩ : BufTy).Contents (Elt Ideal)) (a14 : (⟨Cert.ReferenceIdeal.S2x800000, .i32⟩ : BufTy).Contents (Elt Ideal))
    (h31 : (W (Proc.devRef .tc main_v31) : Mat 50000 128) = Cert.ReferenceIdeal.Read.val_main_v44 (F := Ideal) a0 a1 a2 a3 a4 a5 a6 a7 a8 a9 a14)
    (h5 : W (Proc.devRef .tc main_v5) = Cert.ReferenceIdeal.Read.val_main_v46 (F := Ideal) a14) (h7 : W (Proc.devRef .tc main_v7) = Cert.ReferenceIdeal.Read.val_main_v48 (F := Ideal) a14) :
    StableHlo.after hostOps2 W (Proc.devRef .tc main_v42) = Cert.ReferenceIdeal.Read.val_main_v58 (F := Ideal) a0 a1 a2 a3 a4 a5 a6 a7 a8 a9 a14 := by
  after_results_simp
  rw [h31, h5, h7]
  rfl

/-- The second combine's self bias row. -/
theorem h2_bias_s (q : Fin 128) : (StableHlo.after hostOps2 W (Proc.devRef .tc main_v43) : Mat 1 128) (ix2 (0 : Fin 1) q) = W (Proc.devRef .tc main_arg11) (ix1 q) := by
  have e : StableHlo.after hostOps2 W (Proc.devRef .tc main_v43) = fun i => shapeCast S1x128 (W (Proc.devRef .tc main_arg11)) shapeCasts_S128_S1x128 i := by
    after_results_simp
    rfl
  rw [e]; exact row_of_vector _ _ q

/-- The second combine's neighbour bias row. -/
theorem h2_bias_n (q : Fin 128) : (StableHlo.after hostOps2 W (Proc.devRef .tc main_v44) : Mat 1 128) (ix2 (0 : Fin 1) q) = W (Proc.devRef .tc main_arg13) (ix1 q) := by
  have e : StableHlo.after hostOps2 W (Proc.devRef .tc main_v44) = fun i => shapeCast S1x128 (W (Proc.devRef .tc main_arg13)) shapeCasts_S128_S1x128 i := by
    after_results_simp
    rfl
  rw [e]; exact row_of_vector _ _ q

end Cert.Bridge

end
-- ==== Proof.KernelValue.lean ====
import proofs.«150007_j7043746365769_2_alg».proof.Proof.FrameRunIdeal
import proofs.«150007_j7043746365769_2_alg».proof.Proof.KernelArrays
import proofs.«150007_j7043746365769_2_alg».proof.Proof.RefRows
import proofs.«150007_j7043746365769_2_alg».proof.Proof.RefCombine1
import proofs.«150007_j7043746365769_2_alg».proof.Proof.RefCombine2
import proofs.«150007_j7043746365769_2_alg».proof.Proof.BridgeHost

/-!
# The kernel program's buffers between items are the reference's stages

Boundary by boundary, from the launch memory: the first stretch leaves the concatenated input; region 0's output array
is the input projection of it, which is the reference's first activations; the second stretch leaves the reference's
first aggregate, and the side array holding the reciprocal of `max deg 1` and the mask; region 1's output array is the
first combine, which is the reference's second activations (dividing by `max deg 1` is scaling by its reciprocal);
the third stretch leaves the second aggregate; region 2's output array is the second combine, the reference's result.
-/

noncomputable section

namespace Cert.Bridge

open Idealize.ShloMosaic Idealize.ShloMosaic.TcCoe Idealize.SL.Sem Idealize.ShloMosaic.ValueIdx Idealize.ShloMosaic.StableHlo Sage
open Cert.KernelIdeal Cert.KernelIdeal.Gen Cert.KernelIdeal.Fr

variable (m : (ℓ : Loc nD τ sig) → Buf (Elt Ideal) ℓ) (ρ : Dev nD → PrngReg) (c : Dev nD)

/-! ## A buffer no item has written yet holds its launch contents -/

theorem k1 (r : Ref sig .tc) (h0 : r ∉ hostOps0_W) : Wb1 m ρ c (Proc.devRef .tc r) = m ((c : Thread nD τ).loc r) :=
  (StableHlo.after_of_writes_sub hostOps0 _ hostOps0_writes h0).trans rfl
theorem k2 (r : Ref sig .tc) (hne : ∀ w, Pipeline.arrRef spec0 w ≠ r) (h0 : r ∉ hostOps0_W) :
    Wb2 m ρ c (Proc.devRef .tc r) = m ((c : Thread nD τ).loc r) :=
  (Wb2_of_ne m ρ c r hne).trans (k1 m ρ c r h0)
theorem k3 (r : Ref sig .tc) (h1 : r ∉ hostOps1_W) : Wb3 m ρ c (Proc.devRef .tc r) = Wb2 m ρ c (Proc.devRef .tc r) :=
  StableHlo.after_of_writes_sub hostOps1 _ hostOps1_writes h1
theorem k5 (r : Ref sig .tc) (h2 : r ∉ hostOps2_W) : Wb5 m ρ c (Proc.devRef .tc r) = Wb4 m ρ c (Proc.devRef .tc r) :=
  StableHlo.after_of_writes_sub hostOps2 _ hostOps2_writes h2
/-- … through both later stretches and region 1, for a buffer region 1 does not touch. -/
theorem k5' (r : Ref sig .tc) (hne0 : ∀ w, Pipeline.arrRef spec0 w ≠ r) (hne1 : ∀ w, Pipeline.arrRef spec1 w ≠ r) (h0 : r ∉ hostOps0_W) (h1 : r ∉ hostOps1_W) (h2 : r ∉ hostOps2_W) :
    Wb5 m ρ c (Proc.devRef .tc r) = m ((c : Thread nD τ).loc r) :=
  (k5 m ρ c r h2).trans ((Wb4_of_ne m ρ c r hne1).trans ((k3 m ρ c r h1).trans (k2 m ρ c r hne0 h0)))
theorem k3' (r : Ref sig .tc) (hne0 : ∀ w, Pipeline.arrRef spec0 w ≠ r) (h0 : r ∉ hostOps0_W) (h1 : r ∉ hostOps1_W) :
    Wb3 m ρ c (Proc.devRef .tc r) = m ((c : Thread nD τ).loc r) :=
  (k3 m ρ c r h1).trans (k2 m ρ c r hne0 h0)

/-! ## Layer 0 -/

/-- Region 0 finds the concatenated input. -/
theorem input_eq : Vt1 m ρ c main_v1 = Cert.ReferenceIdeal.Read.val_main_v1 (F := Ideal) (m ((c : Thread nD τ).loc main_arg0)) (m ((c : Thread nD τ).loc main_arg1)) (m ((c : Thread nD τ).loc main_arg2)) (m ((c : Thread nD τ).loc main_arg3)) :=
  (h0_input (Wb0 m ρ c)).trans rfl

/-- Region 0 leaves the reference's first activations. -/
theorem act1 : (Wb2 m ρ c (Proc.devRef .tc main_v3) : Mat 50000 128) = Cert.ReferenceIdeal.Read.val_main_v7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Wb2_arr m ρ c 3).trans ((Cert.KernelIdeal.Val.final0 (Vt1 m ρ) c).trans ?_)
  unfold Cert.KernelIdeal.Val.G0
  rw [input_eq m ρ c, show Vt1 m ρ c main_arg4 = m ((c : Thread nD τ).loc main_arg4) from k1 m ρ c main_arg4 (by decide)]
  exact (Cert.ReferenceIdeal.RefVal.ref_project (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ (fun q => (h0_bias (Wb0 m ρ c) q).trans rfl)).symm

/-! ## Layer 1 -/

theorem edges2 : Wb2 m ρ c (Proc.devRef .tc main_arg14) = m ((c : Thread nD τ).loc main_arg14) := k2 m ρ c main_arg14 (by decide) (by decide)

/-- The second stretch leaves the reference's first aggregate. -/
theorem agg1 : (Wb3 m ρ c (Proc.devRef .tc main_v28) : Mat 50000 128) = Cert.ReferenceIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) :=
  h1_agg (Wb2 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) (act1 m ρ c) (edges2 m ρ c)

theorem mask2 : (Wb2 m ρ c (Proc.devRef .tc main_v0) : (⟨2, ![50000, 1]⟩ : Shape).Idx → EReal) = Cert.ReferenceIdeal.Read.val_main_v0 (F := Ideal) (m ((c : Thread nD τ).loc main_arg3)) :=
  (Wb2_of_ne m ρ c main_v0 (by decide)).trans ((h0_mask (Wb0 m ρ c)).trans rfl)

/-- The side array's first column: the reciprocal of the reference's count, at least one. -/
theorem side0 (p : Fin 50000) : (Wb3 m ρ c (Proc.devRef .tc main_v17) : Mat 50000 2) (ix2 p (⟨0, Nat.zero_lt_two⟩ : Fin 2))
    = Ideal.div 1 (max (Cert.ReferenceIdeal.Read.val_main_v25 (F := Ideal) (m ((c : Thread nD τ).loc main_arg14)) (ix1 p)) 1) :=
  h1_side0 (Wb2 m ρ c) (m ((c : Thread nD τ).loc main_arg14)) (edges2 m ρ c) p

/-- The side array's second column: the mask. -/
theorem side1 (p : Fin 50000) : (Wb3 m ρ c (Proc.devRef .tc main_v17) : Mat 50000 2) (ix2 p (⟨1, Nat.one_lt_two⟩ : Fin 2)) = (m ((c : Thread nD τ).loc main_arg3)) (ix1 p) :=
  h1_side1 (Wb2 m ρ c) (m ((c : Thread nD τ).loc main_arg14)) (edges2 m ρ c) (m ((c : Thread nD τ).loc main_arg3)) (mask2 m ρ c) p

/-- Region 1 leaves the reference's second activations. -/
theorem act2 : (Wb4 m ρ c (Proc.devRef .tc main_v31) : Mat 50000 128) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) := by
  refine (Wb4_arr m ρ c 7).trans ((Cert.KernelIdeal.Val.final1 (Vt3 m ρ) c).trans ?_)
  unfold Cert.KernelIdeal.Val.G1
  rw [show Vt3 m ρ c main_v3 = Cert.ReferenceIdeal.Read.val_main_v7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) from (k3 m ρ c main_v3 (by decide)).trans (act1 m ρ c),
    show Vt3 m ρ c main_v28 = Cert.ReferenceIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg14)) from agg1 m ρ c,
    show Vt3 m ρ c main_arg6 = m ((c : Thread nD τ).loc main_arg6) from k3' m ρ c main_arg6 (by decide) (by decide) (by decide),
    show Vt3 m ρ c main_arg8 = m ((c : Thread nD τ).loc main_arg8) from k3' m ρ c main_arg8 (by decide) (by decide) (by decide)]
  exact (Cert.ReferenceIdeal.RefVal.ref_combine1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) _ _
    (fun q => (h1_bias_s (Wb2 m ρ c) q).trans (congrFun (k2 m ρ c main_arg7 (by decide) (by decide)) _))
    (fun q => (h1_bias_n (Wb2 m ρ c) q).trans (congrFun (k2 m ρ c main_arg9 (by decide) (by decide)) _))
    _ (side0 m ρ c) (side1 m ρ c)).symm

/-! ## Layer 2 -/

/-- The third stretch leaves the reference's second aggregate. -/
theorem agg2 : (Wb5 m ρ c (Proc.devRef .tc main_v42) : Mat 50000 128) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) :=
  h2_agg (Wb4 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (act2 m ρ c)
    ((Wb4_of_ne m ρ c main_v5 (by decide)).trans (h1_src (Wb2 m ρ c) (m ((c : Thread nD τ).loc main_arg14)) (edges2 m ρ c)))
    ((Wb4_of_ne m ρ c main_v7 (by decide)).trans (h1_tgt (Wb2 m ρ c) (m ((c : Thread nD τ).loc main_arg14)) (edges2 m ρ c)))

/-- Region 2 finds the side array region 1 found. -/
theorem side5 : Wb5 m ρ c (Proc.devRef .tc main_v17) = Wb3 m ρ c (Proc.devRef .tc main_v17) :=
  (k5 m ρ c main_v17 (by decide)).trans ((Wb4_arr m ρ c 2).trans (((dat1 (Vt3 m ρ) c).arrAt_in 2 rfl _).trans (A_eq1 (Vt3 m ρ) c 2)))

/-- The second layer's count is the first's. -/
theorem count2 (x14 : (⟨Cert.ReferenceIdeal.S2x800000, .i32⟩ : BufTy).Contents (Elt Ideal)) :
    Cert.ReferenceIdeal.Read.val_main_v62 (F := Ideal) x14 = Cert.ReferenceIdeal.Read.val_main_v25 (F := Ideal) x14 := rfl

/-- Region 2 leaves the reference's result. -/
theorem result : (Wb6 m ρ c (Proc.devRef .tc main_v45) : Mat 50000 128) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (Wb6_arr m ρ c 7).trans ((Cert.KernelIdeal.Val.final2 (Vt5 m ρ) c).trans ?_)
  unfold Cert.KernelIdeal.Val.G2
  rw [show Vt5 m ρ c main_v31 = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) from (k5 m ρ c main_v31 (by decide)).trans (act2 m ρ c),
    show Vt5 m ρ c main_v42 = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) from agg2 m ρ c,
    show Vt5 m ρ c main_v17 = Wb3 m ρ c (Proc.devRef .tc main_v17) from side5 m ρ c,
    show Vt5 m ρ c main_arg10 = m ((c : Thread nD τ).loc main_arg10) from k5' m ρ c main_arg10 (by decide) (by decide) (by decide) (by decide) (by decide),
    show Vt5 m ρ c main_arg12 = m ((c : Thread nD τ).loc main_arg12) from k5' m ρ c main_arg12 (by decide) (by decide) (by decide) (by decide) (by decide)]
  exact (Cert.ReferenceIdeal.RefVal.ref_combine2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) _ _
    (fun q => (h2_bias_s (Wb4 m ρ c) q).trans (congrFun ((Wb4_of_ne m ρ c main_arg11 (by decide)).trans (k3' m ρ c main_arg11 (by decide) (by decide) (by decide))) _))
    (fun q => (h2_bias_n (Wb4 m ρ c) q).trans (congrFun ((Wb4_of_ne m ρ c main_arg13 (by decide)).trans (k3' m ρ c main_arg13 (by decide) (by decide) (by decide))) _))
    _ (fun p => (side0 m ρ c p).trans (by rw [count2])) (side1 m ρ c)).symm

end Cert.Bridge

end
-- ==== Proof.lean ====
/-
  The kernel program is three row-blocked kernel regions (an input projection, then two combines of a node's own
  activations with the degree-scaled sum of its in-neighbours' activations) among stretches of host operations (the
  concatenation of the inputs, the gather of edge sources and the segment sum over edge targets). The reference is the
  same network as one host program. Both programs run to the end and leave their arguments as launched. At the ideal
  values the two results are equal, entry by entry: a change of float format is the identity, a matrix product into a
  zero accumulator is the plain sum over the contracted axis, a block of rows of a layer is the layer of the block of
  rows, the host stretches are the reference's own operations, and multiplying an aggregate entry by the reciprocal of
  `max deg 1` is dividing it by `max deg 1` at every extended real. No finiteness of the inputs is used.
-/
import proofs.«150007_j7043746365769_2_alg».proof.Defs
import proofs.«150007_j7043746365769_2_alg».proof.Proof.Gen.Kernel
import proofs.«150007_j7043746365769_2_alg».proof.Proof.Gen.KernelIdeal
import proofs.«150007_j7043746365769_2_alg».proof.Proof.Gen.ReferenceIdeal
import proofs.«150007_j7043746365769_2_alg».proof.Proof.Gen.ReferenceIdeal.Run
import proofs.«150007_j7043746365769_2_alg».proof.Proof.Gen.ReferenceIdeal.Read
import proofs.«150007_j7043746365769_2_alg».proof.Proof.Gen.Pre_finite_inputs
import proofs.«150007_j7043746365769_2_alg».proof.Proof.FrameRunBits
import proofs.«150007_j7043746365769_2_alg».proof.Proof.FrameRunIdeal
import proofs.«150007_j7043746365769_2_alg».proof.Proof.KernelValue
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m ρ _ => Cert.Kernel.Fr.frame m ρ

/-- So does the program read at the ideal values. -/
theorem frame_ki : Cert.frame_KernelIdeal := fun m ρ _ => Cert.KernelIdeal.Fr.frame m ρ

/-- The reference runs to the end and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's result term of the arguments. -/
theorem algebraic : Cert.algebraic_KernelIdeal_ReferenceIdeal := by
  intro m ρ m' ρ' _ hagree
  refine ⟨fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c =>
      ⟨(h c _ (Cert.KernelIdeal.Fr.mem_uc Cert.KernelIdeal.main_v45 (by decide))).trans (Cert.Bridge.result m ρ c),
       (h c _ (Cert.KernelIdeal.Fr.mem_uc Cert.KernelIdeal.main_arg0 (by decide))).trans (Cert.KernelIdeal.Fr.Wb6_main_arg0 m ρ c),
       (h c _ (Cert.KernelIdeal.Fr.mem_uc Cert.KernelIdeal.main_arg1 (by decide))).trans (Cert.KernelIdeal.Fr.Wb6_main_arg1 m ρ c),
       (h c _ (Cert.KernelIdeal.Fr.mem_uc Cert.KernelIdeal.main_arg2 (by decide))).trans (Cert.KernelIdeal.Fr.Wb6_main_arg2 m ρ c),
       (h c _ (Cert.KernelIdeal.Fr.mem_uc Cert.KernelIdeal.main_arg3 (by decide))).trans (Cert.KernelIdeal.Fr.Wb6_main_arg3 m ρ c),
       (h c _ (Cert.KernelIdeal.Fr.mem_uc Cert.KernelIdeal.main_arg4 (by decide))).trans (Cert.KernelIdeal.Fr.Wb6_main_arg4 m ρ c),
       (h c _ (Cert.KernelIdeal.Fr.mem_uc Cert.KernelIdeal.main_arg5 (by decide))).trans (Cert.KernelIdeal.Fr.Wb6_main_arg5 m ρ c),
       (h c _ (Cert.KernelIdeal.Fr.mem_uc Cert.KernelIdeal.main_arg6 (by decide))).trans (Cert.KernelIdeal.Fr.Wb6_main_arg6 m ρ c),
       (h c _ (Cert.KernelIdeal.Fr.mem_uc Cert.KernelIdeal.main_arg7 (by decide))).trans (Cert.KernelIdeal.Fr.Wb6_main_arg7 m ρ c),
       (h c _ (Cert.KernelIdeal.Fr.mem_uc Cert.KernelIdeal.main_arg8 (by decide))).trans (Cert.KernelIdeal.Fr.Wb6_main_arg8 m ρ c),
       (h c _ (Cert.KernelIdeal.Fr.mem_uc Cert.KernelIdeal.main_arg9 (by decide))).trans (Cert.KernelIdeal.Fr.Wb6_main_arg9 m ρ c),
       (h c _ (Cert.KernelIdeal.Fr.mem_uc Cert.KernelIdeal.main_arg10 (by decide))).trans (Cert.KernelIdeal.Fr.Wb6_main_arg10 m ρ c),
       (h c _ (Cert.KernelIdeal.Fr.mem_uc Cert.KernelIdeal.main_arg11 (by decide))).trans (Cert.KernelIdeal.Fr.Wb6_main_arg11 m ρ c),
       (h c _ (Cert.KernelIdeal.Fr.mem_uc Cert.KernelIdeal.main_arg12 (by decide))).trans (Cert.KernelIdeal.Fr.Wb6_main_arg12 m ρ c),
       (h c _ (Cert.KernelIdeal.Fr.mem_uc Cert.KernelIdeal.main_arg13 (by decide))).trans (Cert.KernelIdeal.Fr.Wb6_main_arg13 m ρ c),
       (h c _ (Cert.KernelIdeal.Fr.mem_uc Cert.KernelIdeal.main_arg14 (by decide))).trans (Cert.KernelIdeal.Fr.Wb6_main_arg14 m ρ c)⟩)
      (Cert.KernelIdeal.Fr.run_all m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10, e11, e12, e13, e14⟩ := hagree c
    rw [(h c).1, Cert.ReferenceIdeal.Read.val_main_v80_eq, e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
